-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S11 : Shape := ⟨1, ![11]⟩
abbrev S128x64 : Shape := ⟨2, ![128, 64]⟩
abbrev S64 : Shape := ⟨1, ![64]⟩
abbrev S64x1000 : Shape := ⟨2, ![64, 1000]⟩
abbrev S1000 : Shape := ⟨1, ![1000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S11 : S_.BroadcastsInDim S11 (![] : Fin 0 → Fin S11.rank)
  reducesTo_S11_S_d0 : S11.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1000 : S_.BroadcastsInDim S64x1000 (![] : Fin 0 → Fin S64x1000.rank)
  reducesTo_S64x1000_S_d0_1 : S64x1000.ReducesTo [0, 1] S_
  bcast_S_S1000 : S_.BroadcastsInDim S1000 (![] : Fin 0 → Fin S1000.rank)
  reducesTo_S1000_S_d0 : S1000.ReducesTo [0] S_

variable [Facts]

def fn_part4 {F : FTy → Type} [FloatOps F] (main_arg15 : FVec F S64x1000 .f32) (main_arg16 : FVec F S1000 .f32) (main_v63 : IVec S_ 1) (main_v67 : IVec S_ 1) : IVec S_ 1 :=
  let main_v68 : IVec S_ 1 := andi main_v63 main_v67
  let main_v69 : FVec F S64x1000 .f32 := Host.absf main_arg15
  let main_cst_26 : FVec F S_ .f32 := constant S_ .f32 0x7F800000#32
  let main_v70 : FVec F S64x1000 .f32 := broadcastInDim S64x1000 ![] bcast_S_S64x1000 main_cst_26
  let main_v71 : IVec S64x1000 1 := cmpf .olt main_v69 main_v70
  let main_c_27 : IVec S_ 1 := constantI S_ 1 1#1
  let main_v72 : IVec S_ 1 := (fun x v => Host.reduce IntOp.andi x v reducesTo_S64x1000_S_d0_1 h_S_) main_v71 main_c_27
  let main_v73 : IVec S_ 1 := andi main_v68 main_v72
  let main_v74 : FVec F S1000 .f32 := Host.absf main_arg16
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  main_v78

def fn_part3 {F : FTy → Type} [FloatOps F] (main_arg12 : FVec F S64 .f32) (main_arg13 : FVec F S64 .f32) (main_arg14 : FVec F S64 .f32) (main_arg15 : FVec F S64x1000 .f32) (main_arg16 : FVec F S1000 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S128 .f32) (main_arg9 : FVec F S128 .f32) (main_arg10 : FVec F S11 .f32) (main_arg11 : FVec F S128x64 .f32) (main_arg12 : FVec F S64 .f32) (main_arg13 : FVec F S64 .f32) (main_arg14 : FVec F S64 .f32) (main_arg15 : FVec F S64x1000 .f32) (main_arg16 : FVec F S1000 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S11 .f32 := Host.absf main_arg10
  let main_cst_16 : FVec F S_ .f32 := constant S_ .f32 0x7F800000#32
  let main_v45 : FVec F S11 .f32 := broadcastInDim S11 ![] bcast_S_S11 main_cst_16
  let main_v46 : IVec S11 1 := cmpf .olt main_v44 main_v45
  let main_c_17 : IVec S_ 1 := constantI S_ 1 1#1
  let main_v47 : IVec S_ 1 := (fun x v => Host.reduce IntOp.andi x v reducesTo_S11_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_arg16 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S11 .f32) (main_arg11 : FVec F S128x64 .f32) (main_arg12 : FVec F S64 .f32) (main_arg13 : FVec F S64 .f32) (main_arg14 : FVec F S64 .f32) (main_arg15 : FVec F S64x1000 .f32) (main_arg16 : FVec F S1000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S11 .f32) (main_arg11 : FVec F S128x64 .f32) (main_arg12 : FVec F S64 .f32) (main_arg13 : FVec F S64 .f32) (main_arg14 : FVec F S64 .f32) (main_arg15 : FVec F S64x1000 .f32) (main_arg16 : FVec F S1000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S11 : Shape := ⟨1, ![11]⟩
abbrev S128x64 : Shape := ⟨2, ![128, 64]⟩
abbrev S64 : Shape := ⟨1, ![64]⟩
abbrev S64x1000 : Shape := ⟨2, ![64, 1000]⟩
abbrev S1000 : Shape := ⟨1, ![1000]⟩
abbrev S1x128 : Shape := ⟨2, ![1, 128]⟩
abbrev S1000x128 : Shape := ⟨2, ![1000, 128]⟩
abbrev S_ : Shape := ⟨0, ![]⟩
abbrev S1x800000 : Shape := ⟨2, ![1, 800000]⟩
abbrev S800000 : Shape := ⟨1, ![800000]⟩
abbrev S1 : Shape := ⟨1, ![1]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S1000x64 : Shape := ⟨2, ![1000, 64]⟩
abbrev S1x1000 : Shape := ⟨2, ![1, 1000]⟩
abbrev S50000x1000 : Shape := ⟨2, ![50000, 1000]⟩
abbrev S1000x1000 : Shape := ⟨2, ![1000, 1000]⟩

abbrev nBuf : Space → Nat
  | .hbm => 325
  | .vmem => 50
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S11, .f32⟩
  | 11 => ⟨S128x64, .f32⟩
  | 12 => ⟨S64, .f32⟩
  | 13 => ⟨S64, .f32⟩
  | 14 => ⟨S64, .f32⟩
  | 15 => ⟨S64x1000, .f32⟩
  | 16 => ⟨S1000, .f32⟩
  | 17 => ⟨S1x128, .f32⟩
  | 18 => ⟨S50000x128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S1x128, .f32⟩
  | 49 => ⟨S1x128, .f32⟩
  | 50 => ⟨S1x128, .f32⟩
  | 51 => ⟨S50000x128, .f32⟩
  | 52 => ⟨S1x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S_, .i32⟩
  | 60 => ⟨S_, .f32⟩
  | 61 => ⟨S128, .f32⟩
  | 62 => ⟨S1x128, .f32⟩
  | 63 => ⟨S_, .f32⟩
  | 64 => ⟨S1x128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S_, .f32⟩
  | 71 => ⟨S_, .f32⟩
  | 72 => ⟨S_, .f32⟩
  | 73 => ⟨S128, .f32⟩
  | 74 => ⟨S128, .f32⟩
  | 75 => ⟨S128, .f32⟩
  | 76 => ⟨S_, .f32⟩
  | 77 => ⟨S_, .i1⟩
  | 78 => ⟨S_, .f32⟩
  | 79 => ⟨S_, .f32⟩
  | 80 => ⟨S128, .f32⟩
  | 81 => ⟨S128, .f32⟩
  | 82 => ⟨S1x128, .f32⟩
  | 83 => ⟨S1x128, .f32⟩
  | 84 => ⟨S1x128, .f32⟩
  | 85 => ⟨S1x128, .f32⟩
  | 86 => ⟨S50000x128, .f32⟩
  | 87 => ⟨S1x800000, .i32⟩
  | 88 => ⟨S800000, .i32⟩
  | 89 => ⟨S1x800000, .i32⟩
  | 90 => ⟨S800000, .i32⟩
  | 91 => ⟨S_, .f32⟩
  | 92 => ⟨S_, .f32⟩
  | 93 => ⟨S_, .f32⟩
  | 94 => ⟨S_, .f32⟩
  | 95 => ⟨S1, .f32⟩
  | 96 => ⟨S11, .f32⟩
  | 97 => ⟨S11, .f32⟩
  | 98 => ⟨S11, .f32⟩
  | 99 => ⟨S_, .f32⟩
  | 100 => ⟨S_, .f32⟩
  | 101 => ⟨S1, .f32⟩
  | 102 => ⟨S11, .f32⟩
  | 103 => ⟨S11, .f32⟩
  | 104 => ⟨S1, .f32⟩
  | 105 => ⟨S_, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S1, .f32⟩
  | 122 => ⟨S_, .f32⟩
  | 123 => ⟨S50000x128, .f32⟩
  | 124 => ⟨S50000x128, .f32⟩
  | 125 => ⟨S50000x128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S1, .f32⟩
  | 12 => ⟨S_, .f32⟩
  | 13 => ⟨S50000x128, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S50000x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1, .f32⟩
  | 48 => ⟨S_, .f32⟩
  | 49 => ⟨S50000x128, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1, .f32⟩
  | 66 => ⟨S_, .f32⟩
  | 67 => ⟨S50000x128, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1, .f32⟩
  | 84 => ⟨S_, .f32⟩
  | 85 => ⟨S50000x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1, .f32⟩
  | 120 => ⟨S_, .f32⟩
  | 121 => ⟨S50000x128, .f32⟩
  | 122 => ⟨S50000x128, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S1, .f32⟩
  | 10 => ⟨S_, .f32⟩
  | 11 => ⟨S50000x128, .f32⟩
  | 12 => ⟨S50000x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1, .f32⟩
  | 28 => ⟨S_, .f32⟩
  | 29 => ⟨S50000x128, .f32⟩
  | 30 => ⟨S50000x128, .f32⟩
  | 31 => ⟨S50000x128, .f32⟩
  | 32 => ⟨S1x64, .f32⟩
  | 33 => ⟨S50000x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S50000x64, .f32⟩
  | 47 => ⟨S50000x64, .f32⟩
  | 48 => ⟨S50000x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S1x64, .f32⟩
  | 64 => ⟨S1x64, .f32⟩
  | 65 => ⟨S1x64, .f32⟩
  | 66 => ⟨S50000x64, .f32⟩
  | 67 => ⟨S1x1000, .f32⟩
  | 68 => ⟨S50000x1000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x64, .f32⟩
  | .local _ .vmem, ⟨33, _⟩ => ⟨S1x64, .f32⟩
  | .local _ .vmem, ⟨34, _⟩ => ⟨S1000x64, .f32⟩
  | .local _ .vmem, ⟨35, _⟩ => ⟨S1000x64, .f32⟩
  | .local _ .vmem, ⟨36, _⟩ => ⟨S1000x64, .f32⟩
  | .local _ .vmem, ⟨37, _⟩ => ⟨S1000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1000x64, .f32⟩
  | .local _ .vmem, ⟨43, _⟩ => ⟨S1000x64, .f32⟩
  | .local _ .vmem, ⟨44, _⟩ => ⟨S1000x64, .f32⟩
  | .local _ .vmem, ⟨45, _⟩ => ⟨S1000x64, .f32⟩
  | .local _ .vmem, ⟨46, _⟩ => ⟨S64x1000, .f32⟩
  | .local _ .vmem, ⟨47, _⟩ => ⟨S1x1000, .f32⟩
  | .local _ .vmem, ⟨48, _⟩ => ⟨S1000x1000, .f32⟩
  | .local _ .vmem, ⟨49, _⟩ => ⟨S1000x1000, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_1 : Ref sig .tc := ⟨.hbm, 54, rfl⟩
abbrev main_v13 : Ref sig .tc := ⟨.hbm, 55, rfl⟩
abbrev main_cst_2 : Ref sig .tc := ⟨.hbm, 56, rfl⟩
abbrev main_v14 : Ref sig .tc := ⟨.hbm, 57, rfl⟩
abbrev main_v15 : Ref sig .tc := ⟨.hbm, 58, rfl⟩
abbrev main_c_3 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_cst_3 : Ref sig .tc := ⟨.hbm, 76, rfl⟩
abbrev main_call1_v12 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_cst_4 : Ref sig .tc := ⟨.hbm, 91, rfl⟩
abbrev main_v26 : Ref sig .tc := ⟨.hbm, 92, rfl⟩
abbrev main_cst_5 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_cst_6 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_c_7 : Ref sig .tc := ⟨.hbm, 108, rfl⟩
abbrev main_v40 : Ref sig .tc := ⟨.hbm, 109, rfl⟩
abbrev main_v41 : Ref sig .tc := ⟨.hbm, 110, rfl⟩
abbrev main_c_8 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_cst_9 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_c_10 : Ref sig .tc := ⟨.hbm, 126, rfl⟩
abbrev main_v55 : Ref sig .tc := ⟨.hbm, 127, rfl⟩
abbrev main_v56 : Ref sig .tc := ⟨.hbm, 128, rfl⟩
abbrev main_c_11 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_12 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_13 : Ref sig .tc := ⟨.hbm, 144, rfl⟩
abbrev main_v70 : Ref sig .tc := ⟨.hbm, 145, rfl⟩
abbrev main_v71 : Ref sig .tc := ⟨.hbm, 146, rfl⟩
abbrev main_c_14 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_cst_15 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_16 : Ref sig .tc := ⟨.hbm, 162, rfl⟩
abbrev main_v85 : Ref sig .tc := ⟨.hbm, 163, rfl⟩
abbrev main_v86 : Ref sig .tc := ⟨.hbm, 164, rfl⟩
abbrev main_c_17 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_18 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_c_19 : Ref sig .tc := ⟨.hbm, 180, rfl⟩
abbrev main_v100 : Ref sig .tc := ⟨.hbm, 181, rfl⟩
abbrev main_v101 : Ref sig .tc := ⟨.hbm, 182, rfl⟩
abbrev main_c_20 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_cst_21 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_c_22 : Ref sig .tc := ⟨.hbm, 198, rfl⟩
abbrev main_v115 : Ref sig .tc := ⟨.hbm, 199, rfl⟩
abbrev main_v116 : Ref sig .tc := ⟨.hbm, 200, rfl⟩
abbrev main_c_23 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_cst_24 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_25 : Ref sig .tc := ⟨.hbm, 216, rfl⟩
abbrev main_v130 : Ref sig .tc := ⟨.hbm, 217, rfl⟩
abbrev main_v131 : Ref sig .tc := ⟨.hbm, 218, rfl⟩
abbrev main_c_26 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_27 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_c_28 : Ref sig .tc := ⟨.hbm, 234, rfl⟩
abbrev main_v145 : Ref sig .tc := ⟨.hbm, 235, rfl⟩
abbrev main_v146 : Ref sig .tc := ⟨.hbm, 236, rfl⟩
abbrev main_c_29 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_30 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_c_31 : Ref sig .tc := ⟨.hbm, 252, rfl⟩
abbrev main_v160 : Ref sig .tc := ⟨.hbm, 253, rfl⟩
abbrev main_v161 : Ref sig .tc := ⟨.hbm, 254, rfl⟩
abbrev main_c_32 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_33 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_c_34 : Ref sig .tc := ⟨.hbm, 270, rfl⟩
abbrev main_v175 : Ref sig .tc := ⟨.hbm, 271, rfl⟩
abbrev main_v176 : Ref sig .tc := ⟨.hbm, 272, rfl⟩
abbrev main_c_35 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_cst_36 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_cst_37 : Ref sig .tc := ⟨.hbm, 290, rfl⟩
abbrev main_v192 : Ref sig .tc := ⟨.hbm, 291, rfl⟩
abbrev main_cst_38 : Ref sig .tc := ⟨.hbm, 292, rfl⟩
abbrev main_v193 : Ref sig .tc := ⟨.hbm, 293, rfl⟩
abbrev main_v194 : Ref sig .tc := ⟨.hbm, 294, rfl⟩
abbrev main_c_39 : Ref sig .tc := ⟨.hbm, 295, rfl⟩
abbrev main_call2_cst : Ref sig .tc := ⟨.hbm, 296, rfl⟩
abbrev main_call2_v0 : Ref sig .tc := ⟨.hbm, 297, rfl⟩
abbrev main_call2_v1 : Ref sig .tc := ⟨.hbm, 298, rfl⟩
abbrev main_call2_cst_0 : Ref sig .tc := ⟨.hbm, 299, rfl⟩
abbrev main_call2_v2 : Ref sig .tc := ⟨.hbm, 300, rfl⟩
abbrev main_call2_v3 : Ref sig .tc := ⟨.hbm, 301, rfl⟩
abbrev main_call2_v4 : Ref sig .tc := ⟨.hbm, 302, rfl⟩
abbrev main_call2_v5 : Ref sig .tc := ⟨.hbm, 303, rfl⟩
abbrev main_call2_v6 : Ref sig .tc := ⟨.hbm, 304, rfl⟩
abbrev main_call2_v7 : Ref sig .tc := ⟨.hbm, 305, rfl⟩
abbrev main_call2_cst_1 : Ref sig .tc := ⟨.hbm, 306, rfl⟩
abbrev main_call2_v8 : Ref sig .tc := ⟨.hbm, 307, rfl⟩
abbrev main_call2_cst_2 : Ref sig .tc := ⟨.hbm, 308, rfl⟩
abbrev main_call2_v9 : Ref sig .tc := ⟨.hbm, 309, rfl⟩
abbrev main_call2_v10 : Ref sig .tc := ⟨.hbm, 310, rfl⟩
abbrev main_call2_v11 : Ref sig .tc := ⟨.hbm, 311, rfl⟩
abbrev main_call2_cst_3 : Ref sig .tc := ⟨.hbm, 312, rfl⟩
abbrev main_call2_v12 : Ref sig .tc := ⟨.hbm, 313, rfl⟩
abbrev main_call2_cst_4 : Ref sig .tc := ⟨.hbm, 314, rfl⟩
abbrev main_call2_call0_v0 : Ref sig .tc := ⟨.hbm, 315, rfl⟩
abbrev main_call2_call0_v1 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1000 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x1000 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S1000x128_S1000x128 : S1000x128.ShapeCasts S1000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S11_S_d0 : S11.ReducesTo [0] S_
  bcast_S_S1 : S_.BroadcastsInDim S1 (![] : Fin 0 → Fin S1.rank)
  bcast_S1_S11_0 : S1.BroadcastsInDim S11 (![0] : Fin 1 → Fin S11.rank)
  slices_S11_S1_0 : S11.Slices ![0] S1
  shapeCasts_S1_S_ : S1.ShapeCasts S_
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S1000x64_S1000x64 : S1000x64.ShapeCasts S1000x64
  shapeCasts_S1000_S1x1000 : S1000.ShapeCasts S1x1000
  inb_S64x1000_S64x1000_0_0 : ∀ a, (![0, 0] : Fin 2 → Nat) a + S64x1000.size a ≤ S64x1000.size a
  h_S64x1000 : 0 < S64x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1000x1000 : S1x1000.Broadcasts S1000x1000
  inb_S1000x1000_S1000x1000_0_0 : ∀ a, (![0, 0] : Fin 2 → Nat) a + S1000x1000.size a ≤ S1000x1000.size a
  h_S1000x1000 : 0 < S1000x1000.numel
  dot_S1000x128_S128x128_S1000x128_1_0_0_1_n_n_wf : DotDims.WF S1000x128 S128x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x64_S1000x64_1_0_0_1_n_n_wf : DotDims.WF S1000x128 S128x64 S1000x64 [1] [0] [0] [1] [] []
  dot_S1000x64_S64x1000_S1000x1000_1_0_0_1_n_n_wf : DotDims.WF S1000x64 S64x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S50000x128.size a
  hwx2_3 : ∀ i : grid2.Coords, EltTy.bits .f32 = 32 ∨ (Rect.block (s := S50000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S50000x128.size a
  hwx3_6 : ∀ i : grid3.Coords, EltTy.bits .f32 = 32 ∨ (Rect.block (s := S50000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S50000x64.size a
  hwx4_3 : ∀ i : grid4.Coords, EltTy.bits .f32 = 32 ∨ (Rect.block (s := S50000x64) S1000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S50000x64.size a
  hwx5_0 : ∀ i : grid5.Coords, EltTy.bits .f32 = 32 ∨ (Rect.block (s := S50000x64) S1000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x64.size a ≤ S50000x64.size a
  hwx5_5 : ∀ i : grid5.Coords, EltTy.bits .f32 = 32 ∨ (Rect.block (s := S50000x64) S1000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S50000x64.size a
  hwx6_0 : ∀ i : grid6.Coords, EltTy.bits .f32 = 32 ∨ (Rect.block (s := S50000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1000.size a ≤ S64x1000.size a
  hwx6_1 : ∀ i : grid6.Coords, EltTy.bits .f32 = 32 ∨ (Rect.block (s := S64x1000) S64x1000.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1000.size a ≤ S1x1000.size a
  hwx6_2 : ∀ i : grid6.Coords, EltTy.bits .f32 = 32 ∨ (Rect.block (s := S1x1000) S1x1000.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x1000.size a ≤ S50000x1000.size a
  hwx6_3 : ∀ i : grid6.Coords, EltTy.bits .f32 = 32 ∨ (Rect.block (s := S50000x1000) S1000x1000.size (cc6_transform_3 i) (hinb6_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v10) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v21) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v189) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v190) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v191) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v191) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v196) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v197) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v198) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v199) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v200) S1000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v200) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S64x1000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v201) S1x1000.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v202) S1000x1000.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S11 : Shape := ⟨1, ![11]⟩
abbrev S128x64 : Shape := ⟨2, ![128, 64]⟩
abbrev S64 : Shape := ⟨1, ![64]⟩
abbrev S64x1000 : Shape := ⟨2, ![64, 1000]⟩
abbrev S1000 : Shape := ⟨1, ![1000]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S1 : Shape := ⟨1, ![1]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S50000x1000 : Shape := ⟨2, ![50000, 1000]⟩
abbrev S1x1000 : Shape := ⟨2, ![1, 1000]⟩

abbrev nBuf : Space → Nat
  | .hbm => 376
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S11, .f32⟩
  | 11 => ⟨S128x64, .f32⟩
  | 12 => ⟨S64, .f32⟩
  | 13 => ⟨S64, .f32⟩
  | 14 => ⟨S64, .f32⟩
  | 15 => ⟨S64x1000, .f32⟩
  | 16 => ⟨S1000, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x800000, .i32⟩
  | 121 => ⟨S800000, .i32⟩
  | 122 => ⟨S1x800000, .i32⟩
  | 123 => ⟨S800000, .i32⟩
  | 124 => ⟨S_, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S1, .f32⟩
  | 1 => ⟨S11, .f32⟩
  | 2 => ⟨S11, .f32⟩
  | 3 => ⟨S11, .f32⟩
  | 4 => ⟨S_, .f32⟩
  | 5 => ⟨S_, .f32⟩
  | 6 => ⟨S1, .f32⟩
  | 7 => ⟨S11, .f32⟩
  | 8 => ⟨S11, .f32⟩
  | 9 => ⟨S1, .f32⟩
  | 10 => ⟨S_, .f32⟩
  | 11 => ⟨S50000x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1, .f32⟩
  | 27 => ⟨S_, .f32⟩
  | 28 => ⟨S50000x128, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S1, .f32⟩
  | 45 => ⟨S_, .f32⟩
  | 46 => ⟨S50000x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1, .f32⟩
  | 63 => ⟨S_, .f32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S1, .f32⟩
  | 81 => ⟨S_, .f32⟩
  | 82 => ⟨S50000x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S1, .f32⟩
  | 99 => ⟨S_, .f32⟩
  | 100 => ⟨S50000x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S1, .f32⟩
  | 117 => ⟨S_, .f32⟩
  | 118 => ⟨S50000x128, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_2 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S1, .f32⟩
  | 7 => ⟨S_, .f32⟩
  | 8 => ⟨S50000x128, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S1, .f32⟩
  | 25 => ⟨S_, .f32⟩
  | 26 => ⟨S50000x128, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1, .f32⟩
  | 43 => ⟨S_, .f32⟩
  | 44 => ⟨S50000x128, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1, .f32⟩
  | 61 => ⟨S_, .f32⟩
  | 62 => ⟨S50000x128, .f32⟩
  | 63 => ⟨S50000x128, .f32⟩
  | 64 => ⟨S50000x128, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S64, .f32⟩
  | 71 => ⟨S_, .f32⟩
  | 72 => ⟨S64, .f32⟩
  | 73 => ⟨S64, .f32⟩
  | 74 => ⟨S_, .i32⟩
  | 75 => ⟨S_, .f32⟩
  | 76 => ⟨S64, .f32⟩
  | 77 => ⟨S1x64, .f32⟩
  | 78 => ⟨S_, .f32⟩
  | 79 => ⟨S1x64, .f32⟩
  | 80 => ⟨S1x64, .f32⟩
  | 81 => ⟨S50000x64, .f32⟩
  | 82 => ⟨S50000x64, .f32⟩
  | 83 => ⟨S50000x64, .f32⟩
  | 84 => ⟨S_, .f32⟩
  | 85 => ⟨S_, .f32⟩
  | 86 => ⟨S_, .f32⟩
  | 87 => ⟨S_, .f32⟩
  | 88 => ⟨S64, .f32⟩
  | 89 => ⟨S64, .f32⟩
  | 90 => ⟨S64, .f32⟩
  | 91 => ⟨S_, .f32⟩
  | 92 => ⟨S_, .i1⟩
  | 93 => ⟨S_, .f32⟩
  | 94 => ⟨S_, .f32⟩
  | 95 => ⟨S64, .f32⟩
  | 96 => ⟨S64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x1000, .f32⟩
  | 117 => ⟨S1x1000, .f32⟩
  | 118 => ⟨S50000x1000, .f32⟩
  | 119 => ⟨S50000x1000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call1_cst : Ref sig .tc := ⟨.hbm, 65, rfl⟩
abbrev main_call1_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_cst_3 : Ref sig .tc := ⟨.hbm, 74, rfl⟩
abbrev main_v29 : Ref sig .tc := ⟨.hbm, 75, rfl⟩
abbrev main_v30 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_cst_5 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_call3_cst : Ref sig .tc := ⟨.hbm, 116, rfl⟩
abbrev main_call3_v0 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_cst_6 : Ref sig .tc := ⟨.hbm, 124, rfl⟩
abbrev main_v53 : Ref sig .tc := ⟨.hbm, 125, rfl⟩
abbrev main_cst_7 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_8 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_c_9 : Ref sig .tc := ⟨.hbm, 141, rfl⟩
abbrev main_v67 : Ref sig .tc := ⟨.hbm, 142, rfl⟩
abbrev main_v68 : Ref sig .tc := ⟨.hbm, 143, rfl⟩
abbrev main_c_10 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_11 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_c_12 : Ref sig .tc := ⟨.hbm, 159, rfl⟩
abbrev main_v82 : Ref sig .tc := ⟨.hbm, 160, rfl⟩
abbrev main_v83 : Ref sig .tc := ⟨.hbm, 161, rfl⟩
abbrev main_c_13 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_14 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_c_15 : Ref sig .tc := ⟨.hbm, 177, rfl⟩
abbrev main_v97 : Ref sig .tc := ⟨.hbm, 178, rfl⟩
abbrev main_v98 : Ref sig .tc := ⟨.hbm, 179, rfl⟩
abbrev main_c_16 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_cst_17 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_c_18 : Ref sig .tc := ⟨.hbm, 195, rfl⟩
abbrev main_v112 : Ref sig .tc := ⟨.hbm, 196, rfl⟩
abbrev main_v113 : Ref sig .tc := ⟨.hbm, 197, rfl⟩
abbrev main_c_19 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_cst_20 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_21 : Ref sig .tc := ⟨.hbm, 213, rfl⟩
abbrev main_v127 : Ref sig .tc := ⟨.hbm, 214, rfl⟩
abbrev main_v128 : Ref sig .tc := ⟨.hbm, 215, rfl⟩
abbrev main_c_22 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_23 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_c_24 : Ref sig .tc := ⟨.hbm, 231, rfl⟩
abbrev main_v142 : Ref sig .tc := ⟨.hbm, 232, rfl⟩
abbrev main_v143 : Ref sig .tc := ⟨.hbm, 233, rfl⟩
abbrev main_c_25 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_cst_26 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_c_27 : Ref sig .tc := ⟨.hbm, 249, rfl⟩
abbrev main_v157 : Ref sig .tc := ⟨.hbm, 250, rfl⟩
abbrev main_v158 : Ref sig .tc := ⟨.hbm, 251, rfl⟩
abbrev main_c_28 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_cst_29 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_c_30 : Ref sig .tc := ⟨.hbm, 267, rfl⟩
abbrev main_v172 : Ref sig .tc := ⟨.hbm, 268, rfl⟩
abbrev main_v173 : Ref sig .tc := ⟨.hbm, 269, rfl⟩
abbrev main_c_31 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_cst_32 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_c_33 : Ref sig .tc := ⟨.hbm, 285, rfl⟩
abbrev main_v187 : Ref sig .tc := ⟨.hbm, 286, rfl⟩
abbrev main_v188 : Ref sig .tc := ⟨.hbm, 287, rfl⟩
abbrev main_c_34 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_cst_35 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_c_36 : Ref sig .tc := ⟨.hbm, 303, rfl⟩
abbrev main_v202 : Ref sig .tc := ⟨.hbm, 304, rfl⟩
abbrev main_v203 : Ref sig .tc := ⟨.hbm, 305, rfl⟩
abbrev main_c_37 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_cst_38 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_cst_39 : Ref sig .tc := ⟨.hbm, 325, rfl⟩
abbrev main_v221 : Ref sig .tc := ⟨.hbm, 326, rfl⟩
abbrev main_cst_40 : Ref sig .tc := ⟨.hbm, 327, rfl⟩
abbrev main_v222 : Ref sig .tc := ⟨.hbm, 328, rfl⟩
abbrev main_v223 : Ref sig .tc := ⟨.hbm, 329, rfl⟩
abbrev main_c_41 : Ref sig .tc := ⟨.hbm, 330, rfl⟩
abbrev main_call4_cst : Ref sig .tc := ⟨.hbm, 331, rfl⟩
abbrev main_call4_v0 : Ref sig .tc := ⟨.hbm, 332, rfl⟩
abbrev main_call4_v1 : Ref sig .tc := ⟨.hbm, 333, rfl⟩
abbrev main_call4_cst_0 : Ref sig .tc := ⟨.hbm, 334, rfl⟩
abbrev main_call4_v2 : Ref sig .tc := ⟨.hbm, 335, rfl⟩
abbrev main_call4_v3 : Ref sig .tc := ⟨.hbm, 336, rfl⟩
abbrev main_call4_v4 : Ref sig .tc := ⟨.hbm, 337, rfl⟩
abbrev main_call4_v5 : Ref sig .tc := ⟨.hbm, 338, rfl⟩
abbrev main_call4_v6 : Ref sig .tc := ⟨.hbm, 339, rfl⟩
abbrev main_call4_v7 : Ref sig .tc := ⟨.hbm, 340, rfl⟩
abbrev main_call4_cst_1 : Ref sig .tc := ⟨.hbm, 341, rfl⟩
abbrev main_call4_v8 : Ref sig .tc := ⟨.hbm, 342, rfl⟩
abbrev main_call4_cst_2 : Ref sig .tc := ⟨.hbm, 343, rfl⟩
abbrev main_call4_v9 : Ref sig .tc := ⟨.hbm, 344, rfl⟩
abbrev main_call4_v10 : Ref sig .tc := ⟨.hbm, 345, rfl⟩
abbrev main_call4_v11 : Ref sig .tc := ⟨.hbm, 346, rfl⟩
abbrev main_call4_cst_3 : Ref sig .tc := ⟨.hbm, 347, rfl⟩
abbrev main_call4_v12 : Ref sig .tc := ⟨.hbm, 348, rfl⟩
abbrev main_call4_cst_4 : Ref sig .tc := ⟨.hbm, 349, rfl⟩
abbrev main_call4_call0_v0 : Ref sig .tc := ⟨.hbm, 350, rfl⟩
abbrev main_call4_call0_v1 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_cst_42 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_v239 : Ref sig .tc := ⟨.hbm, 368, rfl⟩
abbrev main_call5_cst : Ref sig .tc := ⟨.hbm, 369, rfl⟩
abbrev main_call5_v0 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S11_S_d0 : S11.ReducesTo [0] S_
  bcast_S_S1 : S_.BroadcastsInDim S1 (![] : Fin 0 → Fin S1.rank)
  bcast_S1_S11_0 : S1.BroadcastsInDim S11 (![0] : Fin 1 → Fin S11.rank)
  slices_S11_S1_0 : S11.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S1000_S1x1000_1 : S1000.BroadcastsInDim S1x1000 (![1] : Fin 1 → Fin S1x1000.rank)
  bcast_S1x1000_S50000x1000_0_1 : S1x1000.BroadcastsInDim S50000x1000 (![0, 1] : Fin 2 → Fin S50000x1000.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x1000_S50000x1000_1_0_0_1_n_n_wf : DotDims.WF S50000x64 S64x1000 S50000x1000 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1000_S50000x1000_1_0_0_1_n_n : DotDims S50000x64 S64x1000 S50000x1000 where
  lhsContracting := [1]
  rhsContracting := [0]
  lhsNonContracting := [0]
  rhsNonContracting := [1]
  lhsBatch := []
  rhsBatch := []
  wf := dot_S50000x64_S64x1000_S50000x1000_1_0_0_1_n_n_wf

class Facts : Prop extends Facts₀ where

variable [Facts]
-- ==== Proof.KRun.lean ====
/-
  The idealized kernel's run with its result named. The program's frame certificate walks @main's segments (stretches of
  host operations and the seven launches) and reads the argument buffers off the last boundary's contents; read at the
  result buffer as well, the same run says what the result holds when @main returns: the last boundary's contents there.
-/
import proofs.«123233_j6760278524490_1_alg».proof.Proof.KernelIdealFrameP

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every weakly fair execution of @main terminates, nothing faulting, with the result buffer at the contents the last
    segment boundary gives it and the argument arrays as launched. -/
theorem run_val : θ_run defs (onTc (τ := τ) (main (F := F))) ⟨m, fun _ => 0, ρ⟩ (fun r => ∀ c : Dev nD,
      r.2.mem ((c.tc : Thread nD τ).loc main_v202) = W20 m ρ c (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v202 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c)⟩)

end Cert.KernelIdeal.GenP

end
-- ==== Proof.RefFns.lean ====
/-
  The layers of the reference network as functions of arrays, each the reference program's own operations in order:
  a dense layer, the mean and the (population) variance of a matrix's columns, a normalisation layer with the
  rectifier, and the ten-step propagation along the graph's edges weighted by a softmax of eleven attention scores.
-/
import proofs.«123233_j6760278524490_1_alg».proof.ReferenceIdeal
import Idealize.ShloMosaic.PureOps.Ideal

noncomputable section

namespace Cert.ReferenceIdeal.Fns

open Idealize.ShloMosaic Cert.ReferenceIdeal

variable {F : FTy → Type} [FloatOps F] [Facts₀]
open Facts₀

/-- A dense layer 128 → 128: x · w plus the bias b on every row. -/
def dense128 (x : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  have x_v0 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x w
  have x_v1 := (broadcastInDim S1x128 ![1] bcast_S128_S1x128_1 : (⟨S128, .f32⟩ : BufTy).Contents (Elt F) → (⟨S1x128, .f32⟩ : BufTy).Contents (Elt F)) b
  have x_v2 := (broadcastInDim S50000x128 ![0, 1] bcast_S1x128_S50000x128_0_1 : (⟨S1x128, .f32⟩ : BufTy).Contents (Elt F) → (⟨S50000x128, .f32⟩ : BufTy).Contents (Elt F)) x_v1
  have x_v3 := (addf : (⟨S50000x128, .f32⟩ : BufTy).Contents (Elt F) → (⟨S50000x128, .f32⟩ : BufTy).Contents (Elt F) → (⟨S50000x128, .f32⟩ : BufTy).Contents (Elt F)) x_v0 x_v2
  x_v3

/-- The mean of each of the 128 columns over the 50000 rows. -/
def mean128 (z : (⟨S50000x128, .f32⟩ : BufTy).Contents (Elt F)) : (⟨S128, .f32⟩ : BufTy).Contents (Elt F) :=
  have x_cst := (constant (F := F) S_ .f32 0x00000000#32)
  have x_v4 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) z x_cst
  have x_cst_0 := (constant (F := F) S_ .f32 0x47435000#32)
  have x_v5 := (broadcastInDim S128 ![] bcast_S_S128 : (⟨S_, .f32⟩ : BufTy).Contents (Elt F) → (⟨S128, .f32⟩ : BufTy).Contents (Elt F)) x_cst_0
  have x_v6 := (Host.divf : (⟨S128, .f32⟩ : BufTy).Contents (Elt F) → (⟨S128, .f32⟩ : BufTy).Contents (Elt F) → (⟨S128, .f32⟩ : BufTy).Contents (Elt F)) x_v4 x_v5
  x_v6

/-- The variance of each column, Σ(z − mean)² / (50000 − c0), taken where 50000 − c0 > 0. -/
def var128 (z : (⟨S50000x128, .f32⟩ : BufTy).Contents (Elt F)) (c0 : (⟨S_, .i32⟩ : BufTy).Contents (Elt F)) : (⟨S128, .f32⟩ : BufTy).Contents (Elt F) :=
  have x_call0_cst := (constant (F := F) S_ .f32 0x00000000#32)
  have x_call0_v0 := (fun x v => Host.reduceAdd x v reducesTo_S50000x128_S128_d0 h_S_) z x_call0_cst
  have x_call0_v1 := (broadcastInDim S1x128 ![1] bcast_S128_S1x128_1) x_call0_v0
  have x_call0_cst_0 := (constant (F := F) S_ .f32 0x47435000#32)
  have x_call0_v2 := (broadcastInDim S1x128 ![] bcast_S_S1x128) x_call0_cst_0
  have x_call0_v3 := Host.divf x_call0_v1 x_call0_v2
  have x_call0_v4 := (broadcastInDim S50000x128 ![0, 1] bcast_S1x128_S50000x128_0_1) x_call0_v3
  have x_call0_v5 := subf z x_call0_v4
  have x_call0_v6 := mulf x_call0_v5 x_call0_v5
  have x_call0_v7 := (sitofp .f32) c0
  have x_call0_cst_1 := (constant (F := F) S_ .f32 0x47435000#32)
  have x_call0_v8 := subf x_call0_cst_1 x_call0_v7
  have x_call0_cst_2 := (constant (F := F) S_ .f32 0x00000000#32)
  have x_call0_v9 := (fun x v => Host.reduceAdd x v reducesTo_S50000x128_S128_d0 h_S_) x_call0_v6 x_call0_cst_2
  have x_call0_v10 := (broadcastInDim S128 ![] bcast_S_S128) x_call0_v8
  have x_call0_v11 := Host.divf x_call0_v9 x_call0_v10
  have x_call0_cst_3 := (constant (F := F) S_ .f32 0x00000000#32)
  have x_call0_v12 := (cmpf .ogt) x_call0_v8 x_call0_cst_3
  have x_call0_cst_4 := (constant (F := F) S_ .f32 0x7FC00000#32)
  have x_call0_call0_v0 := id x_call0_cst_4
  have x_call0_call0_v1 := (broadcastInDim S128 ![] bcast_S_S128) x_call0_call0_v0
  have x_v7 := (fun p a b => select (broadcastInDim S128 ![] bcast_S_S128 p) a b) x_call0_v12 x_call0_v11 x_call0_call0_v1
  x_v7

/-- max(g · (z − mean) · (var + ε)^(-1/2) + be, 0), the four vectors repeated along the rows. -/
def norm128 (z : (⟨S50000x128, .f32⟩ : BufTy).Contents (Elt F)) (mean : (⟨S128, .f32⟩ : BufTy).Contents (Elt F)) (var : (⟨S128, .f32⟩ : BufTy).Contents (Elt F)) (g : (⟨S128, .f32⟩ : BufTy).Contents (Elt F)) (be : (⟨S128, .f32⟩ : BufTy).Contents (Elt F)) : (⟨S50000x128, .f32⟩ : BufTy).Contents (Elt F) :=
  have x_v8 := (broadcastInDim S1x128 ![1] bcast_S128_S1x128_1 : (⟨S128, .f32⟩ : BufTy).Contents (Elt F) → (⟨S1x128, .f32⟩ : BufTy).Contents (Elt F)) mean
  have x_v9 := (broadcastInDim S50000x128 ![0, 1] bcast_S1x128_S50000x128_0_1 : (⟨S1x128, .f32⟩ : BufTy).Contents (Elt F) → (⟨S50000x128, .f32⟩ : BufTy).Contents (Elt F)) x_v8
  have x_v10 := (subf : (⟨S50000x128, .f32⟩ : BufTy).Contents (Elt F) → (⟨S50000x128, .f32⟩ : BufTy).Contents (Elt F) → (⟨S50000x128, .f32⟩ : BufTy).Contents (Elt F)) z x_v9
  have x_v11 := (broadcastInDim S1x128 ![1] bcast_S128_S1x128_1 : (⟨S128, .f32⟩ : BufTy).Contents (Elt F) → (⟨S1x128, .f32⟩ : BufTy).Contents (Elt F)) g
  have x_v12 := (broadcastInDim S50000x128 ![0, 1] bcast_S1x128_S50000x128_0_1 : (⟨S1x128, .f32⟩ : BufTy).Contents (Elt F) → (⟨S50000x128, .f32⟩ : BufTy).Contents (Elt F)) x_v11
  have x_v13 := (mulf : (⟨S50000x128, .f32⟩ : BufTy).Contents (Elt F) → (⟨S50000x128, .f32⟩ : BufTy).Contents (Elt F) → (⟨S50000x128, .f32⟩ : BufTy).Contents (Elt F)) x_v12 x_v10
  have x_cst_1 := (constant (F := F) S_ .f32 0x3727C5AC#32)
  have x_v14 := (broadcastInDim S128 ![] bcast_S_S128 : (⟨S_, .f32⟩ : BufTy).Contents (Elt F) → (⟨S128, .f32⟩ : BufTy).Contents (Elt F)) x_cst_1
  have x_v15 := (addf : (⟨S128, .f32⟩ : BufTy).Contents (Elt F) → (⟨S128, .f32⟩ : BufTy).Contents (Elt F) → (⟨S128, .f32⟩ : BufTy).Contents (Elt F)) var x_v14
  have x_v16 := (Host.rsqrt : (⟨S128, .f32⟩ : BufTy).Contents (Elt F) → (⟨S128, .f32⟩ : BufTy).Contents (Elt F)) x_v15
  have x_v17 := (broadcastInDim S1x128 ![1] bcast_S128_S1x128_1 : (⟨S128, .f32⟩ : BufTy).Contents (Elt F) → (⟨S1x128, .f32⟩ : BufTy).Contents (Elt F)) x_v16
  have x_v18 := (broadcastInDim S50000x128 ![0, 1] bcast_S1x128_S50000x128_0_1 : (⟨S1x128, .f32⟩ : BufTy).Contents (Elt F) → (⟨S50000x128, .f32⟩ : BufTy).Contents (Elt F)) x_v17
  have x_v19 := (mulf : (⟨S50000x128, .f32⟩ : BufTy).Contents (Elt F) → (⟨S50000x128, .f32⟩ : BufTy).Contents (Elt F) → (⟨S50000x128, .f32⟩ : BufTy).Contents (Elt F)) x_v13 x_v18
  have x_v20 := (broadcastInDim S1x128 ![1] bcast_S128_S1x128_1 : (⟨S128, .f32⟩ : BufTy).Contents (Elt F) → (⟨S1x128, .f32⟩ : BufTy).Contents (Elt F)) be
  have x_v21 := (broadcastInDim S50000x128 ![0, 1] bcast_S1x128_S50000x128_0_1 : (⟨S1x128, .f32⟩ : BufTy).Contents (Elt F) → (⟨S50000x128, .f32⟩ : BufTy).Contents (Elt F)) x_v20
  have x_v22 := (addf : (⟨S50000x128, .f32⟩ : BufTy).Contents (Elt F) → (⟨S50000x128, .f32⟩ : BufTy).Contents (Elt F) → (⟨S50000x128, .f32⟩ : BufTy).Contents (Elt F)) x_v19 x_v21
  have x_call1_cst := (constant (F := F) S_ .f32 0x00000000#32)
  have x_call1_v0 := (broadcastInDim S50000x128 ![] bcast_S_S50000x128) x_call1_cst
  have x_v23 := maximumf x_v22 x_call1_v0
  x_v23

/-- Σ_k softmax(att)_k · A^k h for k = 0..10, where A sums, into each edge's target row, its source row. -/
def propagate (h : (⟨S50000x128, .f32⟩ : BufTy).Contents (Elt F)) (e : (⟨S2x800000, .i32⟩ : BufTy).Contents (Elt F)) (att : (⟨S11, .f32⟩ : BufTy).Contents (Elt F)) : (⟨S50000x128, .f32⟩ : BufTy).Contents (Elt F) :=
  have x_v49 := ((extractStridedSlice S1x800000 ![0, 0] · slices_S2x800000_S1x800000_0_0) : (⟨S2x800000, .i32⟩ : BufTy).Contents (Elt F) → (⟨S1x800000, .i32⟩ : BufTy).Contents (Elt F)) e
  have x_v50 := shapeCast S800000 x_v49 shapeCasts_S1x800000_S800000
  have x_v51 := ((extractStridedSlice S1x800000 ![1, 0] · slices_S2x800000_S1x800000_1_0) : (⟨S2x800000, .i32⟩ : BufTy).Contents (Elt F) → (⟨S1x800000, .i32⟩ : BufTy).Contents (Elt F)) e
  have x_v52 := shapeCast S800000 x_v51 shapeCasts_S1x800000_S800000
  have x_cst_6 := (constant (F := F) S_ .f32 0xFF800000#32)
  have x_v53 := ((fun x v => Host.reduce FloatOps.maximumf x v reducesTo_S11_S_d0 h_S_) : (⟨S11, .f32⟩ : BufTy).Contents (Elt F) → (⟨S_, .f32⟩ : BufTy).Contents (Elt F) → (⟨S_, .f32⟩ : BufTy).Contents (Elt F)) att x_cst_6
  have x_cst_7 := (constant (F := F) S_ .f32 0xFF800000#32)
  have x_v54 := (maximumf : (⟨S_, .f32⟩ : BufTy).Contents (Elt F) → (⟨S_, .f32⟩ : BufTy).Contents (Elt F) → (⟨S_, .f32⟩ : BufTy).Contents (Elt F)) x_cst_7 x_v53
  have x_v55 := (broadcastInDim S1 ![] bcast_S_S1 : (⟨S_, .f32⟩ : BufTy).Contents (Elt F) → (⟨S1, .f32⟩ : BufTy).Contents (Elt F)) x_v54
  have x_v56 := (broadcastInDim S11 ![0] bcast_S1_S11_0 : (⟨S1, .f32⟩ : BufTy).Contents (Elt F) → (⟨S11, .f32⟩ : BufTy).Contents (Elt F)) x_v55
  have x_v57 := (subf : (⟨S11, .f32⟩ : BufTy).Contents (Elt F) → (⟨S11, .f32⟩ : BufTy).Contents (Elt F) → (⟨S11, .f32⟩ : BufTy).Contents (Elt F)) att x_v56
  have x_v58 := (Host.exp : (⟨S11, .f32⟩ : BufTy).Contents (Elt F) → (⟨S11, .f32⟩ : BufTy).Contents (Elt F)) x_v57
  have x_cst_8 := (constant (F := F) S_ .f32 0x00000000#32)
  have x_v59 := ((fun x v => Host.reduceAdd x v reducesTo_S11_S_d0 h_S_) : (⟨S11, .f32⟩ : BufTy).Contents (Elt F) → (⟨S_, .f32⟩ : BufTy).Contents (Elt F) → (⟨S_, .f32⟩ : BufTy).Contents (Elt F)) x_v58 x_cst_8
  have x_v60 := (broadcastInDim S1 ![] bcast_S_S1 : (⟨S_, .f32⟩ : BufTy).Contents (Elt F) → (⟨S1, .f32⟩ : BufTy).Contents (Elt F)) x_v59
  have x_v61 := (broadcastInDim S11 ![0] bcast_S1_S11_0 : (⟨S1, .f32⟩ : BufTy).Contents (Elt F) → (⟨S11, .f32⟩ : BufTy).Contents (Elt F)) x_v60
  have x_v62 := (Host.divf : (⟨S11, .f32⟩ : BufTy).Contents (Elt F) → (⟨S11, .f32⟩ : BufTy).Contents (Elt F) → (⟨S11, .f32⟩ : BufTy).Contents (Elt F)) x_v58 x_v61
  have x_v63 := ((extractStridedSlice S1 ![0] · slices_S11_S1_0) : (⟨S11, .f32⟩ : BufTy).Contents (Elt F) → (⟨S1, .f32⟩ : BufTy).Contents (Elt F)) x_v62
  have x_v64 := shapeCast S_ x_v63 shapeCasts_S1_S_
  have x_v65 := (broadcastInDim S50000x128 ![] bcast_S_S50000x128 : (⟨S_, .f32⟩ : BufTy).Contents (Elt F) → (⟨S50000x128, .f32⟩ : BufTy).Contents (Elt F)) x_v64
  have x_v66 := (mulf : (⟨S50000x128, .f32⟩ : BufTy).Contents (Elt F) → (⟨S50000x128, .f32⟩ : BufTy).Contents (Elt F) → (⟨S50000x128, .f32⟩ : BufTy).Contents (Elt F)) x_v65 h
  have x_c_9 := (constantI S_ 32 0#32)
  have x_v67 := (broadcastInDim S800000 ![] bcast_S_S800000 : (⟨S_, .i32⟩ : BufTy).Contents (Elt F) → (⟨S800000, .i32⟩ : BufTy).Contents (Elt F)) x_c_9
  have x_v68 := (cmpi .slt : (⟨S800000, .i32⟩ : BufTy).Contents (Elt F) → (⟨S800000, .i32⟩ : BufTy).Contents (Elt F) → (⟨S800000, .i1⟩ : BufTy).Contents (Elt F)) x_v50 x_v67
  have x_c_10 := (constantI S_ 32 50000#32)
  have x_v69 := (broadcastInDim S800000 ![] bcast_S_S800000 : (⟨S_, .i32⟩ : BufTy).Contents (Elt F) → (⟨S800000, .i32⟩ : BufTy).Contents (Elt F)) x_c_10
  have x_v70 := (addi : (⟨S800000, .i32⟩ : BufTy).Contents (Elt F) → (⟨S800000, .i32⟩ : BufTy).Contents (Elt F) → (⟨S800000, .i32⟩ : BufTy).Contents (Elt F)) x_v50 x_v69
  have x_v71 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v68 x_v70 x_v50
  have x_v72 := (broadcastInDim S800000x1 ![0] bcast_S800000_S800000x1_0 : (⟨S800000, .i32⟩ : BufTy).Contents (Elt F) → (⟨S800000x1, .i32⟩ : BufTy).Contents (Elt F)) x_v71
  have x_v73 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) h x_v72
  have x_cst_11 := (constant (F := F) S_ .f32 0x00000000#32)
  have x_v74 := (broadcastInDim S50000x128 ![] bcast_S_S50000x128 : (⟨S_, .f32⟩ : BufTy).Contents (Elt F) → (⟨S50000x128, .f32⟩ : BufTy).Contents (Elt F)) x_cst_11
  have x_v75 := (broadcastInDim S800000x1 ![0] bcast_S800000_S800000x1_0 : (⟨S800000, .i32⟩ : BufTy).Contents (Elt F) → (⟨S800000x1, .i32⟩ : BufTy).Contents (Elt F)) x_v52
  have x_v76 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v74 x_v75 x_v73
  have x_v77 := ((extractStridedSlice S1 ![1] · slices_S11_S1_1) : (⟨S11, .f32⟩ : BufTy).Contents (Elt F) → (⟨S1, .f32⟩ : BufTy).Contents (Elt F)) x_v62
  have x_v78 := shapeCast S_ x_v77 shapeCasts_S1_S_
  have x_v79 := (broadcastInDim S50000x128 ![] bcast_S_S50000x128 : (⟨S_, .f32⟩ : BufTy).Contents (Elt F) → (⟨S50000x128, .f32⟩ : BufTy).Contents (Elt F)) x_v78
  have x_v80 := (mulf : (⟨S50000x128, .f32⟩ : BufTy).Contents (Elt F) → (⟨S50000x128, .f32⟩ : BufTy).Contents (Elt F) → (⟨S50000x128, .f32⟩ : BufTy).Contents (Elt F)) x_v79 x_v76
  have x_v81 := (addf : (⟨S50000x128, .f32⟩ : BufTy).Contents (Elt F) → (⟨S50000x128, .f32⟩ : BufTy).Contents (Elt F) → (⟨S50000x128, .f32⟩ : BufTy).Contents (Elt F)) x_v66 x_v80
  have x_c_12 := (constantI S_ 32 0#32)
  have x_v82 := (broadcastInDim S800000 ![] bcast_S_S800000 : (⟨S_, .i32⟩ : BufTy).Contents (Elt F) → (⟨S800000, .i32⟩ : BufTy).Contents (Elt F)) x_c_12
  have x_v83 := (cmpi .slt : (⟨S800000, .i32⟩ : BufTy).Contents (Elt F) → (⟨S800000, .i32⟩ : BufTy).Contents (Elt F) → (⟨S800000, .i1⟩ : BufTy).Contents (Elt F)) x_v50 x_v82
  have x_c_13 := (constantI S_ 32 50000#32)
  have x_v84 := (broadcastInDim S800000 ![] bcast_S_S800000 : (⟨S_, .i32⟩ : BufTy).Contents (Elt F) → (⟨S800000, .i32⟩ : BufTy).Contents (Elt F)) x_c_13
  have x_v85 := (addi : (⟨S800000, .i32⟩ : BufTy).Contents (Elt F) → (⟨S800000, .i32⟩ : BufTy).Contents (Elt F) → (⟨S800000, .i32⟩ : BufTy).Contents (Elt F)) x_v50 x_v84
  have x_v86 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v83 x_v85 x_v50
  have x_v87 := (broadcastInDim S800000x1 ![0] bcast_S800000_S800000x1_0 : (⟨S800000, .i32⟩ : BufTy).Contents (Elt F) → (⟨S800000x1, .i32⟩ : BufTy).Contents (Elt F)) x_v86
  have x_v88 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v76 x_v87
  have x_cst_14 := (constant (F := F) S_ .f32 0x00000000#32)
  have x_v89 := (broadcastInDim S50000x128 ![] bcast_S_S50000x128 : (⟨S_, .f32⟩ : BufTy).Contents (Elt F) → (⟨S50000x128, .f32⟩ : BufTy).Contents (Elt F)) x_cst_14
  have x_v90 := (broadcastInDim S800000x1 ![0] bcast_S800000_S800000x1_0 : (⟨S800000, .i32⟩ : BufTy).Contents (Elt F) → (⟨S800000x1, .i32⟩ : BufTy).Contents (Elt F)) x_v52
  have x_v91 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v89 x_v90 x_v88
  have x_v92 := ((extractStridedSlice S1 ![2] · slices_S11_S1_2) : (⟨S11, .f32⟩ : BufTy).Contents (Elt F) → (⟨S1, .f32⟩ : BufTy).Contents (Elt F)) x_v62
  have x_v93 := shapeCast S_ x_v92 shapeCasts_S1_S_
  have x_v94 := (broadcastInDim S50000x128 ![] bcast_S_S50000x128 : (⟨S_, .f32⟩ : BufTy).Contents (Elt F) → (⟨S50000x128, .f32⟩ : BufTy).Contents (Elt F)) x_v93
  have x_v95 := (mulf : (⟨S50000x128, .f32⟩ : BufTy).Contents (Elt F) → (⟨S50000x128, .f32⟩ : BufTy).Contents (Elt F) → (⟨S50000x128, .f32⟩ : BufTy).Contents (Elt F)) x_v94 x_v91
  have x_v96 := (addf : (⟨S50000x128, .f32⟩ : BufTy).Contents (Elt F) → (⟨S50000x128, .f32⟩ : BufTy).Contents (Elt F) → (⟨S50000x128, .f32⟩ : BufTy).Contents (Elt F)) x_v81 x_v95
  have x_c_15 := (constantI S_ 32 0#32)
  have x_v97 := (broadcastInDim S800000 ![] bcast_S_S800000 : (⟨S_, .i32⟩ : BufTy).Contents (Elt F) → (⟨S800000, .i32⟩ : BufTy).Contents (Elt F)) x_c_15
  have x_v98 := (cmpi .slt : (⟨S800000, .i32⟩ : BufTy).Contents (Elt F) → (⟨S800000, .i32⟩ : BufTy).Contents (Elt F) → (⟨S800000, .i1⟩ : BufTy).Contents (Elt F)) x_v50 x_v97
  have x_c_16 := (constantI S_ 32 50000#32)
  have x_v99 := (broadcastInDim S800000 ![] bcast_S_S800000 : (⟨S_, .i32⟩ : BufTy).Contents (Elt F) → (⟨S800000, .i32⟩ : BufTy).Contents (Elt F)) x_c_16
  have x_v100 := (addi : (⟨S800000, .i32⟩ : BufTy).Contents (Elt F) → (⟨S800000, .i32⟩ : BufTy).Contents (Elt F) → (⟨S800000, .i32⟩ : BufTy).Contents (Elt F)) x_v50 x_v99
  have x_v101 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v98 x_v100 x_v50
  have x_v102 := (broadcastInDim S800000x1 ![0] bcast_S800000_S800000x1_0 : (⟨S800000, .i32⟩ : BufTy).Contents (Elt F) → (⟨S800000x1, .i32⟩ : BufTy).Contents (Elt F)) x_v101
  have x_v103 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v91 x_v102
  have x_cst_17 := (constant (F := F) S_ .f32 0x00000000#32)
  have x_v104 := (broadcastInDim S50000x128 ![] bcast_S_S50000x128 : (⟨S_, .f32⟩ : BufTy).Contents (Elt F) → (⟨S50000x128, .f32⟩ : BufTy).Contents (Elt F)) x_cst_17
  have x_v105 := (broadcastInDim S800000x1 ![0] bcast_S800000_S800000x1_0 : (⟨S800000, .i32⟩ : BufTy).Contents (Elt F) → (⟨S800000x1, .i32⟩ : BufTy).Contents (Elt F)) x_v52
  have x_v106 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v104 x_v105 x_v103
  have x_v107 := ((extractStridedSlice S1 ![3] · slices_S11_S1_3) : (⟨S11, .f32⟩ : BufTy).Contents (Elt F) → (⟨S1, .f32⟩ : BufTy).Contents (Elt F)) x_v62
  have x_v108 := shapeCast S_ x_v107 shapeCasts_S1_S_
  have x_v109 := (broadcastInDim S50000x128 ![] bcast_S_S50000x128 : (⟨S_, .f32⟩ : BufTy).Contents (Elt F) → (⟨S50000x128, .f32⟩ : BufTy).Contents (Elt F)) x_v108
  have x_v110 := (mulf : (⟨S50000x128, .f32⟩ : BufTy).Contents (Elt F) → (⟨S50000x128, .f32⟩ : BufTy).Contents (Elt F) → (⟨S50000x128, .f32⟩ : BufTy).Contents (Elt F)) x_v109 x_v106
  have x_v111 := (addf : (⟨S50000x128, .f32⟩ : BufTy).Contents (Elt F) → (⟨S50000x128, .f32⟩ : BufTy).Contents (Elt F) → (⟨S50000x128, .f32⟩ : BufTy).Contents (Elt F)) x_v96 x_v110
  have x_c_18 := (constantI S_ 32 0#32)
  have x_v112 := (broadcastInDim S800000 ![] bcast_S_S800000 : (⟨S_, .i32⟩ : BufTy).Contents (Elt F) → (⟨S800000, .i32⟩ : BufTy).Contents (Elt F)) x_c_18
  have x_v113 := (cmpi .slt : (⟨S800000, .i32⟩ : BufTy).Contents (Elt F) → (⟨S800000, .i32⟩ : BufTy).Contents (Elt F) → (⟨S800000, .i1⟩ : BufTy).Contents (Elt F)) x_v50 x_v112
  have x_c_19 := (constantI S_ 32 50000#32)
  have x_v114 := (broadcastInDim S800000 ![] bcast_S_S800000 : (⟨S_, .i32⟩ : BufTy).Contents (Elt F) → (⟨S800000, .i32⟩ : BufTy).Contents (Elt F)) x_c_19
  have x_v115 := (addi : (⟨S800000, .i32⟩ : BufTy).Contents (Elt F) → (⟨S800000, .i32⟩ : BufTy).Contents (Elt F) → (⟨S800000, .i32⟩ : BufTy).Contents (Elt F)) x_v50 x_v114
  have x_v116 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v113 x_v115 x_v50
  have x_v117 := (broadcastInDim S800000x1 ![0] bcast_S800000_S800000x1_0 : (⟨S800000, .i32⟩ : BufTy).Contents (Elt F) → (⟨S800000x1, .i32⟩ : BufTy).Contents (Elt F)) x_v116
  have x_v118 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v106 x_v117
  have x_cst_20 := (constant (F := F) S_ .f32 0x00000000#32)
  have x_v119 := (broadcastInDim S50000x128 ![] bcast_S_S50000x128 : (⟨S_, .f32⟩ : BufTy).Contents (Elt F) → (⟨S50000x128, .f32⟩ : BufTy).Contents (Elt F)) x_cst_20
  have x_v120 := (broadcastInDim S800000x1 ![0] bcast_S800000_S800000x1_0 : (⟨S800000, .i32⟩ : BufTy).Contents (Elt F) → (⟨S800000x1, .i32⟩ : BufTy).Contents (Elt F)) x_v52
  have x_v121 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v119 x_v120 x_v118
  have x_v122 := ((extractStridedSlice S1 ![4] · slices_S11_S1_4) : (⟨S11, .f32⟩ : BufTy).Contents (Elt F) → (⟨S1, .f32⟩ : BufTy).Contents (Elt F)) x_v62
  have x_v123 := shapeCast S_ x_v122 shapeCasts_S1_S_
  have x_v124 := (broadcastInDim S50000x128 ![] bcast_S_S50000x128 : (⟨S_, .f32⟩ : BufTy).Contents (Elt F) → (⟨S50000x128, .f32⟩ : BufTy).Contents (Elt F)) x_v123
  have x_v125 := (mulf : (⟨S50000x128, .f32⟩ : BufTy).Contents (Elt F) → (⟨S50000x128, .f32⟩ : BufTy).Contents (Elt F) → (⟨S50000x128, .f32⟩ : BufTy).Contents (Elt F)) x_v124 x_v121
  have x_v126 := (addf : (⟨S50000x128, .f32⟩ : BufTy).Contents (Elt F) → (⟨S50000x128, .f32⟩ : BufTy).Contents (Elt F) → (⟨S50000x128, .f32⟩ : BufTy).Contents (Elt F)) x_v111 x_v125
  have x_c_21 := (constantI S_ 32 0#32)
  have x_v127 := (broadcastInDim S800000 ![] bcast_S_S800000 : (⟨S_, .i32⟩ : BufTy).Contents (Elt F) → (⟨S800000, .i32⟩ : BufTy).Contents (Elt F)) x_c_21
  have x_v128 := (cmpi .slt : (⟨S800000, .i32⟩ : BufTy).Contents (Elt F) → (⟨S800000, .i32⟩ : BufTy).Contents (Elt F) → (⟨S800000, .i1⟩ : BufTy).Contents (Elt F)) x_v50 x_v127
  have x_c_22 := (constantI S_ 32 50000#32)
  have x_v129 := (broadcastInDim S800000 ![] bcast_S_S800000 : (⟨S_, .i32⟩ : BufTy).Contents (Elt F) → (⟨S800000, .i32⟩ : BufTy).Contents (Elt F)) x_c_22
  have x_v130 := (addi : (⟨S800000, .i32⟩ : BufTy).Contents (Elt F) → (⟨S800000, .i32⟩ : BufTy).Contents (Elt F) → (⟨S800000, .i32⟩ : BufTy).Contents (Elt F)) x_v50 x_v129
  have x_v131 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v128 x_v130 x_v50
  have x_v132 := (broadcastInDim S800000x1 ![0] bcast_S800000_S800000x1_0 : (⟨S800000, .i32⟩ : BufTy).Contents (Elt F) → (⟨S800000x1, .i32⟩ : BufTy).Contents (Elt F)) x_v131
  have x_v133 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v121 x_v132
  have x_cst_23 := (constant (F := F) S_ .f32 0x00000000#32)
  have x_v134 := (broadcastInDim S50000x128 ![] bcast_S_S50000x128 : (⟨S_, .f32⟩ : BufTy).Contents (Elt F) → (⟨S50000x128, .f32⟩ : BufTy).Contents (Elt F)) x_cst_23
  have x_v135 := (broadcastInDim S800000x1 ![0] bcast_S800000_S800000x1_0 : (⟨S800000, .i32⟩ : BufTy).Contents (Elt F) → (⟨S800000x1, .i32⟩ : BufTy).Contents (Elt F)) x_v52
  have x_v136 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v134 x_v135 x_v133
  have x_v137 := ((extractStridedSlice S1 ![5] · slices_S11_S1_5) : (⟨S11, .f32⟩ : BufTy).Contents (Elt F) → (⟨S1, .f32⟩ : BufTy).Contents (Elt F)) x_v62
  have x_v138 := shapeCast S_ x_v137 shapeCasts_S1_S_
  have x_v139 := (broadcastInDim S50000x128 ![] bcast_S_S50000x128 : (⟨S_, .f32⟩ : BufTy).Contents (Elt F) → (⟨S50000x128, .f32⟩ : BufTy).Contents (Elt F)) x_v138
  have x_v140 := (mulf : (⟨S50000x128, .f32⟩ : BufTy).Contents (Elt F) → (⟨S50000x128, .f32⟩ : BufTy).Contents (Elt F) → (⟨S50000x128, .f32⟩ : BufTy).Contents (Elt F)) x_v139 x_v136
  have x_v141 := (addf : (⟨S50000x128, .f32⟩ : BufTy).Contents (Elt F) → (⟨S50000x128, .f32⟩ : BufTy).Contents (Elt F) → (⟨S50000x128, .f32⟩ : BufTy).Contents (Elt F)) x_v126 x_v140
  have x_c_24 := (constantI S_ 32 0#32)
  have x_v142 := (broadcastInDim S800000 ![] bcast_S_S800000 : (⟨S_, .i32⟩ : BufTy).Contents (Elt F) → (⟨S800000, .i32⟩ : BufTy).Contents (Elt F)) x_c_24
  have x_v143 := (cmpi .slt : (⟨S800000, .i32⟩ : BufTy).Contents (Elt F) → (⟨S800000, .i32⟩ : BufTy).Contents (Elt F) → (⟨S800000, .i1⟩ : BufTy).Contents (Elt F)) x_v50 x_v142
  have x_c_25 := (constantI S_ 32 50000#32)
  have x_v144 := (broadcastInDim S800000 ![] bcast_S_S800000 : (⟨S_, .i32⟩ : BufTy).Contents (Elt F) → (⟨S800000, .i32⟩ : BufTy).Contents (Elt F)) x_c_25
  have x_v145 := (addi : (⟨S800000, .i32⟩ : BufTy).Contents (Elt F) → (⟨S800000, .i32⟩ : BufTy).Contents (Elt F) → (⟨S800000, .i32⟩ : BufTy).Contents (Elt F)) x_v50 x_v144
  have x_v146 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v143 x_v145 x_v50
  have x_v147 := (broadcastInDim S800000x1 ![0] bcast_S800000_S800000x1_0 : (⟨S800000, .i32⟩ : BufTy).Contents (Elt F) → (⟨S800000x1, .i32⟩ : BufTy).Contents (Elt F)) x_v146
  have x_v148 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v136 x_v147
  have x_cst_26 := (constant (F := F) S_ .f32 0x00000000#32)
  have x_v149 := (broadcastInDim S50000x128 ![] bcast_S_S50000x128 : (⟨S_, .f32⟩ : BufTy).Contents (Elt F) → (⟨S50000x128, .f32⟩ : BufTy).Contents (Elt F)) x_cst_26
  have x_v150 := (broadcastInDim S800000x1 ![0] bcast_S800000_S800000x1_0 : (⟨S800000, .i32⟩ : BufTy).Contents (Elt F) → (⟨S800000x1, .i32⟩ : BufTy).Contents (Elt F)) x_v52
  have x_v151 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v149 x_v150 x_v148
  have x_v152 := ((extractStridedSlice S1 ![6] · slices_S11_S1_6) : (⟨S11, .f32⟩ : BufTy).Contents (Elt F) → (⟨S1, .f32⟩ : BufTy).Contents (Elt F)) x_v62
  have x_v153 := shapeCast S_ x_v152 shapeCasts_S1_S_
  have x_v154 := (broadcastInDim S50000x128 ![] bcast_S_S50000x128 : (⟨S_, .f32⟩ : BufTy).Contents (Elt F) → (⟨S50000x128, .f32⟩ : BufTy).Contents (Elt F)) x_v153
  have x_v155 := (mulf : (⟨S50000x128, .f32⟩ : BufTy).Contents (Elt F) → (⟨S50000x128, .f32⟩ : BufTy).Contents (Elt F) → (⟨S50000x128, .f32⟩ : BufTy).Contents (Elt F)) x_v154 x_v151
  have x_v156 := (addf : (⟨S50000x128, .f32⟩ : BufTy).Contents (Elt F) → (⟨S50000x128, .f32⟩ : BufTy).Contents (Elt F) → (⟨S50000x128, .f32⟩ : BufTy).Contents (Elt F)) x_v141 x_v155
  have x_c_27 := (constantI S_ 32 0#32)
  have x_v157 := (broadcastInDim S800000 ![] bcast_S_S800000 : (⟨S_, .i32⟩ : BufTy).Contents (Elt F) → (⟨S800000, .i32⟩ : BufTy).Contents (Elt F)) x_c_27
  have x_v158 := (cmpi .slt : (⟨S800000, .i32⟩ : BufTy).Contents (Elt F) → (⟨S800000, .i32⟩ : BufTy).Contents (Elt F) → (⟨S800000, .i1⟩ : BufTy).Contents (Elt F)) x_v50 x_v157
  have x_c_28 := (constantI S_ 32 50000#32)
  have x_v159 := (broadcastInDim S800000 ![] bcast_S_S800000 : (⟨S_, .i32⟩ : BufTy).Contents (Elt F) → (⟨S800000, .i32⟩ : BufTy).Contents (Elt F)) x_c_28
  have x_v160 := (addi : (⟨S800000, .i32⟩ : BufTy).Contents (Elt F) → (⟨S800000, .i32⟩ : BufTy).Contents (Elt F) → (⟨S800000, .i32⟩ : BufTy).Contents (Elt F)) x_v50 x_v159
  have x_v161 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v158 x_v160 x_v50
  have x_v162 := (broadcastInDim S800000x1 ![0] bcast_S800000_S800000x1_0 : (⟨S800000, .i32⟩ : BufTy).Contents (Elt F) → (⟨S800000x1, .i32⟩ : BufTy).Contents (Elt F)) x_v161
  have x_v163 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v151 x_v162
  have x_cst_29 := (constant (F := F) S_ .f32 0x00000000#32)
  have x_v164 := (broadcastInDim S50000x128 ![] bcast_S_S50000x128 : (⟨S_, .f32⟩ : BufTy).Contents (Elt F) → (⟨S50000x128, .f32⟩ : BufTy).Contents (Elt F)) x_cst_29
  have x_v165 := (broadcastInDim S800000x1 ![0] bcast_S800000_S800000x1_0 : (⟨S800000, .i32⟩ : BufTy).Contents (Elt F) → (⟨S800000x1, .i32⟩ : BufTy).Contents (Elt F)) x_v52
  have x_v166 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v164 x_v165 x_v163
  have x_v167 := ((extractStridedSlice S1 ![7] · slices_S11_S1_7) : (⟨S11, .f32⟩ : BufTy).Contents (Elt F) → (⟨S1, .f32⟩ : BufTy).Contents (Elt F)) x_v62
  have x_v168 := shapeCast S_ x_v167 shapeCasts_S1_S_
  have x_v169 := (broadcastInDim S50000x128 ![] bcast_S_S50000x128 : (⟨S_, .f32⟩ : BufTy).Contents (Elt F) → (⟨S50000x128, .f32⟩ : BufTy).Contents (Elt F)) x_v168
  have x_v170 := (mulf : (⟨S50000x128, .f32⟩ : BufTy).Contents (Elt F) → (⟨S50000x128, .f32⟩ : BufTy).Contents (Elt F) → (⟨S50000x128, .f32⟩ : BufTy).Contents (Elt F)) x_v169 x_v166
  have x_v171 := (addf : (⟨S50000x128, .f32⟩ : BufTy).Contents (Elt F) → (⟨S50000x128, .f32⟩ : BufTy).Contents (Elt F) → (⟨S50000x128, .f32⟩ : BufTy).Contents (Elt F)) x_v156 x_v170
  have x_c_30 := (constantI S_ 32 0#32)
  have x_v172 := (broadcastInDim S800000 ![] bcast_S_S800000 : (⟨S_, .i32⟩ : BufTy).Contents (Elt F) → (⟨S800000, .i32⟩ : BufTy).Contents (Elt F)) x_c_30
  have x_v173 := (cmpi .slt : (⟨S800000, .i32⟩ : BufTy).Contents (Elt F) → (⟨S800000, .i32⟩ : BufTy).Contents (Elt F) → (⟨S800000, .i1⟩ : BufTy).Contents (Elt F)) x_v50 x_v172
  have x_c_31 := (constantI S_ 32 50000#32)
  have x_v174 := (broadcastInDim S800000 ![] bcast_S_S800000 : (⟨S_, .i32⟩ : BufTy).Contents (Elt F) → (⟨S800000, .i32⟩ : BufTy).Contents (Elt F)) x_c_31
  have x_v175 := (addi : (⟨S800000, .i32⟩ : BufTy).Contents (Elt F) → (⟨S800000, .i32⟩ : BufTy).Contents (Elt F) → (⟨S800000, .i32⟩ : BufTy).Contents (Elt F)) x_v50 x_v174
  have x_v176 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v173 x_v175 x_v50
  have x_v177 := (broadcastInDim S800000x1 ![0] bcast_S800000_S800000x1_0 : (⟨S800000, .i32⟩ : BufTy).Contents (Elt F) → (⟨S800000x1, .i32⟩ : BufTy).Contents (Elt F)) x_v176
  have x_v178 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v166 x_v177
  have x_cst_32 := (constant (F := F) S_ .f32 0x00000000#32)
  have x_v179 := (broadcastInDim S50000x128 ![] bcast_S_S50000x128 : (⟨S_, .f32⟩ : BufTy).Contents (Elt F) → (⟨S50000x128, .f32⟩ : BufTy).Contents (Elt F)) x_cst_32
  have x_v180 := (broadcastInDim S800000x1 ![0] bcast_S800000_S800000x1_0 : (⟨S800000, .i32⟩ : BufTy).Contents (Elt F) → (⟨S800000x1, .i32⟩ : BufTy).Contents (Elt F)) x_v52
  have x_v181 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v179 x_v180 x_v178
  have x_v182 := ((extractStridedSlice S1 ![8] · slices_S11_S1_8) : (⟨S11, .f32⟩ : BufTy).Contents (Elt F) → (⟨S1, .f32⟩ : BufTy).Contents (Elt F)) x_v62
  have x_v183 := shapeCast S_ x_v182 shapeCasts_S1_S_
  have x_v184 := (broadcastInDim S50000x128 ![] bcast_S_S50000x128 : (⟨S_, .f32⟩ : BufTy).Contents (Elt F) → (⟨S50000x128, .f32⟩ : BufTy).Contents (Elt F)) x_v183
  have x_v185 := (mulf : (⟨S50000x128, .f32⟩ : BufTy).Contents (Elt F) → (⟨S50000x128, .f32⟩ : BufTy).Contents (Elt F) → (⟨S50000x128, .f32⟩ : BufTy).Contents (Elt F)) x_v184 x_v181
  have x_v186 := (addf : (⟨S50000x128, .f32⟩ : BufTy).Contents (Elt F) → (⟨S50000x128, .f32⟩ : BufTy).Contents (Elt F) → (⟨S50000x128, .f32⟩ : BufTy).Contents (Elt F)) x_v171 x_v185
  have x_c_33 := (constantI S_ 32 0#32)
  have x_v187 := (broadcastInDim S800000 ![] bcast_S_S800000 : (⟨S_, .i32⟩ : BufTy).Contents (Elt F) → (⟨S800000, .i32⟩ : BufTy).Contents (Elt F)) x_c_33
  have x_v188 := (cmpi .slt : (⟨S800000, .i32⟩ : BufTy).Contents (Elt F) → (⟨S800000, .i32⟩ : BufTy).Contents (Elt F) → (⟨S800000, .i1⟩ : BufTy).Contents (Elt F)) x_v50 x_v187
  have x_c_34 := (constantI S_ 32 50000#32)
  have x_v189 := (broadcastInDim S800000 ![] bcast_S_S800000 : (⟨S_, .i32⟩ : BufTy).Contents (Elt F) → (⟨S800000, .i32⟩ : BufTy).Contents (Elt F)) x_c_34
  have x_v190 := (addi : (⟨S800000, .i32⟩ : BufTy).Contents (Elt F) → (⟨S800000, .i32⟩ : BufTy).Contents (Elt F) → (⟨S800000, .i32⟩ : BufTy).Contents (Elt F)) x_v50 x_v189
  have x_v191 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v188 x_v190 x_v50
  have x_v192 := (broadcastInDim S800000x1 ![0] bcast_S800000_S800000x1_0 : (⟨S800000, .i32⟩ : BufTy).Contents (Elt F) → (⟨S800000x1, .i32⟩ : BufTy).Contents (Elt F)) x_v191
  have x_v193 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v181 x_v192
  have x_cst_35 := (constant (F := F) S_ .f32 0x00000000#32)
  have x_v194 := (broadcastInDim S50000x128 ![] bcast_S_S50000x128 : (⟨S_, .f32⟩ : BufTy).Contents (Elt F) → (⟨S50000x128, .f32⟩ : BufTy).Contents (Elt F)) x_cst_35
  have x_v195 := (broadcastInDim S800000x1 ![0] bcast_S800000_S800000x1_0 : (⟨S800000, .i32⟩ : BufTy).Contents (Elt F) → (⟨S800000x1, .i32⟩ : BufTy).Contents (Elt F)) x_v52
  have x_v196 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v194 x_v195 x_v193
  have x_v197 := ((extractStridedSlice S1 ![9] · slices_S11_S1_9) : (⟨S11, .f32⟩ : BufTy).Contents (Elt F) → (⟨S1, .f32⟩ : BufTy).Contents (Elt F)) x_v62
  have x_v198 := shapeCast S_ x_v197 shapeCasts_S1_S_
  have x_v199 := (broadcastInDim S50000x128 ![] bcast_S_S50000x128 : (⟨S_, .f32⟩ : BufTy).Contents (Elt F) → (⟨S50000x128, .f32⟩ : BufTy).Contents (Elt F)) x_v198
  have x_v200 := (mulf : (⟨S50000x128, .f32⟩ : BufTy).Contents (Elt F) → (⟨S50000x128, .f32⟩ : BufTy).Contents (Elt F) → (⟨S50000x128, .f32⟩ : BufTy).Contents (Elt F)) x_v199 x_v196
  have x_v201 := (addf : (⟨S50000x128, .f32⟩ : BufTy).Contents (Elt F) → (⟨S50000x128, .f32⟩ : BufTy).Contents (Elt F) → (⟨S50000x128, .f32⟩ : BufTy).Contents (Elt F)) x_v186 x_v200
  have x_c_36 := (constantI S_ 32 0#32)
  have x_v202 := (broadcastInDim S800000 ![] bcast_S_S800000 : (⟨S_, .i32⟩ : BufTy).Contents (Elt F) → (⟨S800000, .i32⟩ : BufTy).Contents (Elt F)) x_c_36
  have x_v203 := (cmpi .slt : (⟨S800000, .i32⟩ : BufTy).Contents (Elt F) → (⟨S800000, .i32⟩ : BufTy).Contents (Elt F) → (⟨S800000, .i1⟩ : BufTy).Contents (Elt F)) x_v50 x_v202
  have x_c_37 := (constantI S_ 32 50000#32)
  have x_v204 := (broadcastInDim S800000 ![] bcast_S_S800000 : (⟨S_, .i32⟩ : BufTy).Contents (Elt F) → (⟨S800000, .i32⟩ : BufTy).Contents (Elt F)) x_c_37
  have x_v205 := (addi : (⟨S800000, .i32⟩ : BufTy).Contents (Elt F) → (⟨S800000, .i32⟩ : BufTy).Contents (Elt F) → (⟨S800000, .i32⟩ : BufTy).Contents (Elt F)) x_v50 x_v204
  have x_v206 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) x_v203 x_v205 x_v50
  have x_v207 := (broadcastInDim S800000x1 ![0] bcast_S800000_S800000x1_0 : (⟨S800000, .i32⟩ : BufTy).Contents (Elt F) → (⟨S800000x1, .i32⟩ : BufTy).Contents (Elt F)) x_v206
  have x_v208 := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x_v196 x_v207
  have x_cst_38 := (constant (F := F) S_ .f32 0x00000000#32)
  have x_v209 := (broadcastInDim S50000x128 ![] bcast_S_S50000x128 : (⟨S_, .f32⟩ : BufTy).Contents (Elt F) → (⟨S50000x128, .f32⟩ : BufTy).Contents (Elt F)) x_cst_38
  have x_v210 := (broadcastInDim S800000x1 ![0] bcast_S800000_S800000x1_0 : (⟨S800000, .i32⟩ : BufTy).Contents (Elt F) → (⟨S800000x1, .i32⟩ : BufTy).Contents (Elt F)) x_v52
  have x_v211 := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) x_v209 x_v210 x_v208
  have x_v212 := ((extractStridedSlice S1 ![10] · slices_S11_S1_10) : (⟨S11, .f32⟩ : BufTy).Contents (Elt F) → (⟨S1, .f32⟩ : BufTy).Contents (Elt F)) x_v62
  have x_v213 := shapeCast S_ x_v212 shapeCasts_S1_S_
  have x_v214 := (broadcastInDim S50000x128 ![] bcast_S_S50000x128 : (⟨S_, .f32⟩ : BufTy).Contents (Elt F) → (⟨S50000x128, .f32⟩ : BufTy).Contents (Elt F)) x_v213
  have x_v215 := (mulf : (⟨S50000x128, .f32⟩ : BufTy).Contents (Elt F) → (⟨S50000x128, .f32⟩ : BufTy).Contents (Elt F) → (⟨S50000x128, .f32⟩ : BufTy).Contents (Elt F)) x_v214 x_v211
  have x_v216 := (addf : (⟨S50000x128, .f32⟩ : BufTy).Contents (Elt F) → (⟨S50000x128, .f32⟩ : BufTy).Contents (Elt F) → (⟨S50000x128, .f32⟩ : BufTy).Contents (Elt F)) x_v201 x_v215
  x_v216

/-- A dense layer 128 → 64. -/
def dense64 (x : (⟨S50000x128, .f32⟩ : BufTy).Contents (Elt F)) (w : (⟨S128x64, .f32⟩ : BufTy).Contents (Elt F)) (b : (⟨S64, .f32⟩ : BufTy).Contents (Elt F)) : (⟨S50000x64, .f32⟩ : BufTy).Contents (Elt F) :=
  have x_v217 := ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) x w
  have x_v218 := (broadcastInDim S1x64 ![1] bcast_S64_S1x64_1 : (⟨S64, .f32⟩ : BufTy).Contents (Elt F) → (⟨S1x64, .f32⟩ : BufTy).Contents (Elt F)) b
  have x_v219 := (broadcastInDim S50000x64 ![0, 1] bcast_S1x64_S50000x64_0_1 : (⟨S1x64, .f32⟩ : BufTy).Contents (Elt F) → (⟨S50000x64, .f32⟩ : BufTy).Contents (Elt F)) x_v218
  have x_v220 := (addf : (⟨S50000x64, .f32⟩ : BufTy).Contents (Elt F) → (⟨S50000x64, .f32⟩ : BufTy).Contents (Elt F) → (⟨S50000x64, .f32⟩ : BufTy).Contents (Elt F)) x_v217 x_v219
  x_v220

/-- The mean of each of the 64 columns. -/
def mean64 (z : (⟨S50000x64, .f32⟩ : BufTy).Contents (Elt F)) : (⟨S64, .f32⟩ : BufTy).Contents (Elt F) :=
  have x_cst_39 := (constant (F := F) S_ .f32 0x00000000#32)
  have x_v221 := ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) z x_cst_39
  have x_cst_40 := (constant (F := F) S_ .f32 0x47435000#32)
  have x_v222 := (broadcastInDim S64 ![] bcast_S_S64 : (⟨S_, .f32⟩ : BufTy).Contents (Elt F) → (⟨S64, .f32⟩ : BufTy).Contents (Elt F)) x_cst_40
  have x_v223 := (Host.divf : (⟨S64, .f32⟩ : BufTy).Contents (Elt F) → (⟨S64, .f32⟩ : BufTy).Contents (Elt F) → (⟨S64, .f32⟩ : BufTy).Contents (Elt F)) x_v221 x_v222
  x_v223

/-- The variance of each of the 64 columns. -/
def var64 (z : (⟨S50000x64, .f32⟩ : BufTy).Contents (Elt F)) (c0 : (⟨S_, .i32⟩ : BufTy).Contents (Elt F)) : (⟨S64, .f32⟩ : BufTy).Contents (Elt F) :=
  have x_call4_cst := (constant (F := F) S_ .f32 0x00000000#32)
  have x_call4_v0 := (fun x v => Host.reduceAdd x v reducesTo_S50000x64_S64_d0 h_S_) z x_call4_cst
  have x_call4_v1 := (broadcastInDim S1x64 ![1] bcast_S64_S1x64_1) x_call4_v0
  have x_call4_cst_0 := (constant (F := F) S_ .f32 0x47435000#32)
  have x_call4_v2 := (broadcastInDim S1x64 ![] bcast_S_S1x64) x_call4_cst_0
  have x_call4_v3 := Host.divf x_call4_v1 x_call4_v2
  have x_call4_v4 := (broadcastInDim S50000x64 ![0, 1] bcast_S1x64_S50000x64_0_1) x_call4_v3
  have x_call4_v5 := subf z x_call4_v4
  have x_call4_v6 := mulf x_call4_v5 x_call4_v5
  have x_call4_v7 := (sitofp .f32) c0
  have x_call4_cst_1 := (constant (F := F) S_ .f32 0x47435000#32)
  have x_call4_v8 := subf x_call4_cst_1 x_call4_v7
  have x_call4_cst_2 := (constant (F := F) S_ .f32 0x00000000#32)
  have x_call4_v9 := (fun x v => Host.reduceAdd x v reducesTo_S50000x64_S64_d0 h_S_) x_call4_v6 x_call4_cst_2
  have x_call4_v10 := (broadcastInDim S64 ![] bcast_S_S64) x_call4_v8
  have x_call4_v11 := Host.divf x_call4_v9 x_call4_v10
  have x_call4_cst_3 := (constant (F := F) S_ .f32 0x00000000#32)
  have x_call4_v12 := (cmpf .ogt) x_call4_v8 x_call4_cst_3
  have x_call4_cst_4 := (constant (F := F) S_ .f32 0x7FC00000#32)
  have x_call4_call0_v0 := id x_call4_cst_4
  have x_call4_call0_v1 := (broadcastInDim S64 ![] bcast_S_S64) x_call4_call0_v0
  have x_v224 := (fun p a b => select (broadcastInDim S64 ![] bcast_S_S64 p) a b) x_call4_v12 x_call4_v11 x_call4_call0_v1
  x_v224

/-- The normalisation layer with the rectifier at width 64. -/
def norm64 (z : (⟨S50000x64, .f32⟩ : BufTy).Contents (Elt F)) (mean : (⟨S64, .f32⟩ : BufTy).Contents (Elt F)) (var : (⟨S64, .f32⟩ : BufTy).Contents (Elt F)) (g : (⟨S64, .f32⟩ : BufTy).Contents (Elt F)) (be : (⟨S64, .f32⟩ : BufTy).Contents (Elt F)) : (⟨S50000x64, .f32⟩ : BufTy).Contents (Elt F) :=
  have x_v225 := (broadcastInDim S1x64 ![1] bcast_S64_S1x64_1 : (⟨S64, .f32⟩ : BufTy).Contents (Elt F) → (⟨S1x64, .f32⟩ : BufTy).Contents (Elt F)) mean
  have x_v226 := (broadcastInDim S50000x64 ![0, 1] bcast_S1x64_S50000x64_0_1 : (⟨S1x64, .f32⟩ : BufTy).Contents (Elt F) → (⟨S50000x64, .f32⟩ : BufTy).Contents (Elt F)) x_v225
  have x_v227 := (subf : (⟨S50000x64, .f32⟩ : BufTy).Contents (Elt F) → (⟨S50000x64, .f32⟩ : BufTy).Contents (Elt F) → (⟨S50000x64, .f32⟩ : BufTy).Contents (Elt F)) z x_v226
  have x_v228 := (broadcastInDim S1x64 ![1] bcast_S64_S1x64_1 : (⟨S64, .f32⟩ : BufTy).Contents (Elt F) → (⟨S1x64, .f32⟩ : BufTy).Contents (Elt F)) g
  have x_v229 := (broadcastInDim S50000x64 ![0, 1] bcast_S1x64_S50000x64_0_1 : (⟨S1x64, .f32⟩ : BufTy).Contents (Elt F) → (⟨S50000x64, .f32⟩ : BufTy).Contents (Elt F)) x_v228
  have x_v230 := (mulf : (⟨S50000x64, .f32⟩ : BufTy).Contents (Elt F) → (⟨S50000x64, .f32⟩ : BufTy).Contents (Elt F) → (⟨S50000x64, .f32⟩ : BufTy).Contents (Elt F)) x_v229 x_v227
  have x_cst_42 := (constant (F := F) S_ .f32 0x3727C5AC#32)
  have x_v231 := (broadcastInDim S64 ![] bcast_S_S64 : (⟨S_, .f32⟩ : BufTy).Contents (Elt F) → (⟨S64, .f32⟩ : BufTy).Contents (Elt F)) x_cst_42
  have x_v232 := (addf : (⟨S64, .f32⟩ : BufTy).Contents (Elt F) → (⟨S64, .f32⟩ : BufTy).Contents (Elt F) → (⟨S64, .f32⟩ : BufTy).Contents (Elt F)) var x_v231
  have x_v233 := (Host.rsqrt : (⟨S64, .f32⟩ : BufTy).Contents (Elt F) → (⟨S64, .f32⟩ : BufTy).Contents (Elt F)) x_v232
  have x_v234 := (broadcastInDim S1x64 ![1] bcast_S64_S1x64_1 : (⟨S64, .f32⟩ : BufTy).Contents (Elt F) → (⟨S1x64, .f32⟩ : BufTy).Contents (Elt F)) x_v233
  have x_v235 := (broadcastInDim S50000x64 ![0, 1] bcast_S1x64_S50000x64_0_1 : (⟨S1x64, .f32⟩ : BufTy).Contents (Elt F) → (⟨S50000x64, .f32⟩ : BufTy).Contents (Elt F)) x_v234
  have x_v236 := (mulf : (⟨S50000x64, .f32⟩ : BufTy).Contents (Elt F) → (⟨S50000x64, .f32⟩ : BufTy).Contents (Elt F) → (⟨S50000x64, .f32⟩ : BufTy).Contents (Elt F)) x_v230 x_v235
  have x_v237 := (broadcastInDim S1x64 ![1] bcast_S64_S1x64_1 : (⟨S64, .f32⟩ : BufTy).Contents (Elt F) → (⟨S1x64, .f32⟩ : BufTy).Contents (Elt F)) be
  have x_v238 := (broadcastInDim S50000x64 ![0, 1] bcast_S1x64_S50000x64_0_1 : (⟨S1x64, .f32⟩ : BufTy).Contents (Elt F) → (⟨S50000x64, .f32⟩ : BufTy).Contents (Elt F)) x_v237
  have x_v239 := (addf : (⟨S50000x64, .f32⟩ : BufTy).Contents (Elt F) → (⟨S50000x64, .f32⟩ : BufTy).Contents (Elt F) → (⟨S50000x64, .f32⟩ : BufTy).Contents (Elt F)) x_v236 x_v238
  have x_call5_cst := (constant (F := F) S_ .f32 0x00000000#32)
  have x_call5_v0 := (broadcastInDim S50000x64 ![] bcast_S_S50000x64) x_call5_cst
  have x_v240 := maximumf x_v239 x_call5_v0
  x_v240

/-- The output layer 64 → 1000. -/
def dense1000 (x : (⟨S50000x64, .f32⟩ : BufTy).Contents (Elt F)) (w : (⟨S64x1000, .f32⟩ : BufTy).Contents (Elt F)) (b : (⟨S1000, .f32⟩ : BufTy).Contents (Elt F)) : (⟨S50000x1000, .f32⟩ : BufTy).Contents (Elt F) :=
  have x_v241 := ((fun l r => Host.dotGeneral dot_S50000x64_S64x1000_S50000x1000_1_0_0_1_n_n none l r) : (⟨S50000x64, .f32⟩ : BufTy).Contents (Elt F) → (⟨S64x1000, .f32⟩ : BufTy).Contents (Elt F) → (⟨S50000x1000, .f32⟩ : BufTy).Contents (Elt F)) x w
  have x_v242 := (broadcastInDim S1x1000 ![1] bcast_S1000_S1x1000_1 : (⟨S1000, .f32⟩ : BufTy).Contents (Elt F) → (⟨S1x1000, .f32⟩ : BufTy).Contents (Elt F)) b
  have x_v243 := (broadcastInDim S50000x1000 ![0, 1] bcast_S1x1000_S50000x1000_0_1 : (⟨S1x1000, .f32⟩ : BufTy).Contents (Elt F) → (⟨S50000x1000, .f32⟩ : BufTy).Contents (Elt F)) x_v242
  have x_v244 := (addf : (⟨S50000x1000, .f32⟩ : BufTy).Contents (Elt F) → (⟨S50000x1000, .f32⟩ : BufTy).Contents (Elt F) → (⟨S50000x1000, .f32⟩ : BufTy).Contents (Elt F)) x_v241 x_v243
  x_v244

/-- The whole network: two normalised dense layers (the second with a skip connection), the propagation, a third
    normalised dense layer and the output layer. -/
def network (x : (⟨S50000x128, .f32⟩ : BufTy).Contents (Elt F)) (e : (⟨S2x800000, .i32⟩ : BufTy).Contents (Elt F))
    (w1 : (⟨S128x128, .f32⟩ : BufTy).Contents (Elt F)) (b1 g1 be1 : (⟨S128, .f32⟩ : BufTy).Contents (Elt F))
    (w2 : (⟨S128x128, .f32⟩ : BufTy).Contents (Elt F)) (b2 g2 be2 : (⟨S128, .f32⟩ : BufTy).Contents (Elt F))
    (att : (⟨S11, .f32⟩ : BufTy).Contents (Elt F))
    (w3 : (⟨S128x64, .f32⟩ : BufTy).Contents (Elt F)) (b3 g3 be3 : (⟨S64, .f32⟩ : BufTy).Contents (Elt F))
    (w4 : (⟨S64x1000, .f32⟩ : BufTy).Contents (Elt F)) (b4 : (⟨S1000, .f32⟩ : BufTy).Contents (Elt F)) :
    (⟨S50000x1000, .f32⟩ : BufTy).Contents (Elt F) :=
  have c0 : (⟨S_, .i32⟩ : BufTy).Contents (Elt F) := constantI S_ 32 0#32
  have z1 := dense128 x w1 b1
  have h1 := norm128 z1 (mean128 z1) (var128 z1 c0) g1 be1
  have z2 := dense128 h1 w2 b2
  have h2 := addf (norm128 z2 (mean128 z2) (var128 z2 c0) g2 be2) h1
  have p := propagate h2 e att
  have z3 := dense64 p w3 b3
  have h3 := norm64 z3 (mean64 z3) (var64 z3 c0) g3 be3
  dense1000 h3 w4 b4

end Cert.ReferenceIdeal.Fns

end
-- ==== Proof.KHost.lean ====
/-
  The idealized kernel's host operations between its launches, read. Each stretch is the reference's own operations under
  other buffer names: a bias or a statistics vector made a 1×N row, the columns' mean and variance of a launch's output,
  and the propagation along the graph's edges; and no stretch writes an argument.
-/
import proofs.«123233_j6760278524490_1_alg».proof.Proof.Gen.KernelIdeal.Launch
import proofs.«123233_j6760278524490_1_alg».proof.Proof.RefFns
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F] [Cert.KernelIdeal.Facts] [Cert.ReferenceIdeal.Facts₀]
open Facts₀ Facts

/-- The seventeen argument buffers. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16]

theorem ne_of_args {r y : Ref sig .tc} (hr : r ∈ argRefs) (hy : y ∉ argRefs) : r ≠ y := fun e => hy (e ▸ hr)

/-- Closes `after ops V b = V b` for a literal stretch none of whose operations writes the literal buffer `b`. -/
macro "not_written" : tactic => `(tactic|
  (refine StableHlo.after_of_forall_not_mem _ _ (List.forall_iff_forall_mem.mp ?_)
   simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

set_option maxHeartbeats 8000000 in
/-- No operation of this stretch writes an argument. -/
theorem keepArgs_hostOps0 (V : Valuation τ sig (Elt F)) (r : Ref sig .tc) (hr : r ∈ argRefs) :
    after hostOps0 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps1 (V : Valuation τ sig (Elt F)) (r : Ref sig .tc) (hr : r ∈ argRefs) :
    after hostOps1 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps1_1 (V : Valuation τ sig (Elt F)) (r : Ref sig .tc) (hr : r ∈ argRefs) :
    after hostOps1_1 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps1_2 (V : Valuation τ sig (Elt F)) (r : Ref sig .tc) (hr : r ∈ argRefs) :
    after hostOps1_2 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps2 (V : Valuation τ sig (Elt F)) (r : Ref sig .tc) (hr : r ∈ argRefs) :
    after hostOps2 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps3 (V : Valuation τ sig (Elt F)) (r : Ref sig .tc) (hr : r ∈ argRefs) :
    after hostOps3 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps3_1 (V : Valuation τ sig (Elt F)) (r : Ref sig .tc) (hr : r ∈ argRefs) :
    after hostOps3_1 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps3_2 (V : Valuation τ sig (Elt F)) (r : Ref sig .tc) (hr : r ∈ argRefs) :
    after hostOps3_2 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps4 (V : Valuation τ sig (Elt F)) (r : Ref sig .tc) (hr : r ∈ argRefs) :
    after hostOps4 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps5 (V : Valuation τ sig (Elt F)) (r : Ref sig .tc) (hr : r ∈ argRefs) :
    after hostOps5 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps5_1 (V : Valuation τ sig (Elt F)) (r : Ref sig .tc) (hr : r ∈ argRefs) :
    after hostOps5_1 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps5_2 (V : Valuation τ sig (Elt F)) (r : Ref sig .tc) (hr : r ∈ argRefs) :
    after hostOps5_2 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

set_option maxHeartbeats 8000000 in
/-- No operation of this stretch writes an argument. -/
theorem keepArgs_hostOps6 (V : Valuation τ sig (Elt F)) (r : Ref sig .tc) (hr : r ∈ argRefs) :
    after hostOps6 V (Proc.devRef .tc r) = V (Proc.devRef .tc r) :=
  StableHlo.after_of_forall_not_mem _ _ (List.forall_iff_forall_mem.mp (by
    simp only [hostOps0, hostOps1, hostOps1_1, hostOps1_2, hostOps2, hostOps3, hostOps3_1, hostOps3_2, hostOps4, hostOps5, hostOps5_1, hostOps5_2, hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_args hr (by decide))))

/-- The first bias as a row. -/
theorem row0 (V : Valuation τ sig (Elt F)) :
    after hostOps0 V (Proc.devRef .tc main_v0) = shapeCast S1x128 (V (Proc.devRef .tc main_arg3)) Cert.KernelIdeal.Facts₀.shapeCasts_S128_S1x128 := by
  dsimp only [hostOps0]
  after_results_simp
  rfl

/-- The second bias as a row. -/
theorem row2 (V : Valuation τ sig (Elt F)) :
    after hostOps2 V (Proc.devRef .tc main_v11) = shapeCast S1x128 (V (Proc.devRef .tc main_arg7)) Cert.KernelIdeal.Facts₀.shapeCasts_S128_S1x128 := by
  dsimp only [hostOps2]
  after_results_simp
  rfl

/-- The output bias as a row. -/
theorem row6 (V : Valuation τ sig (Elt F)) :
    after hostOps6 V (Proc.devRef .tc main_v201) = shapeCast S1x1000 (V (Proc.devRef .tc main_arg16)) Cert.KernelIdeal.Facts₀.shapeCasts_S1000_S1x1000 := by
  dsimp only [hostOps6]
  after_results_simp
  rfl

set_option maxRecDepth 65536 in
set_option maxHeartbeats 4000000 in
/-- The columns' mean of the launch's output, as a row. -/
theorem blk1_mean (V : Valuation τ sig (Elt F)) :
    after hostOps1_2 (after hostOps1_1 (after hostOps1 V)) (Proc.devRef .tc main_v6) = shapeCast S1x128 (Cert.ReferenceIdeal.Fns.mean128 (V (Proc.devRef .tc main_v1))) Cert.KernelIdeal.Facts₀.shapeCasts_S128_S1x128 := by
  dsimp only [hostOps1, hostOps1_1, hostOps1_2]
  after_results_simp
  rfl

set_option maxRecDepth 65536 in
set_option maxHeartbeats 4000000 in
/-- The columns' variance of the launch's output, as a row. -/
theorem blk1_var (V : Valuation τ sig (Elt F)) :
    after hostOps1_2 (after hostOps1_1 (after hostOps1 V)) (Proc.devRef .tc main_v7) = shapeCast S1x128 (Cert.ReferenceIdeal.Fns.var128 (V (Proc.devRef .tc main_v1)) (constantI S_ 32 0#32)) Cert.KernelIdeal.Facts₀.shapeCasts_S128_S1x128 := by
  dsimp only [hostOps1, hostOps1_1, hostOps1_2]
  after_results_simp
  rfl

set_option maxRecDepth 65536 in
set_option maxHeartbeats 4000000 in
/-- The scale vector as a row. -/
theorem blk1_g (V : Valuation τ sig (Elt F)) :
    after hostOps1_2 (after hostOps1_1 (after hostOps1 V)) (Proc.devRef .tc main_v8) = shapeCast S1x128 (V (Proc.devRef .tc main_arg4)) Cert.KernelIdeal.Facts₀.shapeCasts_S128_S1x128 := by
  dsimp only [hostOps1, hostOps1_1, hostOps1_2]
  after_results_simp
  rfl

set_option maxRecDepth 65536 in
set_option maxHeartbeats 4000000 in
/-- The shift vector as a row. -/
theorem blk1_be (V : Valuation τ sig (Elt F)) :
    after hostOps1_2 (after hostOps1_1 (after hostOps1 V)) (Proc.devRef .tc main_v9) = shapeCast S1x128 (V (Proc.devRef .tc main_arg5)) Cert.KernelIdeal.Facts₀.shapeCasts_S128_S1x128 := by
  dsimp only [hostOps1, hostOps1_1, hostOps1_2]
  after_results_simp
  rfl

/-- No operation of these three stretches writes an argument. -/
theorem blk1_args (V : Valuation τ sig (Elt F)) (r : Ref sig .tc) (hr : r ∈ argRefs) :
    after hostOps1_2 (after hostOps1_1 (after hostOps1 V)) (Proc.devRef .tc r) = V (Proc.devRef .tc r) :=
  (keepArgs_hostOps1_2 _ r hr).trans ((keepArgs_hostOps1_1 _ r hr).trans (keepArgs_hostOps1 _ r hr))

set_option maxHeartbeats 8000000 in
/-- These stretches do not write this buffer. -/
theorem blk1_z (V : Valuation τ sig (Elt F)) :
    after hostOps1_2 (after hostOps1_1 (after hostOps1 V)) (Proc.devRef .tc main_v1) = V (Proc.devRef .tc main_v1) :=
  ((by not_written) : _ = _).trans (((by not_written) : _ = _).trans ((by not_written)))

set_option maxHeartbeats 8000000 in
/-- These stretches do not write this buffer. -/
theorem row2_h (V : Valuation τ sig (Elt F)) :
    after hostOps2 V (Proc.devRef .tc main_v10) = V (Proc.devRef .tc main_v10) :=
  (by not_written)

set_option maxRecDepth 65536 in
set_option maxHeartbeats 4000000 in
/-- The columns' mean of the launch's output, as a row. -/
theorem blk3_mean (V : Valuation τ sig (Elt F)) :
    after hostOps3_2 (after hostOps3_1 (after hostOps3 V)) (Proc.devRef .tc main_v17) = shapeCast S1x128 (Cert.ReferenceIdeal.Fns.mean128 (V (Proc.devRef .tc main_v12))) Cert.KernelIdeal.Facts₀.shapeCasts_S128_S1x128 := by
  dsimp only [hostOps3, hostOps3_1, hostOps3_2]
  after_results_simp
  rfl

set_option maxRecDepth 65536 in
set_option maxHeartbeats 4000000 in
/-- The columns' variance of the launch's output, as a row. -/
theorem blk3_var (V : Valuation τ sig (Elt F)) :
    after hostOps3_2 (after hostOps3_1 (after hostOps3 V)) (Proc.devRef .tc main_v18) = shapeCast S1x128 (Cert.ReferenceIdeal.Fns.var128 (V (Proc.devRef .tc main_v12)) (constantI S_ 32 0#32)) Cert.KernelIdeal.Facts₀.shapeCasts_S128_S1x128 := by
  dsimp only [hostOps3, hostOps3_1, hostOps3_2]
  after_results_simp
  rfl

set_option maxRecDepth 65536 in
set_option maxHeartbeats 4000000 in
/-- The scale vector as a row. -/
theorem blk3_g (V : Valuation τ sig (Elt F)) :
    after hostOps3_2 (after hostOps3_1 (after hostOps3 V)) (Proc.devRef .tc main_v19) = shapeCast S1x128 (V (Proc.devRef .tc main_arg8)) Cert.KernelIdeal.Facts₀.shapeCasts_S128_S1x128 := by
  dsimp only [hostOps3, hostOps3_1, hostOps3_2]
  after_results_simp
  rfl

set_option maxRecDepth 65536 in
set_option maxHeartbeats 4000000 in
/-- The shift vector as a row. -/
theorem blk3_be (V : Valuation τ sig (Elt F)) :
    after hostOps3_2 (after hostOps3_1 (after hostOps3 V)) (Proc.devRef .tc main_v20) = shapeCast S1x128 (V (Proc.devRef .tc main_arg9)) Cert.KernelIdeal.Facts₀.shapeCasts_S128_S1x128 := by
  dsimp only [hostOps3, hostOps3_1, hostOps3_2]
  after_results_simp
  rfl

/-- No operation of these three stretches writes an argument. -/
theorem blk3_args (V : Valuation τ sig (Elt F)) (r : Ref sig .tc) (hr : r ∈ argRefs) :
    after hostOps3_2 (after hostOps3_1 (after hostOps3 V)) (Proc.devRef .tc r) = V (Proc.devRef .tc r) :=
  (keepArgs_hostOps3_2 _ r hr).trans ((keepArgs_hostOps3_1 _ r hr).trans (keepArgs_hostOps3 _ r hr))

set_option maxHeartbeats 8000000 in
/-- These stretches do not write this buffer. -/
theorem blk3_z (V : Valuation τ sig (Elt F)) :
    after hostOps3_2 (after hostOps3_1 (after hostOps3 V)) (Proc.devRef .tc main_v12) = V (Proc.devRef .tc main_v12) :=
  ((by not_written) : _ = _).trans (((by not_written) : _ = _).trans ((by not_written)))

set_option maxHeartbeats 8000000 in
/-- These stretches do not write this buffer. -/
theorem blk3_h (V : Valuation τ sig (Elt F)) :
    after hostOps3_2 (after hostOps3_1 (after hostOps3 V)) (Proc.devRef .tc main_v10) = V (Proc.devRef .tc main_v10) :=
  ((by not_written) : _ = _).trans (((by not_written) : _ = _).trans ((by not_written)))

set_option maxRecDepth 65536 in
set_option maxHeartbeats 4000000 in
/-- The columns' mean of the launch's output, as a row. -/
theorem blk5_mean (V : Valuation τ sig (Elt F)) :
    after hostOps5_2 (after hostOps5_1 (after hostOps5 V)) (Proc.devRef .tc main_v196) = shapeCast S1x64 (Cert.ReferenceIdeal.Fns.mean64 (V (Proc.devRef .tc main_v191))) Cert.KernelIdeal.Facts₀.shapeCasts_S64_S1x64 := by
  dsimp only [hostOps5, hostOps5_1, hostOps5_2]
  after_results_simp
  rfl

set_option maxRecDepth 65536 in
set_option maxHeartbeats 4000000 in
/-- The columns' variance of the launch's output, as a row. -/
theorem blk5_var (V : Valuation τ sig (Elt F)) :
    after hostOps5_2 (after hostOps5_1 (after hostOps5 V)) (Proc.devRef .tc main_v197) = shapeCast S1x64 (Cert.ReferenceIdeal.Fns.var64 (V (Proc.devRef .tc main_v191)) (constantI S_ 32 0#32)) Cert.KernelIdeal.Facts₀.shapeCasts_S64_S1x64 := by
  dsimp only [hostOps5, hostOps5_1, hostOps5_2]
  after_results_simp
  rfl

set_option maxRecDepth 65536 in
set_option maxHeartbeats 4000000 in
/-- The scale vector as a row. -/
theorem blk5_g (V : Valuation τ sig (Elt F)) :
    after hostOps5_2 (after hostOps5_1 (after hostOps5 V)) (Proc.devRef .tc main_v198) = shapeCast S1x64 (V (Proc.devRef .tc main_arg13)) Cert.KernelIdeal.Facts₀.shapeCasts_S64_S1x64 := by
  dsimp only [hostOps5, hostOps5_1, hostOps5_2]
  after_results_simp
  rfl

set_option maxRecDepth 65536 in
set_option maxHeartbeats 4000000 in
/-- The shift vector as a row. -/
theorem blk5_be (V : Valuation τ sig (Elt F)) :
    after hostOps5_2 (after hostOps5_1 (after hostOps5 V)) (Proc.devRef .tc main_v199) = shapeCast S1x64 (V (Proc.devRef .tc main_arg14)) Cert.KernelIdeal.Facts₀.shapeCasts_S64_S1x64 := by
  dsimp only [hostOps5, hostOps5_1, hostOps5_2]
  after_results_simp
  rfl

/-- No operation of these three stretches writes an argument. -/
theorem blk5_args (V : Valuation τ sig (Elt F)) (r : Ref sig .tc) (hr : r ∈ argRefs) :
    after hostOps5_2 (after hostOps5_1 (after hostOps5 V)) (Proc.devRef .tc r) = V (Proc.devRef .tc r) :=
  (keepArgs_hostOps5_2 _ r hr).trans ((keepArgs_hostOps5_1 _ r hr).trans (keepArgs_hostOps5 _ r hr))

set_option maxHeartbeats 8000000 in
/-- These stretches do not write this buffer. -/
theorem blk5_z (V : Valuation τ sig (Elt F)) :
    after hostOps5_2 (after hostOps5_1 (after hostOps5 V)) (Proc.devRef .tc main_v191) = V (Proc.devRef .tc main_v191) :=
  ((by not_written) : _ = _).trans (((by not_written) : _ = _).trans ((by not_written)))

set_option maxHeartbeats 8000000 in
/-- These stretches do not write this buffer. -/
theorem row6_h (V : Valuation τ sig (Elt F)) :
    after hostOps6 V (Proc.devRef .tc main_v200) = V (Proc.devRef .tc main_v200) :=
  (by not_written)

set_option maxRecDepth 65536 in
set_option maxHeartbeats 16000000 in
/-- The propagation along the graph's edges. -/
theorem prop4 (V : Valuation τ sig (Elt F)) :
    after hostOps4 V (Proc.devRef .tc main_v189) = Cert.ReferenceIdeal.Fns.propagate (V (Proc.devRef .tc main_v21)) (V (Proc.devRef .tc main_arg1)) (V (Proc.devRef .tc main_arg10)) := by
  dsimp only [hostOps4]
  after_results_simp
  rfl

set_option maxRecDepth 65536 in
set_option maxHeartbeats 16000000 in
/-- The third bias as a row. -/
theorem row4 (V : Valuation τ sig (Elt F)) :
    after hostOps4 V (Proc.devRef .tc main_v190) = shapeCast S1x64 (V (Proc.devRef .tc main_arg12)) Cert.KernelIdeal.Facts₀.shapeCasts_S64_S1x64 := by
  dsimp only [hostOps4]
  after_results_simp
  rfl

end Cert.KernelIdeal.HostVal

end
-- ==== Proof.KArgs.lean ====
/-
  The idealized kernel's argument buffers between its segments. No stretch of host operations writes an argument, and a
  launch leaves an array it only reads (or does not touch) as it found it; so at every segment boundary where a later
  segment reads an argument, the buffer still holds its launch contents.
-/
import proofs.«123233_j6760278524490_1_alg».proof.Proof.KernelIdealFrameP
import proofs.«123233_j6760278524490_1_alg».proof.Proof.KHost

set_option maxRecDepth 16384

noncomputable section

namespace Cert.KernelIdeal.GenP

open Cert.KernelIdeal.Gen Cert.KernelIdeal.HostVal

open Idealize.ShloMosaic Idealize.ShloMosaic.TcCoe Idealize.ShloMosaic.Tactic
open Idealize.SL.Sem
open Idealize.ShloMosaic.Pipeline (Dat Cfg Window BodyObligation cellOf)

variable {F : FTy → Type} [FloatOps F] [Cert.ReferenceIdeal.Facts₀]
variable (m : (ℓ : Loc nD τ sig) → Buf (Elt F) ℓ) (ρ : Dev nD → PrngReg)

set_option maxHeartbeats 4000000 in
theorem arg0_at1 (c : Dev nD) : W1 m ρ c (Proc.devRef .tc main_arg0) = m ((c.tc : Thread nD τ).loc main_arg0) :=
  ((show W1 m ρ c (Proc.devRef .tc main_arg0) = W0 m ρ c (Proc.devRef .tc main_arg0) from Cert.KernelIdeal.HostVal.keepArgs_hostOps0 _ main_arg0 (by decide)) : W1 m ρ c (Proc.devRef .tc main_arg0) = W0 m ρ c (Proc.devRef .tc main_arg0)).trans rfl

set_option maxHeartbeats 4000000 in
theorem arg2_at1 (c : Dev nD) : W1 m ρ c (Proc.devRef .tc main_arg2) = m ((c.tc : Thread nD τ).loc main_arg2) :=
  ((show W1 m ρ c (Proc.devRef .tc main_arg2) = W0 m ρ c (Proc.devRef .tc main_arg2) from Cert.KernelIdeal.HostVal.keepArgs_hostOps0 _ main_arg2 (by decide)) : W1 m ρ c (Proc.devRef .tc main_arg2) = W0 m ρ c (Proc.devRef .tc main_arg2)).trans rfl

set_option maxHeartbeats 4000000 in
theorem arg4_at2 (c : Dev nD) : W2 m ρ c (Proc.devRef .tc main_arg4) = m ((c.tc : Thread nD τ).loc main_arg4) :=
  ((show W2 m ρ c (Proc.devRef .tc main_arg4) = W1 m ρ c (Proc.devRef .tc main_arg4) from W2_of_ne m ρ c main_arg4 (by decide)).trans ((show W1 m ρ c (Proc.devRef .tc main_arg4) = W0 m ρ c (Proc.devRef .tc main_arg4) from Cert.KernelIdeal.HostVal.keepArgs_hostOps0 _ main_arg4 (by decide))) : W2 m ρ c (Proc.devRef .tc main_arg4) = W0 m ρ c (Proc.devRef .tc main_arg4)).trans rfl

set_option maxHeartbeats 4000000 in
theorem arg5_at2 (c : Dev nD) : W2 m ρ c (Proc.devRef .tc main_arg5) = m ((c.tc : Thread nD τ).loc main_arg5) :=
  ((show W2 m ρ c (Proc.devRef .tc main_arg5) = W1 m ρ c (Proc.devRef .tc main_arg5) from W2_of_ne m ρ c main_arg5 (by decide)).trans ((show W1 m ρ c (Proc.devRef .tc main_arg5) = W0 m ρ c (Proc.devRef .tc main_arg5) from Cert.KernelIdeal.HostVal.keepArgs_hostOps0 _ main_arg5 (by decide))) : W2 m ρ c (Proc.devRef .tc main_arg5) = W0 m ρ c (Proc.devRef .tc main_arg5)).trans rfl

set_option maxHeartbeats 4000000 in
theorem arg7_at6 (c : Dev nD) : W6 m ρ c (Proc.devRef .tc main_arg7) = m ((c.tc : Thread nD τ).loc main_arg7) :=
  ((show W6 m ρ c (Proc.devRef .tc main_arg7) = W5 m ρ c (Proc.devRef .tc main_arg7) from W6_of_ne m ρ c main_arg7 (by decide)).trans ((show W5 m ρ c (Proc.devRef .tc main_arg7) = W4 m ρ c (Proc.devRef .tc main_arg7) from Cert.KernelIdeal.HostVal.keepArgs_hostOps1_2 _ main_arg7 (by decide)).trans ((show W4 m ρ c (Proc.devRef .tc main_arg7) = W3 m ρ c (Proc.devRef .tc main_arg7) from Cert.KernelIdeal.HostVal.keepArgs_hostOps1_1 _ main_arg7 (by decide)).trans ((show W3 m ρ c (Proc.devRef .tc main_arg7) = W2 m ρ c (Proc.devRef .tc main_arg7) from Cert.KernelIdeal.HostVal.keepArgs_hostOps1 _ main_arg7 (by decide)).trans ((show W2 m ρ c (Proc.devRef .tc main_arg7) = W1 m ρ c (Proc.devRef .tc main_arg7) from W2_of_ne m ρ c main_arg7 (by decide)).trans ((show W1 m ρ c (Proc.devRef .tc main_arg7) = W0 m ρ c (Proc.devRef .tc main_arg7) from Cert.KernelIdeal.HostVal.keepArgs_hostOps0 _ main_arg7 (by decide))))))) : W6 m ρ c (Proc.devRef .tc main_arg7) = W0 m ρ c (Proc.devRef .tc main_arg7)).trans rfl

set_option maxHeartbeats 4000000 in
theorem arg6_at6 (c : Dev nD) : W6 m ρ c (Proc.devRef .tc main_arg6) = m ((c.tc : Thread nD τ).loc main_arg6) :=
  ((show W6 m ρ c (Proc.devRef .tc main_arg6) = W5 m ρ c (Proc.devRef .tc main_arg6) from W6_of_ne m ρ c main_arg6 (by decide)).trans ((show W5 m ρ c (Proc.devRef .tc main_arg6) = W4 m ρ c (Proc.devRef .tc main_arg6) from Cert.KernelIdeal.HostVal.keepArgs_hostOps1_2 _ main_arg6 (by decide)).trans ((show W4 m ρ c (Proc.devRef .tc main_arg6) = W3 m ρ c (Proc.devRef .tc main_arg6) from Cert.KernelIdeal.HostVal.keepArgs_hostOps1_1 _ main_arg6 (by decide)).trans ((show W3 m ρ c (Proc.devRef .tc main_arg6) = W2 m ρ c (Proc.devRef .tc main_arg6) from Cert.KernelIdeal.HostVal.keepArgs_hostOps1 _ main_arg6 (by decide)).trans ((show W2 m ρ c (Proc.devRef .tc main_arg6) = W1 m ρ c (Proc.devRef .tc main_arg6) from W2_of_ne m ρ c main_arg6 (by decide)).trans ((show W1 m ρ c (Proc.devRef .tc main_arg6) = W0 m ρ c (Proc.devRef .tc main_arg6) from Cert.KernelIdeal.HostVal.keepArgs_hostOps0 _ main_arg6 (by decide))))))) : W6 m ρ c (Proc.devRef .tc main_arg6) = W0 m ρ c (Proc.devRef .tc main_arg6)).trans rfl

set_option maxHeartbeats 4000000 in
theorem arg8_at8 (c : Dev nD) : W8 m ρ c (Proc.devRef .tc main_arg8) = m ((c.tc : Thread nD τ).loc main_arg8) :=
  ((show W8 m ρ c (Proc.devRef .tc main_arg8) = W7 m ρ c (Proc.devRef .tc main_arg8) from W8_of_ne m ρ c main_arg8 (by decide)).trans ((show W7 m ρ c (Proc.devRef .tc main_arg8) = W6 m ρ c (Proc.devRef .tc main_arg8) from Cert.KernelIdeal.HostVal.keepArgs_hostOps2 _ main_arg8 (by decide)).trans ((show W6 m ρ c (Proc.devRef .tc main_arg8) = W5 m ρ c (Proc.devRef .tc main_arg8) from W6_of_ne m ρ c main_arg8 (by decide)).trans ((show W5 m ρ c (Proc.devRef .tc main_arg8) = W4 m ρ c (Proc.devRef .tc main_arg8) from Cert.KernelIdeal.HostVal.keepArgs_hostOps1_2 _ main_arg8 (by decide)).trans ((show W4 m ρ c (Proc.devRef .tc main_arg8) = W3 m ρ c (Proc.devRef .tc main_arg8) from Cert.KernelIdeal.HostVal.keepArgs_hostOps1_1 _ main_arg8 (by decide)).trans ((show W3 m ρ c (Proc.devRef .tc main_arg8) = W2 m ρ c (Proc.devRef .tc main_arg8) from Cert.KernelIdeal.HostVal.keepArgs_hostOps1 _ main_arg8 (by decide)).trans ((show W2 m ρ c (Proc.devRef .tc main_arg8) = W1 m ρ c (Proc.devRef .tc main_arg8) from W2_of_ne m ρ c main_arg8 (by decide)).trans ((show W1 m ρ c (Proc.devRef .tc main_arg8) = W0 m ρ c (Proc.devRef .tc main_arg8) from Cert.KernelIdeal.HostVal.keepArgs_hostOps0 _ main_arg8 (by decide))))))))) : W8 m ρ c (Proc.devRef .tc main_arg8) = W0 m ρ c (Proc.devRef .tc main_arg8)).trans rfl

set_option maxHeartbeats 4000000 in
theorem arg9_at8 (c : Dev nD) : W8 m ρ c (Proc.devRef .tc main_arg9) = m ((c.tc : Thread nD τ).loc main_arg9) :=
  ((show W8 m ρ c (Proc.devRef .tc main_arg9) = W7 m ρ c (Proc.devRef .tc main_arg9) from W8_of_ne m ρ c main_arg9 (by decide)).trans ((show W7 m ρ c (Proc.devRef .tc main_arg9) = W6 m ρ c (Proc.devRef .tc main_arg9) from Cert.KernelIdeal.HostVal.keepArgs_hostOps2 _ main_arg9 (by decide)).trans ((show W6 m ρ c (Proc.devRef .tc main_arg9) = W5 m ρ c (Proc.devRef .tc main_arg9) from W6_of_ne m ρ c main_arg9 (by decide)).trans ((show W5 m ρ c (Proc.devRef .tc main_arg9) = W4 m ρ c (Proc.devRef .tc main_arg9) from Cert.KernelIdeal.HostVal.keepArgs_hostOps1_2 _ main_arg9 (by decide)).trans ((show W4 m ρ c (Proc.devRef .tc main_arg9) = W3 m ρ c (Proc.devRef .tc main_arg9) from Cert.KernelIdeal.HostVal.keepArgs_hostOps1_1 _ main_arg9 (by decide)).trans ((show W3 m ρ c (Proc.devRef .tc main_arg9) = W2 m ρ c (Proc.devRef .tc main_arg9) from Cert.KernelIdeal.HostVal.keepArgs_hostOps1 _ main_arg9 (by decide)).trans ((show W2 m ρ c (Proc.devRef .tc main_arg9) = W1 m ρ c (Proc.devRef .tc main_arg9) from W2_of_ne m ρ c main_arg9 (by decide)).trans ((show W1 m ρ c (Proc.devRef .tc main_arg9) = W0 m ρ c (Proc.devRef .tc main_arg9) from Cert.KernelIdeal.HostVal.keepArgs_hostOps0 _ main_arg9 (by decide))))))))) : W8 m ρ c (Proc.devRef .tc main_arg9) = W0 m ρ c (Proc.devRef .tc main_arg9)).trans rfl

set_option maxHeartbeats 4000000 in
theorem arg1_at12 (c : Dev nD) : W12 m ρ c (Proc.devRef .tc main_arg1) = m ((c.tc : Thread nD τ).loc main_arg1) :=
  ((show W12 m ρ c (Proc.devRef .tc main_arg1) = W11 m ρ c (Proc.devRef .tc main_arg1) from W12_of_ne m ρ c main_arg1 (by decide)).trans ((show W11 m ρ c (Proc.devRef .tc main_arg1) = W10 m ρ c (Proc.devRef .tc main_arg1) from Cert.KernelIdeal.HostVal.keepArgs_hostOps3_2 _ main_arg1 (by decide)).trans ((show W10 m ρ c (Proc.devRef .tc main_arg1) = W9 m ρ c (Proc.devRef .tc main_arg1) from Cert.KernelIdeal.HostVal.keepArgs_hostOps3_1 _ main_arg1 (by decide)).trans ((show W9 m ρ c (Proc.devRef .tc main_arg1) = W8 m ρ c (Proc.devRef .tc main_arg1) from Cert.KernelIdeal.HostVal.keepArgs_hostOps3 _ main_arg1 (by decide)).trans ((show W8 m ρ c (Proc.devRef .tc main_arg1) = W7 m ρ c (Proc.devRef .tc main_arg1) from W8_of_ne m ρ c main_arg1 (by decide)).trans ((show W7 m ρ c (Proc.devRef .tc main_arg1) = W6 m ρ c (Proc.devRef .tc main_arg1) from Cert.KernelIdeal.HostVal.keepArgs_hostOps2 _ main_arg1 (by decide)).trans ((show W6 m ρ c (Proc.devRef .tc main_arg1) = W5 m ρ c (Proc.devRef .tc main_arg1) from W6_of_ne m ρ c main_arg1 (by decide)).trans ((show W5 m ρ c (Proc.devRef .tc main_arg1) = W4 m ρ c (Proc.devRef .tc main_arg1) from Cert.KernelIdeal.HostVal.keepArgs_hostOps1_2 _ main_arg1 (by decide)).trans ((show W4 m ρ c (Proc.devRef .tc main_arg1) = W3 m ρ c (Proc.devRef .tc main_arg1) from Cert.KernelIdeal.HostVal.keepArgs_hostOps1_1 _ main_arg1 (by decide)).trans ((show W3 m ρ c (Proc.devRef .tc main_arg1) = W2 m ρ c (Proc.devRef .tc main_arg1) from Cert.KernelIdeal.HostVal.keepArgs_hostOps1 _ main_arg1 (by decide)).trans ((show W2 m ρ c (Proc.devRef .tc main_arg1) = W1 m ρ c (Proc.devRef .tc main_arg1) from W2_of_ne m ρ c main_arg1 (by decide)).trans ((show W1 m ρ c (Proc.devRef .tc main_arg1) = W0 m ρ c (Proc.devRef .tc main_arg1) from Cert.KernelIdeal.HostVal.keepArgs_hostOps0 _ main_arg1 (by decide))))))))))))) : W12 m ρ c (Proc.devRef .tc main_arg1) = W0 m ρ c (Proc.devRef .tc main_arg1)).trans rfl

set_option maxHeartbeats 4000000 in
theorem arg10_at12 (c : Dev nD) : W12 m ρ c (Proc.devRef .tc main_arg10) = m ((c.tc : Thread nD τ).loc main_arg10) :=
  ((show W12 m ρ c (Proc.devRef .tc main_arg10) = W11 m ρ c (Proc.devRef .tc main_arg10) from W12_of_ne m ρ c main_arg10 (by decide)).trans ((show W11 m ρ c (Proc.devRef .tc main_arg10) = W10 m ρ c (Proc.devRef .tc main_arg10) from Cert.KernelIdeal.HostVal.keepArgs_hostOps3_2 _ main_arg10 (by decide)).trans ((show W10 m ρ c (Proc.devRef .tc main_arg10) = W9 m ρ c (Proc.devRef .tc main_arg10) from Cert.KernelIdeal.HostVal.keepArgs_hostOps3_1 _ main_arg10 (by decide)).trans ((show W9 m ρ c (Proc.devRef .tc main_arg10) = W8 m ρ c (Proc.devRef .tc main_arg10) from Cert.KernelIdeal.HostVal.keepArgs_hostOps3 _ main_arg10 (by decide)).trans ((show W8 m ρ c (Proc.devRef .tc main_arg10) = W7 m ρ c (Proc.devRef .tc main_arg10) from W8_of_ne m ρ c main_arg10 (by decide)).trans ((show W7 m ρ c (Proc.devRef .tc main_arg10) = W6 m ρ c (Proc.devRef .tc main_arg10) from Cert.KernelIdeal.HostVal.keepArgs_hostOps2 _ main_arg10 (by decide)).trans ((show W6 m ρ c (Proc.devRef .tc main_arg10) = W5 m ρ c (Proc.devRef .tc main_arg10) from W6_of_ne m ρ c main_arg10 (by decide)).trans ((show W5 m ρ c (Proc.devRef .tc main_arg10) = W4 m ρ c (Proc.devRef .tc main_arg10) from Cert.KernelIdeal.HostVal.keepArgs_hostOps1_2 _ main_arg10 (by decide)).trans ((show W4 m ρ c (Proc.devRef .tc main_arg10) = W3 m ρ c (Proc.devRef .tc main_arg10) from Cert.KernelIdeal.HostVal.keepArgs_hostOps1_1 _ main_arg10 (by decide)).trans ((show W3 m ρ c (Proc.devRef .tc main_arg10) = W2 m ρ c (Proc.devRef .tc main_arg10) from Cert.KernelIdeal.HostVal.keepArgs_hostOps1 _ main_arg10 (by decide)).trans ((show W2 m ρ c (Proc.devRef .tc main_arg10) = W1 m ρ c (Proc.devRef .tc main_arg10) from W2_of_ne m ρ c main_arg10 (by decide)).trans ((show W1 m ρ c (Proc.devRef .tc main_arg10) = W0 m ρ c (Proc.devRef .tc main_arg10) from Cert.KernelIdeal.HostVal.keepArgs_hostOps0 _ main_arg10 (by decide))))))))))))) : W12 m ρ c (Proc.devRef .tc main_arg10) = W0 m ρ c (Proc.devRef .tc main_arg10)).trans rfl

set_option maxHeartbeats 4000000 in
theorem arg12_at12 (c : Dev nD) : W12 m ρ c (Proc.devRef .tc main_arg12) = m ((c.tc : Thread nD τ).loc main_arg12) :=
  ((show W12 m ρ c (Proc.devRef .tc main_arg12) = W11 m ρ c (Proc.devRef .tc main_arg12) from W12_of_ne m ρ c main_arg12 (by decide)).trans ((show W11 m ρ c (Proc.devRef .tc main_arg12) = W10 m ρ c (Proc.devRef .tc main_arg12) from Cert.KernelIdeal.HostVal.keepArgs_hostOps3_2 _ main_arg12 (by decide)).trans ((show W10 m ρ c (Proc.devRef .tc main_arg12) = W9 m ρ c (Proc.devRef .tc main_arg12) from Cert.KernelIdeal.HostVal.keepArgs_hostOps3_1 _ main_arg12 (by decide)).trans ((show W9 m ρ c (Proc.devRef .tc main_arg12) = W8 m ρ c (Proc.devRef .tc main_arg12) from Cert.KernelIdeal.HostVal.keepArgs_hostOps3 _ main_arg12 (by decide)).trans ((show W8 m ρ c (Proc.devRef .tc main_arg12) = W7 m ρ c (Proc.devRef .tc main_arg12) from W8_of_ne m ρ c main_arg12 (by decide)).trans ((show W7 m ρ c (Proc.devRef .tc main_arg12) = W6 m ρ c (Proc.devRef .tc main_arg12) from Cert.KernelIdeal.HostVal.keepArgs_hostOps2 _ main_arg12 (by decide)).trans ((show W6 m ρ c (Proc.devRef .tc main_arg12) = W5 m ρ c (Proc.devRef .tc main_arg12) from W6_of_ne m ρ c main_arg12 (by decide)).trans ((show W5 m ρ c (Proc.devRef .tc main_arg12) = W4 m ρ c (Proc.devRef .tc main_arg12) from Cert.KernelIdeal.HostVal.keepArgs_hostOps1_2 _ main_arg12 (by decide)).trans ((show W4 m ρ c (Proc.devRef .tc main_arg12) = W3 m ρ c (Proc.devRef .tc main_arg12) from Cert.KernelIdeal.HostVal.keepArgs_hostOps1_1 _ main_arg12 (by decide)).trans ((show W3 m ρ c (Proc.devRef .tc main_arg12) = W2 m ρ c (Proc.devRef .tc main_arg12) from Cert.KernelIdeal.HostVal.keepArgs_hostOps1 _ main_arg12 (by decide)).trans ((show W2 m ρ c (Proc.devRef .tc main_arg12) = W1 m ρ c (Proc.devRef .tc main_arg12) from W2_of_ne m ρ c main_arg12 (by decide)).trans ((show W1 m ρ c (Proc.devRef .tc main_arg12) = W0 m ρ c (Proc.devRef .tc main_arg12) from Cert.KernelIdeal.HostVal.keepArgs_hostOps0 _ main_arg12 (by decide))))))))))))) : W12 m ρ c (Proc.devRef .tc main_arg12) = W0 m ρ c (Proc.devRef .tc main_arg12)).trans rfl

set_option maxHeartbeats 4000000 in
theorem arg11_at12 (c : Dev nD) : W12 m ρ c (Proc.devRef .tc main_arg11) = m ((c.tc : Thread nD τ).loc main_arg11) :=
  ((show W12 m ρ c (Proc.devRef .tc main_arg11) = W11 m ρ c (Proc.devRef .tc main_arg11) from W12_of_ne m ρ c main_arg11 (by decide)).trans ((show W11 m ρ c (Proc.devRef .tc main_arg11) = W10 m ρ c (Proc.devRef .tc main_arg11) from Cert.KernelIdeal.HostVal.keepArgs_hostOps3_2 _ main_arg11 (by decide)).trans ((show W10 m ρ c (Proc.devRef .tc main_arg11) = W9 m ρ c (Proc.devRef .tc main_arg11) from Cert.KernelIdeal.HostVal.keepArgs_hostOps3_1 _ main_arg11 (by decide)).trans ((show W9 m ρ c (Proc.devRef .tc main_arg11) = W8 m ρ c (Proc.devRef .tc main_arg11) from Cert.KernelIdeal.HostVal.keepArgs_hostOps3 _ main_arg11 (by decide)).trans ((show W8 m ρ c (Proc.devRef .tc main_arg11) = W7 m ρ c (Proc.devRef .tc main_arg11) from W8_of_ne m ρ c main_arg11 (by decide)).trans ((show W7 m ρ c (Proc.devRef .tc main_arg11) = W6 m ρ c (Proc.devRef .tc main_arg11) from Cert.KernelIdeal.HostVal.keepArgs_hostOps2 _ main_arg11 (by decide)).trans ((show W6 m ρ c (Proc.devRef .tc main_arg11) = W5 m ρ c (Proc.devRef .tc main_arg11) from W6_of_ne m ρ c main_arg11 (by decide)).trans ((show W5 m ρ c (Proc.devRef .tc main_arg11) = W4 m ρ c (Proc.devRef .tc main_arg11) from Cert.KernelIdeal.HostVal.keepArgs_hostOps1_2 _ main_arg11 (by decide)).trans ((show W4 m ρ c (Proc.devRef .tc main_arg11) = W3 m ρ c (Proc.devRef .tc main_arg11) from Cert.KernelIdeal.HostVal.keepArgs_hostOps1_1 _ main_arg11 (by decide)).trans ((show W3 m ρ c (Proc.devRef .tc main_arg11) = W2 m ρ c (Proc.devRef .tc main_arg11) from Cert.KernelIdeal.HostVal.keepArgs_hostOps1 _ main_arg11 (by decide)).trans ((show W2 m ρ c (Proc.devRef .tc main_arg11) = W1 m ρ c (Proc.devRef .tc main_arg11) from W2_of_ne m ρ c main_arg11 (by decide)).trans ((show W1 m ρ c (Proc.devRef .tc main_arg11) = W0 m ρ c (Proc.devRef .tc main_arg11) from Cert.KernelIdeal.HostVal.keepArgs_hostOps0 _ main_arg11 (by decide))))))))))))) : W12 m ρ c (Proc.devRef .tc main_arg11) = W0 m ρ c (Proc.devRef .tc main_arg11)).trans rfl

set_option maxHeartbeats 4000000 in
theorem arg13_at14 (c : Dev nD) : W14 m ρ c (Proc.devRef .tc main_arg13) = m ((c.tc : Thread nD τ).loc main_arg13) :=
  ((show W14 m ρ c (Proc.devRef .tc main_arg13) = W13 m ρ c (Proc.devRef .tc main_arg13) from W14_of_ne m ρ c main_arg13 (by decide)).trans ((show W13 m ρ c (Proc.devRef .tc main_arg13) = W12 m ρ c (Proc.devRef .tc main_arg13) from Cert.KernelIdeal.HostVal.keepArgs_hostOps4 _ main_arg13 (by decide)).trans ((show W12 m ρ c (Proc.devRef .tc main_arg13) = W11 m ρ c (Proc.devRef .tc main_arg13) from W12_of_ne m ρ c main_arg13 (by decide)).trans ((show W11 m ρ c (Proc.devRef .tc main_arg13) = W10 m ρ c (Proc.devRef .tc main_arg13) from Cert.KernelIdeal.HostVal.keepArgs_hostOps3_2 _ main_arg13 (by decide)).trans ((show W10 m ρ c (Proc.devRef .tc main_arg13) = W9 m ρ c (Proc.devRef .tc main_arg13) from Cert.KernelIdeal.HostVal.keepArgs_hostOps3_1 _ main_arg13 (by decide)).trans ((show W9 m ρ c (Proc.devRef .tc main_arg13) = W8 m ρ c (Proc.devRef .tc main_arg13) from Cert.KernelIdeal.HostVal.keepArgs_hostOps3 _ main_arg13 (by decide)).trans ((show W8 m ρ c (Proc.devRef .tc main_arg13) = W7 m ρ c (Proc.devRef .tc main_arg13) from W8_of_ne m ρ c main_arg13 (by decide)).trans ((show W7 m ρ c (Proc.devRef .tc main_arg13) = W6 m ρ c (Proc.devRef .tc main_arg13) from Cert.KernelIdeal.HostVal.keepArgs_hostOps2 _ main_arg13 (by decide)).trans ((show W6 m ρ c (Proc.devRef .tc main_arg13) = W5 m ρ c (Proc.devRef .tc main_arg13) from W6_of_ne m ρ c main_arg13 (by decide)).trans ((show W5 m ρ c (Proc.devRef .tc main_arg13) = W4 m ρ c (Proc.devRef .tc main_arg13) from Cert.KernelIdeal.HostVal.keepArgs_hostOps1_2 _ main_arg13 (by decide)).trans ((show W4 m ρ c (Proc.devRef .tc main_arg13) = W3 m ρ c (Proc.devRef .tc main_arg13) from Cert.KernelIdeal.HostVal.keepArgs_hostOps1_1 _ main_arg13 (by decide)).trans ((show W3 m ρ c (Proc.devRef .tc main_arg13) = W2 m ρ c (Proc.devRef .tc main_arg13) from Cert.KernelIdeal.HostVal.keepArgs_hostOps1 _ main_arg13 (by decide)).trans ((show W2 m ρ c (Proc.devRef .tc main_arg13) = W1 m ρ c (Proc.devRef .tc main_arg13) from W2_of_ne m ρ c main_arg13 (by decide)).trans ((show W1 m ρ c (Proc.devRef .tc main_arg13) = W0 m ρ c (Proc.devRef .tc main_arg13) from Cert.KernelIdeal.HostVal.keepArgs_hostOps0 _ main_arg13 (by decide))))))))))))))) : W14 m ρ c (Proc.devRef .tc main_arg13) = W0 m ρ c (Proc.devRef .tc main_arg13)).trans rfl

set_option maxHeartbeats 4000000 in
theorem arg14_at14 (c : Dev nD) : W14 m ρ c (Proc.devRef .tc main_arg14) = m ((c.tc : Thread nD τ).loc main_arg14) :=
  ((show W14 m ρ c (Proc.devRef .tc main_arg14) = W13 m ρ c (Proc.devRef .tc main_arg14) from W14_of_ne m ρ c main_arg14 (by decide)).trans ((show W13 m ρ c (Proc.devRef .tc main_arg14) = W12 m ρ c (Proc.devRef .tc main_arg14) from Cert.KernelIdeal.HostVal.keepArgs_hostOps4 _ main_arg14 (by decide)).trans ((show W12 m ρ c (Proc.devRef .tc main_arg14) = W11 m ρ c (Proc.devRef .tc main_arg14) from W12_of_ne m ρ c main_arg14 (by decide)).trans ((show W11 m ρ c (Proc.devRef .tc main_arg14) = W10 m ρ c (Proc.devRef .tc main_arg14) from Cert.KernelIdeal.HostVal.keepArgs_hostOps3_2 _ main_arg14 (by decide)).trans ((show W10 m ρ c (Proc.devRef .tc main_arg14) = W9 m ρ c (Proc.devRef .tc main_arg14) from Cert.KernelIdeal.HostVal.keepArgs_hostOps3_1 _ main_arg14 (by decide)).trans ((show W9 m ρ c (Proc.devRef .tc main_arg14) = W8 m ρ c (Proc.devRef .tc main_arg14) from Cert.KernelIdeal.HostVal.keepArgs_hostOps3 _ main_arg14 (by decide)).trans ((show W8 m ρ c (Proc.devRef .tc main_arg14) = W7 m ρ c (Proc.devRef .tc main_arg14) from W8_of_ne m ρ c main_arg14 (by decide)).trans ((show W7 m ρ c (Proc.devRef .tc main_arg14) = W6 m ρ c (Proc.devRef .tc main_arg14) from Cert.KernelIdeal.HostVal.keepArgs_hostOps2 _ main_arg14 (by decide)).trans ((show W6 m ρ c (Proc.devRef .tc main_arg14) = W5 m ρ c (Proc.devRef .tc main_arg14) from W6_of_ne m ρ c main_arg14 (by decide)).trans ((show W5 m ρ c (Proc.devRef .tc main_arg14) = W4 m ρ c (Proc.devRef .tc main_arg14) from Cert.KernelIdeal.HostVal.keepArgs_hostOps1_2 _ main_arg14 (by decide)).trans ((show W4 m ρ c (Proc.devRef .tc main_arg14) = W3 m ρ c (Proc.devRef .tc main_arg14) from Cert.KernelIdeal.HostVal.keepArgs_hostOps1_1 _ main_arg14 (by decide)).trans ((show W3 m ρ c (Proc.devRef .tc main_arg14) = W2 m ρ c (Proc.devRef .tc main_arg14) from Cert.KernelIdeal.HostVal.keepArgs_hostOps1 _ main_arg14 (by decide)).trans ((show W2 m ρ c (Proc.devRef .tc main_arg14) = W1 m ρ c (Proc.devRef .tc main_arg14) from W2_of_ne m ρ c main_arg14 (by decide)).trans ((show W1 m ρ c (Proc.devRef .tc main_arg14) = W0 m ρ c (Proc.devRef .tc main_arg14) from Cert.KernelIdeal.HostVal.keepArgs_hostOps0 _ main_arg14 (by decide))))))))))))))) : W14 m ρ c (Proc.devRef .tc main_arg14) = W0 m ρ c (Proc.devRef .tc main_arg14)).trans rfl

set_option maxHeartbeats 4000000 in
theorem arg16_at18 (c : Dev nD) : W18 m ρ c (Proc.devRef .tc main_arg16) = m ((c.tc : Thread nD τ).loc main_arg16) :=
  ((show W18 m ρ c (Proc.devRef .tc main_arg16) = W17 m ρ c (Proc.devRef .tc main_arg16) from W18_of_ne m ρ c main_arg16 (by decide)).trans ((show W17 m ρ c (Proc.devRef .tc main_arg16) = W16 m ρ c (Proc.devRef .tc main_arg16) from Cert.KernelIdeal.HostVal.keepArgs_hostOps5_2 _ main_arg16 (by decide)).trans ((show W16 m ρ c (Proc.devRef .tc main_arg16) = W15 m ρ c (Proc.devRef .tc main_arg16) from Cert.KernelIdeal.HostVal.keepArgs_hostOps5_1 _ main_arg16 (by decide)).trans ((show W15 m ρ c (Proc.devRef .tc main_arg16) = W14 m ρ c (Proc.devRef .tc main_arg16) from Cert.KernelIdeal.HostVal.keepArgs_hostOps5 _ main_arg16 (by decide)).trans ((show W14 m ρ c (Proc.devRef .tc main_arg16) = W13 m ρ c (Proc.devRef .tc main_arg16) from W14_of_ne m ρ c main_arg16 (by decide)).trans ((show W13 m ρ c (Proc.devRef .tc main_arg16) = W12 m ρ c (Proc.devRef .tc main_arg16) from Cert.KernelIdeal.HostVal.keepArgs_hostOps4 _ main_arg16 (by decide)).trans ((show W12 m ρ c (Proc.devRef .tc main_arg16) = W11 m ρ c (Proc.devRef .tc main_arg16) from W12_of_ne m ρ c main_arg16 (by decide)).trans ((show W11 m ρ c (Proc.devRef .tc main_arg16) = W10 m ρ c (Proc.devRef .tc main_arg16) from Cert.KernelIdeal.HostVal.keepArgs_hostOps3_2 _ main_arg16 (by decide)).trans ((show W10 m ρ c (Proc.devRef .tc main_arg16) = W9 m ρ c (Proc.devRef .tc main_arg16) from Cert.KernelIdeal.HostVal.keepArgs_hostOps3_1 _ main_arg16 (by decide)).trans ((show W9 m ρ c (Proc.devRef .tc main_arg16) = W8 m ρ c (Proc.devRef .tc main_arg16) from Cert.KernelIdeal.HostVal.keepArgs_hostOps3 _ main_arg16 (by decide)).trans ((show W8 m ρ c (Proc.devRef .tc main_arg16) = W7 m ρ c (Proc.devRef .tc main_arg16) from W8_of_ne m ρ c main_arg16 (by decide)).trans ((show W7 m ρ c (Proc.devRef .tc main_arg16) = W6 m ρ c (Proc.devRef .tc main_arg16) from Cert.KernelIdeal.HostVal.keepArgs_hostOps2 _ main_arg16 (by decide)).trans ((show W6 m ρ c (Proc.devRef .tc main_arg16) = W5 m ρ c (Proc.devRef .tc main_arg16) from W6_of_ne m ρ c main_arg16 (by decide)).trans ((show W5 m ρ c (Proc.devRef .tc main_arg16) = W4 m ρ c (Proc.devRef .tc main_arg16) from Cert.KernelIdeal.HostVal.keepArgs_hostOps1_2 _ main_arg16 (by decide)).trans ((show W4 m ρ c (Proc.devRef .tc main_arg16) = W3 m ρ c (Proc.devRef .tc main_arg16) from Cert.KernelIdeal.HostVal.keepArgs_hostOps1_1 _ main_arg16 (by decide)).trans ((show W3 m ρ c (Proc.devRef .tc main_arg16) = W2 m ρ c (Proc.devRef .tc main_arg16) from Cert.KernelIdeal.HostVal.keepArgs_hostOps1 _ main_arg16 (by decide)).trans ((show W2 m ρ c (Proc.devRef .tc main_arg16) = W1 m ρ c (Proc.devRef .tc main_arg16) from W2_of_ne m ρ c main_arg16 (by decide)).trans ((show W1 m ρ c (Proc.devRef .tc main_arg16) = W0 m ρ c (Proc.devRef .tc main_arg16) from Cert.KernelIdeal.HostVal.keepArgs_hostOps0 _ main_arg16 (by decide))))))))))))))))))) : W18 m ρ c (Proc.devRef .tc main_arg16) = W0 m ρ c (Proc.devRef .tc main_arg16)).trans rfl

set_option maxHeartbeats 4000000 in
theorem arg15_at18 (c : Dev nD) : W18 m ρ c (Proc.devRef .tc main_arg15) = m ((c.tc : Thread nD τ).loc main_arg15) :=
  ((show W18 m ρ c (Proc.devRef .tc main_arg15) = W17 m ρ c (Proc.devRef .tc main_arg15) from W18_of_ne m ρ c main_arg15 (by decide)).trans ((show W17 m ρ c (Proc.devRef .tc main_arg15) = W16 m ρ c (Proc.devRef .tc main_arg15) from Cert.KernelIdeal.HostVal.keepArgs_hostOps5_2 _ main_arg15 (by decide)).trans ((show W16 m ρ c (Proc.devRef .tc main_arg15) = W15 m ρ c (Proc.devRef .tc main_arg15) from Cert.KernelIdeal.HostVal.keepArgs_hostOps5_1 _ main_arg15 (by decide)).trans ((show W15 m ρ c (Proc.devRef .tc main_arg15) = W14 m ρ c (Proc.devRef .tc main_arg15) from Cert.KernelIdeal.HostVal.keepArgs_hostOps5 _ main_arg15 (by decide)).trans ((show W14 m ρ c (Proc.devRef .tc main_arg15) = W13 m ρ c (Proc.devRef .tc main_arg15) from W14_of_ne m ρ c main_arg15 (by decide)).trans ((show W13 m ρ c (Proc.devRef .tc main_arg15) = W12 m ρ c (Proc.devRef .tc main_arg15) from Cert.KernelIdeal.HostVal.keepArgs_hostOps4 _ main_arg15 (by decide)).trans ((show W12 m ρ c (Proc.devRef .tc main_arg15) = W11 m ρ c (Proc.devRef .tc main_arg15) from W12_of_ne m ρ c main_arg15 (by decide)).trans ((show W11 m ρ c (Proc.devRef .tc main_arg15) = W10 m ρ c (Proc.devRef .tc main_arg15) from Cert.KernelIdeal.HostVal.keepArgs_hostOps3_2 _ main_arg15 (by decide)).trans ((show W10 m ρ c (Proc.devRef .tc main_arg15) = W9 m ρ c (Proc.devRef .tc main_arg15) from Cert.KernelIdeal.HostVal.keepArgs_hostOps3_1 _ main_arg15 (by decide)).trans ((show W9 m ρ c (Proc.devRef .tc main_arg15) = W8 m ρ c (Proc.devRef .tc main_arg15) from Cert.KernelIdeal.HostVal.keepArgs_hostOps3 _ main_arg15 (by decide)).trans ((show W8 m ρ c (Proc.devRef .tc main_arg15) = W7 m ρ c (Proc.devRef .tc main_arg15) from W8_of_ne m ρ c main_arg15 (by decide)).trans ((show W7 m ρ c (Proc.devRef .tc main_arg15) = W6 m ρ c (Proc.devRef .tc main_arg15) from Cert.KernelIdeal.HostVal.keepArgs_hostOps2 _ main_arg15 (by decide)).trans ((show W6 m ρ c (Proc.devRef .tc main_arg15) = W5 m ρ c (Proc.devRef .tc main_arg15) from W6_of_ne m ρ c main_arg15 (by decide)).trans ((show W5 m ρ c (Proc.devRef .tc main_arg15) = W4 m ρ c (Proc.devRef .tc main_arg15) from Cert.KernelIdeal.HostVal.keepArgs_hostOps1_2 _ main_arg15 (by decide)).trans ((show W4 m ρ c (Proc.devRef .tc main_arg15) = W3 m ρ c (Proc.devRef .tc main_arg15) from Cert.KernelIdeal.HostVal.keepArgs_hostOps1_1 _ main_arg15 (by decide)).trans ((show W3 m ρ c (Proc.devRef .tc main_arg15) = W2 m ρ c (Proc.devRef .tc main_arg15) from Cert.KernelIdeal.HostVal.keepArgs_hostOps1 _ main_arg15 (by decide)).trans ((show W2 m ρ c (Proc.devRef .tc main_arg15) = W1 m ρ c (Proc.devRef .tc main_arg15) from W2_of_ne m ρ c main_arg15 (by decide)).trans ((show W1 m ρ c (Proc.devRef .tc main_arg15) = W0 m ρ c (Proc.devRef .tc main_arg15) from Cert.KernelIdeal.HostVal.keepArgs_hostOps0 _ main_arg15 (by decide))))))))))))))))))) : W18 m ρ c (Proc.devRef .tc main_arg15) = W0 m ρ c (Proc.devRef .tc main_arg15)).trans rfl

end Cert.KernelIdeal.GenP

end
-- ==== Proof.Spec.lean ====
/-
  The layers of the network as whole-array functions at the extended reals.

  A dense layer is `X · W` plus one bias row repeated along the rows. A normalisation layer takes a matrix `Z`, and four
  rows (mean, variance, scale, shift), and returns `max(scale · (Z − mean) · (variance + ε)^(-1/2) + shift, 0)`, each row
  repeated along the rows of `Z`; the variant with a skip connection adds a second matrix to the result.
-/
import Idealize.ShloMosaic.PureOps.Ideal.Laws
import Idealize.ShloMosaic.Lib.ValueIdx
import Idealize.ShloMosaic.Lib.Pipeline.Value

noncomputable section

namespace Cert.Spec

open Idealize.ShloMosaic

/-- A 1×N row repeated along M rows. -/
def spread {M N : Nat} (h : (⟨2, ![1, N]⟩ : Shape).BroadcastsInDim ⟨2, ![M, N]⟩ ![0, 1])
    (r : FVec Ideal ⟨2, ![1, N]⟩ .f32) : FVec Ideal ⟨2, ![M, N]⟩ .f32 :=
  broadcastInDim ⟨2, ![M, N]⟩ ![0, 1] h r

/-- A dense layer: the product with the weights plus the bias row on every row. -/
def affine {M K N : Nat} (d : DotDims ⟨2, ![M, K]⟩ ⟨2, ![K, N]⟩ ⟨2, ![M, N]⟩)
    (h : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨2, ![1, N]⟩ .f32) :
    FVec Ideal ⟨2, ![M, N]⟩ .f32 :=
  addf (Host.dotGeneral d none X W) (spread h b)

/-- The normalised, rescaled matrix before the rectifier: scale · (Z − mean) · (variance + ε)^(-1/2) + shift. -/
def normed {M N : Nat} (h : (⟨2, ![1, N]⟩ : Shape).BroadcastsInDim ⟨2, ![M, N]⟩ ![0, 1])
    (Z : FVec Ideal ⟨2, ![M, N]⟩ .f32) (mean var g be : FVec Ideal ⟨2, ![1, N]⟩ .f32) : FVec Ideal ⟨2, ![M, N]⟩ .f32 :=
  addf (mulf (mulf (spread h g) (subf Z (spread h mean)))
        (spread h (rsqrt (addf var (broadcast ⟨2, ![1, N]⟩ (Scalar.ofBits .f32 0x3727C5AC#32)))))) (spread h be)

/-- A normalisation layer followed by the rectifier. -/
def bnrelu {M N : Nat} (h : (⟨2, ![1, N]⟩ : Shape).BroadcastsInDim ⟨2, ![M, N]⟩ ![0, 1])
    (Z : FVec Ideal ⟨2, ![M, N]⟩ .f32) (mean var g be : FVec Ideal ⟨2, ![1, N]⟩ .f32) : FVec Ideal ⟨2, ![M, N]⟩ .f32 :=
  maximumf (normed h Z mean var g be) (broadcast ⟨2, ![M, N]⟩ (Scalar.ofBits .f32 0x00000000#32))

/-- The same with a skip connection: the matrix `R` added after the rectifier. -/
def bnreluSkip {M N : Nat} (h : (⟨2, ![1, N]⟩ : Shape).BroadcastsInDim ⟨2, ![M, N]⟩ ![0, 1])
    (Z : FVec Ideal ⟨2, ![M, N]⟩ .f32) (mean var g be : FVec Ideal ⟨2, ![1, N]⟩ .f32) (R : FVec Ideal ⟨2, ![M, N]⟩ .f32) :
    FVec Ideal ⟨2, ![M, N]⟩ .f32 :=
  addf (bnrelu h Z mean var g be) R

end Cert.Spec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«123233_j6760278524490_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«123233_j6760278524490_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«123233_j6760278524490_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.RegionCommon.lean ====
/-
  The arithmetic of each kernel body, one block of rows at a time.

  Every body of this network acts on each row by itself: a dense layer multiplies a block of rows by the whole
  weight matrix and adds one bias row to every row; a normalisation layer subtracts, scales and shifts each row
  by the same four rows and takes the maximum with zero; the variant with a skip connection adds the same block
  of rows of a second matrix. So what a body makes of a block of rows is the same block of rows of what the
  whole-array layer makes of the whole matrix. The lemmas below say this for the seven bodies, over arbitrary
  blocks, with the relation "is the block of rows starting at row off" as the only hypothesis on the matrices;
  the weight matrix and the rows enter as equal to the whole arrays.
-/
import proofs.«123233_j6760278524490_1_alg».proof.Proof.Spec
import proofs.«123233_j6760278524490_1_alg».proof.Proof.LibRowRead
import proofs.«123233_j6760278524490_1_alg».proof.Proof.Gen.KernelIdeal.Skeleton

noncomputable section

namespace Cert.Lib.DenseLayer

open Idealize.ShloMosaic Idealize.ShloMosaic.ValueIdx

/-- Entrywise differences of blocks of rows. -/
theorem RowBlk.sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

end Cert.Lib.DenseLayer

namespace Cert.KernelIdeal.RegionVal

open Idealize.ShloMosaic Idealize.ShloMosaic.ValueIdx Cert.Lib.DenseLayer Cert.KernelIdeal Cert.KernelIdeal.Gen

/-- The zero offset of a whole-block access, as a constant function. -/
theorem hz : (![0, 0] : Fin 2 → Nat) = fun _ => 0 := funext fun a => by fin_cases a <;> rfl

/-- The block records of the three dense layers are plain products. -/
theorem plain_128_128 : Plain (M := 1000) (K := 128) (N := 128) dot_S1000x128_S128x128_S1000x128_1_0_0_1_n_n :=
  Plain.of_fields _ rfl rfl rfl rfl rfl rfl
theorem plain_128_64 : Plain (M := 1000) (K := 128) (N := 64) dot_S1000x128_S128x64_S1000x64_1_0_0_1_n_n :=
  Plain.of_fields _ rfl rfl rfl rfl rfl rfl
theorem plain_64_1000 : Plain (M := 1000) (K := 64) (N := 1000) dot_S1000x64_S64x1000_S1000x1000_1_0_0_1_n_n :=
  Plain.of_fields _ rfl rfl rfl rfl rfl rfl

/-- Region 0's body on a block of rows of X: the same rows of X · W + b. -/
theorem pay0 {off : Nat} (dH : DotDims ⟨2, ![50000, 128]⟩ ⟨2, ![128, 128]⟩ ⟨2, ![50000, 128]⟩) (hH : Plain dH)
    (hS : (⟨2, ![1, 128]⟩ : Shape).BroadcastsInDim ⟨2, ![50000, 128]⟩ ![0, 1])
    (x0 : FVec Ideal ⟨2, ![1000, 128]⟩ .f32) (X : FVec Ideal ⟨2, ![50000, 128]⟩ .f32)
    (wb W : FVec Ideal ⟨2, ![128, 128]⟩ .f32) (bb b : FVec Ideal ⟨2, ![1, 128]⟩ .f32)
    (h0 : RowBlk off x0 X) (hw : wb = W) (hb : bb = b) :
    RowBlk off (k0_pay1 (F := Ideal) x0 wb bb) (Cert.Spec.affine dH hS X W b) := by
  subst hw hb
  unfold k0_pay1 Cert.Spec.affine Cert.Spec.spread
  simp only [shapeCast_self]
  exact (RowBlk.matmul plain_128_128 hH h0 wb _ _).add (RowBlk.bias bb _ hS)

/-- Region 1's body on a block of rows of Z: the same rows of max(g · (Z − mean) · (var + ε)^(-1/2) + be, 0). -/
theorem pay1 {off : Nat} (hS : (⟨2, ![1, 128]⟩ : Shape).BroadcastsInDim ⟨2, ![50000, 128]⟩ ![0, 1])
    (x0 : FVec Ideal ⟨2, ![1000, 128]⟩ .f32) (Z : FVec Ideal ⟨2, ![50000, 128]⟩ .f32)
    (gb g mb mean vb var bb be : FVec Ideal ⟨2, ![1, 128]⟩ .f32)
    (h0 : RowBlk off x0 Z) (hg : gb = g) (hm : mb = mean) (hv : vb = var) (hb : bb = be) :
    RowBlk off (k1_pay1 (F := Ideal) x0 gb mb vb bb) (Cert.Spec.bnrelu hS Z mean var g be) := by
  subst hg hm hv hb
  unfold k1_pay1 Cert.Spec.bnrelu Cert.Spec.normed Cert.Spec.spread
  simp only [shapeCast_self]
  exact ((((RowBlk.bias gb _ hS).mul (h0.sub (RowBlk.bias mb _ hS))).mul (RowBlk.bias _ _ hS)).add (RowBlk.bias bb _ hS)).max
    (RowBlk.const (Scalar.ofBits (F := Ideal) .f32 0x00000000#32) (fun _ => rfl) (fun _ => rfl))

/-- Region 2's body on a block of rows of X: the same rows of X · W + b. -/
theorem pay2 {off : Nat} (dH : DotDims ⟨2, ![50000, 128]⟩ ⟨2, ![128, 128]⟩ ⟨2, ![50000, 128]⟩) (hH : Plain dH)
    (hS : (⟨2, ![1, 128]⟩ : Shape).BroadcastsInDim ⟨2, ![50000, 128]⟩ ![0, 1])
    (x0 : FVec Ideal ⟨2, ![1000, 128]⟩ .f32) (X : FVec Ideal ⟨2, ![50000, 128]⟩ .f32)
    (wb W : FVec Ideal ⟨2, ![128, 128]⟩ .f32) (bb b : FVec Ideal ⟨2, ![1, 128]⟩ .f32)
    (h0 : RowBlk off x0 X) (hw : wb = W) (hb : bb = b) :
    RowBlk off (k2_pay1 (F := Ideal) x0 wb bb) (Cert.Spec.affine dH hS X W b) := by
  subst hw hb
  unfold k2_pay1 Cert.Spec.affine Cert.Spec.spread
  simp only [shapeCast_self]
  exact (RowBlk.matmul plain_128_128 hH h0 wb _ _).add (RowBlk.bias bb _ hS)

/-- Region 3's body on a block of rows of Z: the same rows of max(g · (Z − mean) · (var + ε)^(-1/2) + be, 0) + R. -/
theorem pay3 {off : Nat} (hS : (⟨2, ![1, 128]⟩ : Shape).BroadcastsInDim ⟨2, ![50000, 128]⟩ ![0, 1])
    (x0 : FVec Ideal ⟨2, ![1000, 128]⟩ .f32) (Z : FVec Ideal ⟨2, ![50000, 128]⟩ .f32)
    (gb g mb mean vb var bb be : FVec Ideal ⟨2, ![1, 128]⟩ .f32)
    (x5 : FVec Ideal ⟨2, ![1000, 128]⟩ .f32) (R : FVec Ideal ⟨2, ![50000, 128]⟩ .f32)
    (h0 : RowBlk off x0 Z) (hg : gb = g) (hm : mb = mean) (hv : vb = var) (hb : bb = be) (h5 : RowBlk off x5 R) :
    RowBlk off (k3_pay1 (F := Ideal) x0 gb mb vb bb x5) (Cert.Spec.bnreluSkip hS Z mean var g be R) := by
  subst hg hm hv hb
  unfold k3_pay1 Cert.Spec.bnreluSkip Cert.Spec.bnrelu Cert.Spec.normed Cert.Spec.spread
  simp only [shapeCast_self]
  exact (((((RowBlk.bias gb _ hS).mul (h0.sub (RowBlk.bias mb _ hS))).mul (RowBlk.bias _ _ hS)).add (RowBlk.bias bb _ hS)).max
    (RowBlk.const (Scalar.ofBits (F := Ideal) .f32 0x00000000#32) (fun _ => rfl) (fun _ => rfl))).add h5

/-- Region 4's body on a block of rows of X: the same rows of X · W + b. -/
theorem pay4 {off : Nat} (dH : DotDims ⟨2, ![50000, 128]⟩ ⟨2, ![128, 64]⟩ ⟨2, ![50000, 64]⟩) (hH : Plain dH)
    (hS : (⟨2, ![1, 64]⟩ : Shape).BroadcastsInDim ⟨2, ![50000, 64]⟩ ![0, 1])
    (x0 : FVec Ideal ⟨2, ![1000, 128]⟩ .f32) (X : FVec Ideal ⟨2, ![50000, 128]⟩ .f32)
    (wb W : FVec Ideal ⟨2, ![128, 64]⟩ .f32) (bb b : FVec Ideal ⟨2, ![1, 64]⟩ .f32)
    (h0 : RowBlk off x0 X) (hw : wb = W) (hb : bb = b) :
    RowBlk off (k4_pay1 (F := Ideal) x0 wb bb) (Cert.Spec.affine dH hS X W b) := by
  subst hw hb
  unfold k4_pay1 Cert.Spec.affine Cert.Spec.spread
  simp only [shapeCast_self]
  exact (RowBlk.matmul plain_128_64 hH h0 wb _ _).add (RowBlk.bias bb _ hS)

/-- Region 5's body on a block of rows of Z: the same rows of max(g · (Z − mean) · (var + ε)^(-1/2) + be, 0). -/
theorem pay5 {off : Nat} (hS : (⟨2, ![1, 64]⟩ : Shape).BroadcastsInDim ⟨2, ![50000, 64]⟩ ![0, 1])
    (x0 : FVec Ideal ⟨2, ![1000, 64]⟩ .f32) (Z : FVec Ideal ⟨2, ![50000, 64]⟩ .f32)
    (gb g mb mean vb var bb be : FVec Ideal ⟨2, ![1, 64]⟩ .f32)
    (h0 : RowBlk off x0 Z) (hg : gb = g) (hm : mb = mean) (hv : vb = var) (hb : bb = be) :
    RowBlk off (k5_pay1 (F := Ideal) x0 gb mb vb bb) (Cert.Spec.bnrelu hS Z mean var g be) := by
  subst hg hm hv hb
  unfold k5_pay1 Cert.Spec.bnrelu Cert.Spec.normed Cert.Spec.spread
  simp only [shapeCast_self]
  exact ((((RowBlk.bias gb _ hS).mul (h0.sub (RowBlk.bias mb _ hS))).mul (RowBlk.bias _ _ hS)).add (RowBlk.bias bb _ hS)).max
    (RowBlk.const (Scalar.ofBits (F := Ideal) .f32 0x00000000#32) (fun _ => rfl) (fun _ => rfl))

/-- Region 6's body on a block of rows of X: the same rows of X · W + b. -/
theorem pay6 {off : Nat} (dH : DotDims ⟨2, ![50000, 64]⟩ ⟨2, ![64, 1000]⟩ ⟨2, ![50000, 1000]⟩) (hH : Plain dH)
    (hS : (⟨2, ![1, 1000]⟩ : Shape).BroadcastsInDim ⟨2, ![50000, 1000]⟩ ![0, 1])
    (x0 : FVec Ideal ⟨2, ![1000, 64]⟩ .f32) (X : FVec Ideal ⟨2, ![50000, 64]⟩ .f32)
    (wb W : FVec Ideal ⟨2, ![64, 1000]⟩ .f32) (bb b : FVec Ideal ⟨2, ![1, 1000]⟩ .f32)
    (h0 : RowBlk off x0 X) (hw : wb = W) (hb : bb = b) :
    RowBlk off (k6_pay1 (F := Ideal) x0 wb bb) (Cert.Spec.affine dH hS X W b) := by
  subst hw hb
  unfold k6_pay1 Cert.Spec.affine Cert.Spec.spread
  simp only [shapeCast_self]
  exact (RowBlk.matmul plain_64_1000 hH h0 wb _ _).add (RowBlk.bias bb _ hS)

end Cert.KernelIdeal.RegionVal

end
-- ==== Proof.Region0.lean ====
/-
  Region 0: a dense layer. The grid has 50 points; point t reads rows 1000·t … 1000·t + 999 of the input matrix, the
  whole weight matrix and the whole bias row, and writes the same rows of the output. Each block written back is the
  block of rows of X · W + b, and the 50 blocks tile the output's 50000 rows, so the output array after the region is
  X · W + b of the arrays as the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the input matrix and the output move with the point along the rows; the
    weight matrix and the bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input matrix's block at point t is its block of rows starting at row 1000·t. -/
theorem blk0_0 (V : (c : Dev nD) → (b : Ref sig .tc) → Buf (Elt Ideal) ((c : Thread nD τ).loc b)) (c : Dev nD) (t : Fin cfg0.N) :
    @RowBlk 1000 50000 128 (1000 * t.val) (GenP.iblk0 (F := Ideal) V c 0 t) (V c (Pipeline.arrRef spec0 0)) := by
  obtain ⟨e0, e1, -⟩ := idx0 t
  refine RowBlk.of_read (fun y => ((cfg0.win 0).blk t).view.emb y) (fun y => ?_) (fun y => ?_) (fun y => rfl)
  · show win0_0.index t (0 : Fin 2) * 1000 + 1 * (y 0).val = 1000 * t.val + (y 0).val
    omega
  · show win0_0.index t (1 : Fin 2) * 128 + 1 * (y 1).val = (y 1).val
    omega

/-- The weight matrix's block at every point is the whole matrix. -/
theorem blk0_1 (V : (c : Dev nD) → (b : Ref sig .tc) → Buf (Elt Ideal) ((c : Thread nD τ).loc b)) (c : Dev nD) (t : Fin cfg0.N) :
    (GenP.iblk0 (F := Ideal) V c 1 t : (⟨2, ![128, 128]⟩ : Shape).Idx → EReal) = (V c (Pipeline.arrRef spec0 1)) := by
  obtain ⟨-, -, e2, e3, -⟩ := idx0 t
  funext y
  show (V c (Pipeline.arrRef spec0 1)) (((cfg0.win 1).blk t).view.emb y) = (V c (Pipeline.arrRef spec0 1)) y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]

/-- The bias row's block at every point is the whole row. -/
theorem blk0_2 (V : (c : Dev nD) → (b : Ref sig .tc) → Buf (Elt Ideal) ((c : Thread nD τ).loc b)) (c : Dev nD) (t : Fin cfg0.N) :
    (GenP.iblk0 (F := Ideal) V c 2 t : (⟨2, ![1, 128]⟩ : Shape).Idx → EReal) = (V c (Pipeline.arrRef spec0 2)) := by
  obtain ⟨-, -, -, -, e4, e5, -⟩ := idx0 t
  funext y
  show (V c (Pipeline.arrRef spec0 2)) (((cfg0.win 2).blk t).view.emb y) = (V c (Pipeline.arrRef spec0 2)) y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [h]

/-- What point t writes back is block t of X · W + b. -/
theorem flushed0 (V : (c : Dev nD) → (b : Ref sig .tc) → Buf (Elt Ideal) ((c : Thread nD τ).loc b)) (c : Dev nD)
    (dH : DotDims ⟨2, ![50000, 128]⟩ ⟨2, ![128, 128]⟩ ⟨2, ![50000, 128]⟩) (hH : Cert.Lib.DenseLayer.Plain dH)
    (hS : (⟨2, ![1, 128]⟩ : Shape).BroadcastsInDim ⟨2, ![50000, 128]⟩ ![0, 1]) (t : Fin cfg0.N) :
    (GenP.dat0 (F := Ideal) V c).flushed 3 t
      = ((cfg0.win 3).blk t).view.read (Elt Ideal) (Cert.Spec.affine dH hS (V c (Pipeline.arrRef spec0 0)) (V c (Pipeline.arrRef spec0 1)) (V c (Pipeline.arrRef spec0 2))) := by
  show (cfg0.win 3).cut (grid0.coords t) ((GenP.dat0 V c).after 3 t) = _
  rw [GenP.after0_3]
  unfold GenP.out0_3
  rw [View.canon_unit_zero hz]
  simp only [View.ld_unit_zero (S := S1000x128) hz, View.ld_unit_zero (S := S128x128) hz, View.ld_unit_zero (S := S1x128) hz]
  obtain ⟨-, -, -, -, -, -, e6, e7⟩ := idx0 t
  funext j
  exact (pay0 dH hH hS (GenP.iblk0 V c 0 t) (V c (Pipeline.arrRef spec0 0)) (GenP.iblk0 V c 1 t) (V c (Pipeline.arrRef spec0 1))
      (GenP.iblk0 V c 2 t) (V c (Pipeline.arrRef spec0 2)) (blk0_0 V c t) (blk0_1 V c t) (blk0_2 V c t)).read j (((cfg0.win 3).blk t).view.emb j)
    (by show win0_3.index t (0 : Fin 2) * 1000 + 1 * (j 0).val = 1000 * t.val + (j 0).val; omega)
    (by show win0_3.index t (1 : Fin 2) * 128 + 1 * (j 1).val = (j 1).val; omega)

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v1).slice (win0_3.rect t)).set ↔ _
  rw [View.set_slice_whole, Rect.mem_set_unit]
  exact Iff.rfl

/-- Every index of the output array is in some point's block: the one of its row divided by 1000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 50 := N_0
  refine ⟨⟨(i 0).val / 1000, by rw [hN]; omega⟩, flush0_3 _, ?_⟩
  obtain ⟨-, -, -, -, -, -, e6, e7⟩ := idx0 ⟨(i 0).val / 1000, by rw [hN]; omega⟩
  rw [mem_blk0]
  intro a
  match a with
  | ⟨0, _⟩ =>
    show win0_3.index _ (0 : Fin 2) * 1000 ≤ (i 0).val ∧ (i 0).val < win0_3.index _ (0 : Fin 2) * 1000 + 1000
    rw [e6]; show (i 0).val / 1000 * 1000 ≤ (i 0).val ∧ (i 0).val < (i 0).val / 1000 * 1000 + 1000
    omega
  | ⟨1, _⟩ =>
    show win0_3.index _ (1 : Fin 2) * 128 ≤ (i 1).val ∧ (i 1).val < win0_3.index _ (1 : Fin 2) * 128 + 128
    rw [e7]; omega

/-- THE OUTPUT ARRAY after region 0: X · W + b of the arrays as the region finds them. -/
theorem val0 (V : (c : Dev nD) → (b : Ref sig .tc) → Buf (Elt Ideal) ((c : Thread nD τ).loc b)) (c : Dev nD)
    (dH : DotDims ⟨2, ![50000, 128]⟩ ⟨2, ![128, 128]⟩ ⟨2, ![50000, 128]⟩) (hH : Cert.Lib.DenseLayer.Plain dH)
    (hS : (⟨2, ![1, 128]⟩ : Shape).BroadcastsInDim ⟨2, ![50000, 128]⟩ ![0, 1]) :
    (GenP.dat0 (F := Ideal) V c).arrAt 3 cfg0.N
      = Cert.Spec.affine dH hS (V c (Pipeline.arrRef spec0 0)) (V c (Pipeline.arrRef spec0 1)) (V c (Pipeline.arrRef spec0 2)) :=
  (GenP.dat0 (F := Ideal) V c).arrAt_eq_of_cover 3 _ (fun t _ => flushed0 V c dH hH hS t) (fun i => cover0 i)

end Cert.KernelIdeal.RegionVal

end
-- ==== Proof.Region1.lean ====
/-
  Region 1: a normalisation layer followed by the rectifier. The grid has 50 points; point t reads rows
  1000·t … 1000·t + 999 of the input matrix, the four whole rows (mean, variance, scale, shift), and writes the same
  rows of the output. Each block written back is the block of rows of max(g · (Z − mean) · (var + ε)^(-1/2) + be, 0),
  and the 50 blocks tile the output's 50000 rows, so the output array after the region is that function of the arrays as
  the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the matrices move with the point along the rows, the four rows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is its matrix's block of rows starting at row 1000·t. -/
theorem blk1_0 (V : (c : Dev nD) → (b : Ref sig .tc) → Buf (Elt Ideal) ((c : Thread nD τ).loc b)) (c : Dev nD) (t : Fin cfg1.N) :
    @RowBlk 1000 50000 128 (1000 * t.val) (GenP.iblk1 (F := Ideal) V c 0 t) (V c (Pipeline.arrRef spec1 0)) := by
  obtain ⟨e0a, e0b, e1a, e1b, e2a, e2b, e3a, e3b, e4a, e4b, e5a, e5b⟩ := idx1 t
  refine RowBlk.of_read (fun y => ((cfg1.win 0).blk t).view.emb y) (fun y => ?_) (fun y => ?_) (fun y => rfl)
  · show win1_0.index t (0 : Fin 2) * 1000 + 1 * (y 0).val = 1000 * t.val + (y 0).val
    omega
  · show win1_0.index t (1 : Fin 2) * 128 + 1 * (y 1).val = (y 1).val
    omega

/-- Window 1's block at every point is the whole row. -/
theorem blk1_1 (V : (c : Dev nD) → (b : Ref sig .tc) → Buf (Elt Ideal) ((c : Thread nD τ).loc b)) (c : Dev nD) (t : Fin cfg1.N) :
    (GenP.iblk1 (F := Ideal) V c 1 t : (⟨2, ![1, 128]⟩ : Shape).Idx → EReal) = (V c (Pipeline.arrRef spec1 1)) := by
  obtain ⟨e0a, e0b, e1a, e1b, e2a, e2b, e3a, e3b, e4a, e4b, e5a, e5b⟩ := idx1 t
  funext y
  show (V c (Pipeline.arrRef spec1 1)) (((cfg1.win 1).blk t).view.emb y) = (V c (Pipeline.arrRef spec1 1)) y
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  rw [h]

/-- Window 2's block at every point is the whole row. -/
theorem blk1_2 (V : (c : Dev nD) → (b : Ref sig .tc) → Buf (Elt Ideal) ((c : Thread nD τ).loc b)) (c : Dev nD) (t : Fin cfg1.N) :
    (GenP.iblk1 (F := Ideal) V c 2 t : (⟨2, ![1, 128]⟩ : Shape).Idx → EReal) = (V c (Pipeline.arrRef spec1 2)) := by
  obtain ⟨e0a, e0b, e1a, e1b, e2a, e2b, e3a, e3b, e4a, e4b, e5a, e5b⟩ := idx1 t
  funext y
  show (V c (Pipeline.arrRef spec1 2)) (((cfg1.win 2).blk t).view.emb y) = (V c (Pipeline.arrRef spec1 2)) y
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [h]

/-- Window 3's block at every point is the whole row. -/
theorem blk1_3 (V : (c : Dev nD) → (b : Ref sig .tc) → Buf (Elt Ideal) ((c : Thread nD τ).loc b)) (c : Dev nD) (t : Fin cfg1.N) :
    (GenP.iblk1 (F := Ideal) V c 3 t : (⟨2, ![1, 128]⟩ : Shape).Idx → EReal) = (V c (Pipeline.arrRef spec1 3)) := by
  obtain ⟨e0a, e0b, e1a, e1b, e2a, e2b, e3a, e3b, e4a, e4b, e5a, e5b⟩ := idx1 t
  funext y
  show (V c (Pipeline.arrRef spec1 3)) (((cfg1.win 3).blk t).view.emb y) = (V c (Pipeline.arrRef spec1 3)) y
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  rw [h]

/-- Window 4's block at every point is the whole row. -/
theorem blk1_4 (V : (c : Dev nD) → (b : Ref sig .tc) → Buf (Elt Ideal) ((c : Thread nD τ).loc b)) (c : Dev nD) (t : Fin cfg1.N) :
    (GenP.iblk1 (F := Ideal) V c 4 t : (⟨2, ![1, 128]⟩ : Shape).Idx → EReal) = (V c (Pipeline.arrRef spec1 4)) := by
  obtain ⟨e0a, e0b, e1a, e1b, e2a, e2b, e3a, e3b, e4a, e4b, e5a, e5b⟩ := idx1 t
  funext y
  show (V c (Pipeline.arrRef spec1 4)) (((cfg1.win 4).blk t).view.emb y) = (V c (Pipeline.arrRef spec1 4)) y
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [h]

/-- What point t writes back is block t of the layer's whole-array function. -/
theorem flushed1 (V : (c : Dev nD) → (b : Ref sig .tc) → Buf (Elt Ideal) ((c : Thread nD τ).loc b)) (c : Dev nD)
    (hS : (⟨2, ![1, 128]⟩ : Shape).BroadcastsInDim ⟨2, ![50000, 128]⟩ ![0, 1]) (t : Fin cfg1.N) :
    (GenP.dat1 (F := Ideal) V c).flushed 5 t
      = ((cfg1.win 5).blk t).view.read (Elt Ideal) (Cert.Spec.bnrelu hS (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((GenP.dat1 V c).after 5 t) = _
  rw [GenP.after1_5]
  unfold GenP.out1_5
  rw [View.canon_unit_zero hz]
  simp only [View.ld_unit_zero (S := S1000x128) hz, View.ld_unit_zero (S := S1x128) hz]
  obtain ⟨e0a, e0b, e1a, e1b, e2a, e2b, e3a, e3b, e4a, e4b, e5a, e5b⟩ := idx1 t
  funext j
  exact (pay1 hS (GenP.iblk1 V c 0 t) (V c (Pipeline.arrRef spec1 0)) (GenP.iblk1 V c 3 t) (V c (Pipeline.arrRef spec1 3)) (GenP.iblk1 V c 1 t) (V c (Pipeline.arrRef spec1 1))
      (GenP.iblk1 V c 2 t) (V c (Pipeline.arrRef spec1 2)) (GenP.iblk1 V c 4 t) (V c (Pipeline.arrRef spec1 4))
      (blk1_0 V c t) (blk1_3 V c t) (blk1_1 V c t) (blk1_2 V c t) (blk1_4 V c t)).read j (((cfg1.win 5).blk t).view.emb j)
    (by show win1_5.index t (0 : Fin 2) * 1000 + 1 * (j 0).val = 1000 * t.val + (j 0).val; omega)
    (by show win1_5.index t (1 : Fin 2) * 128 + 1 * (j 1).val = (j 1).val; omega)

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v10).slice (win1_5.rect t)).set ↔ _
  rw [View.set_slice_whole, Rect.mem_set_unit]
  exact Iff.rfl

/-- Every index of the output array is in some point's block: the one of its row divided by 1000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 50 := N_1
  refine ⟨⟨(i 0).val / 1000, by rw [hN]; omega⟩, flush1_5 _, ?_⟩
  obtain ⟨e0a, e0b, e1a, e1b, e2a, e2b, e3a, e3b, e4a, e4b, e5a, e5b⟩ := idx1 ⟨(i 0).val / 1000, by rw [hN]; omega⟩
  rw [mem_blk1]
  intro a
  match a with
  | ⟨0, _⟩ =>
    show win1_5.index _ (0 : Fin 2) * 1000 ≤ (i 0).val ∧ (i 0).val < win1_5.index _ (0 : Fin 2) * 1000 + 1000
    rw [e5a]; show (i 0).val / 1000 * 1000 ≤ (i 0).val ∧ (i 0).val < (i 0).val / 1000 * 1000 + 1000
    omega
  | ⟨1, _⟩ =>
    show win1_5.index _ (1 : Fin 2) * 128 ≤ (i 1).val ∧ (i 1).val < win1_5.index _ (1 : Fin 2) * 128 + 128
    rw [e5b]; omega

/-- THE OUTPUT ARRAY after region 1: max(g · (Z − mean) · (var + ε)^(-1/2) + be, 0) of the arrays as the region finds them
    (window 0 the matrix Z, 1 the mean row, 2 the variance row, 3 the scale row g, 4 the shift row be). -/
theorem val1 (V : (c : Dev nD) → (b : Ref sig .tc) → Buf (Elt Ideal) ((c : Thread nD τ).loc b)) (c : Dev nD)
    (hS : (⟨2, ![1, 128]⟩ : Shape).BroadcastsInDim ⟨2, ![50000, 128]⟩ ![0, 1]) :
    (GenP.dat1 (F := Ideal) V c).arrAt 5 cfg1.N
      = Cert.Spec.bnrelu hS (V c (Pipeline.arrRef spec1 0)) (V c (Pipeline.arrRef spec1 1)) (V c (Pipeline.arrRef spec1 2)) (V c (Pipeline.arrRef spec1 3)) (V c (Pipeline.arrRef spec1 4)) :=
  (GenP.dat1 (F := Ideal) V c).arrAt_eq_of_cover 5 _ (fun t _ => flushed1 V c hS t) (fun i => cover1 i)

end Cert.KernelIdeal.RegionVal

end
-- ==== Proof.Region2.lean ====
/-
  Region 2: a dense layer. The grid has 50 points; point t reads rows 1000·t … 1000·t + 999 of the input matrix, the
  whole weight matrix and the whole bias row, and writes the same rows of the output. Each block written back is the
  block of rows of X · W + b, and the 50 blocks tile the output's 50000 rows, so the output array after the region is
  X · W + b of the arrays as the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the input matrix and the output move with the point along the rows; the
    weight matrix and the bias row stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input matrix's block at point t is its block of rows starting at row 1000·t. -/
theorem blk2_0 (V : (c : Dev nD) → (b : Ref sig .tc) → Buf (Elt Ideal) ((c : Thread nD τ).loc b)) (c : Dev nD) (t : Fin cfg2.N) :
    @RowBlk 1000 50000 128 (1000 * t.val) (GenP.iblk2 (F := Ideal) V c 0 t) (V c (Pipeline.arrRef spec2 0)) := by
  obtain ⟨e0, e1, -⟩ := idx2 t
  refine RowBlk.of_read (fun y => ((cfg2.win 0).blk t).view.emb y) (fun y => ?_) (fun y => ?_) (fun y => rfl)
  · show win2_0.index t (0 : Fin 2) * 1000 + 1 * (y 0).val = 1000 * t.val + (y 0).val
    omega
  · show win2_0.index t (1 : Fin 2) * 128 + 1 * (y 1).val = (y 1).val
    omega

/-- The weight matrix's block at every point is the whole matrix. -/
theorem blk2_1 (V : (c : Dev nD) → (b : Ref sig .tc) → Buf (Elt Ideal) ((c : Thread nD τ).loc b)) (c : Dev nD) (t : Fin cfg2.N) :
    (GenP.iblk2 (F := Ideal) V c 1 t : (⟨2, ![128, 128]⟩ : Shape).Idx → EReal) = (V c (Pipeline.arrRef spec2 1)) := by
  obtain ⟨-, -, e2, e3, -⟩ := idx2 t
  funext y
  show (V c (Pipeline.arrRef spec2 1)) (((cfg2.win 1).blk t).view.emb y) = (V c (Pipeline.arrRef spec2 1)) y
  have h : ((cfg2.win 1).blk t).view.emb y = y := by
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  rw [h]

/-- The bias row's block at every point is the whole row. -/
theorem blk2_2 (V : (c : Dev nD) → (b : Ref sig .tc) → Buf (Elt Ideal) ((c : Thread nD τ).loc b)) (c : Dev nD) (t : Fin cfg2.N) :
    (GenP.iblk2 (F := Ideal) V c 2 t : (⟨2, ![1, 128]⟩ : Shape).Idx → EReal) = (V c (Pipeline.arrRef spec2 2)) := by
  obtain ⟨-, -, -, -, e4, e5, -⟩ := idx2 t
  funext y
  show (V c (Pipeline.arrRef spec2 2)) (((cfg2.win 2).blk t).view.emb y) = (V c (Pipeline.arrRef spec2 2)) y
  have h : ((cfg2.win 2).blk t).view.emb y = y := by
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  rw [h]

/-- What point t writes back is block t of X · W + b. -/
theorem flushed2 (V : (c : Dev nD) → (b : Ref sig .tc) → Buf (Elt Ideal) ((c : Thread nD τ).loc b)) (c : Dev nD)
    (dH : DotDims ⟨2, ![50000, 128]⟩ ⟨2, ![128, 128]⟩ ⟨2, ![50000, 128]⟩) (hH : Cert.Lib.DenseLayer.Plain dH)
    (hS : (⟨2, ![1, 128]⟩ : Shape).BroadcastsInDim ⟨2, ![50000, 128]⟩ ![0, 1]) (t : Fin cfg2.N) :
    (GenP.dat2 (F := Ideal) V c).flushed 3 t
      = ((cfg2.win 3).blk t).view.read (Elt Ideal) (Cert.Spec.affine dH hS (V c (Pipeline.arrRef spec2 0)) (V c (Pipeline.arrRef spec2 1)) (V c (Pipeline.arrRef spec2 2))) := by
  show (cfg2.win 3).cut (grid2.coords t) ((GenP.dat2 V c).after 3 t) = _
  rw [GenP.after2_3]
  unfold GenP.out2_3
  rw [View.canon_unit_zero hz]
  simp only [View.ld_unit_zero (S := S1000x128) hz, View.ld_unit_zero (S := S128x128) hz, View.ld_unit_zero (S := S1x128) hz]
  obtain ⟨-, -, -, -, -, -, e6, e7⟩ := idx2 t
  funext j
  exact (pay2 dH hH hS (GenP.iblk2 V c 0 t) (V c (Pipeline.arrRef spec2 0)) (GenP.iblk2 V c 1 t) (V c (Pipeline.arrRef spec2 1))
      (GenP.iblk2 V c 2 t) (V c (Pipeline.arrRef spec2 2)) (blk2_0 V c t) (blk2_1 V c t) (blk2_2 V c t)).read j (((cfg2.win 3).blk t).view.emb j)
    (by show win2_3.index t (0 : Fin 2) * 1000 + 1 * (j 0).val = 1000 * t.val + (j 0).val; omega)
    (by show win2_3.index t (1 : Fin 2) * 128 + 1 * (j 1).val = (j 1).val; omega)

/-- An index of the output array is in point t's block iff each coordinate is in the block's range on its axis. -/
theorem mem_blk2 (t : Fin cfg2.N) (i : S50000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v12).slice (win2_3.rect t)).set ↔ _
  rw [View.set_slice_whole, Rect.mem_set_unit]
  exact Iff.rfl

/-- Every index of the output array is in some point's block: the one of its row divided by 1000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 50 := N_2
  refine ⟨⟨(i 0).val / 1000, by rw [hN]; omega⟩, flush2_3 _, ?_⟩
  obtain ⟨-, -, -, -, -, -, e6, e7⟩ := idx2 ⟨(i 0).val / 1000, by rw [hN]; omega⟩
  rw [mem_blk2]
  intro a
  match a with
  | ⟨0, _⟩ =>
    show win2_3.index _ (0 : Fin 2) * 1000 ≤ (i 0).val ∧ (i 0).val < win2_3.index _ (0 : Fin 2) * 1000 + 1000
    rw [e6]; show (i 0).val / 1000 * 1000 ≤ (i 0).val ∧ (i 0).val < (i 0).val / 1000 * 1000 + 1000
    omega
  | ⟨1, _⟩ =>
    show win2_3.index _ (1 : Fin 2) * 128 ≤ (i 1).val ∧ (i 1).val < win2_3.index _ (1 : Fin 2) * 128 + 128
    rw [e7]; omega

/-- THE OUTPUT ARRAY after region 2: X · W + b of the arrays as the region finds them. -/
theorem val2 (V : (c : Dev nD) → (b : Ref sig .tc) → Buf (Elt Ideal) ((c : Thread nD τ).loc b)) (c : Dev nD)
    (dH : DotDims ⟨2, ![50000, 128]⟩ ⟨2, ![128, 128]⟩ ⟨2, ![50000, 128]⟩) (hH : Cert.Lib.DenseLayer.Plain dH)
    (hS : (⟨2, ![1, 128]⟩ : Shape).BroadcastsInDim ⟨2, ![50000, 128]⟩ ![0, 1]) :
    (GenP.dat2 (F := Ideal) V c).arrAt 3 cfg2.N
      = Cert.Spec.affine dH hS (V c (Pipeline.arrRef spec2 0)) (V c (Pipeline.arrRef spec2 1)) (V c (Pipeline.arrRef spec2 2)) :=
  (GenP.dat2 (F := Ideal) V c).arrAt_eq_of_cover 3 _ (fun t _ => flushed2 V c dH hH hS t) (fun i => cover2 i)

end Cert.KernelIdeal.RegionVal

end
-- ==== Proof.Region3.lean ====
/-
  Region 3: a normalisation layer followed by the rectifier, with a skip connection. The grid has 50 points; point t reads rows
  1000·t … 1000·t + 999 of the input matrix and of the skip matrix, the four whole rows (mean, variance, scale, shift), and writes the same
  rows of the output. Each block written back is the block of rows of max(g · (Z − mean) · (var + ε)^(-1/2) + be, 0) + R,
  and the 50 blocks tile the output's 50000 rows, so the output array after the region is that function of the arrays as
  the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the matrices move with the point along the rows, the four rows stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at point t is its matrix's block of rows starting at row 1000·t. -/
theorem blk3_0 (V : (c : Dev nD) → (b : Ref sig .tc) → Buf (Elt Ideal) ((c : Thread nD τ).loc b)) (c : Dev nD) (t : Fin cfg3.N) :
    @RowBlk 1000 50000 128 (1000 * t.val) (GenP.iblk3 (F := Ideal) V c 0 t) (V c (Pipeline.arrRef spec3 0)) := by
  obtain ⟨e0a, e0b, e1a, e1b, e2a, e2b, e3a, e3b, e4a, e4b, e5a, e5b, e6a, e6b⟩ := idx3 t
  refine RowBlk.of_read (fun y => ((cfg3.win 0).blk t).view.emb y) (fun y => ?_) (fun y => ?_) (fun y => rfl)
  · show win3_0.index t (0 : Fin 2) * 1000 + 1 * (y 0).val = 1000 * t.val + (y 0).val
    omega
  · show win3_0.index t (1 : Fin 2) * 128 + 1 * (y 1).val = (y 1).val
    omega

/-- Window 1's block at every point is the whole row. -/
theorem blk3_1 (V : (c : Dev nD) → (b : Ref sig .tc) → Buf (Elt Ideal) ((c : Thread nD τ).loc b)) (c : Dev nD) (t : Fin cfg3.N) :
    (GenP.iblk3 (F := Ideal) V c 1 t : (⟨2, ![1, 128]⟩ : Shape).Idx → EReal) = (V c (Pipeline.arrRef spec3 1)) := by
  obtain ⟨e0a, e0b, e1a, e1b, e2a, e2b, e3a, e3b, e4a, e4b, e5a, e5b, e6a, e6b⟩ := idx3 t
  funext y
  show (V c (Pipeline.arrRef spec3 1)) (((cfg3.win 1).blk t).view.emb y) = (V c (Pipeline.arrRef spec3 1)) y
  have h : ((cfg3.win 1).blk t).view.emb y = y := by
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  rw [h]

/-- Window 2's block at every point is the whole row. -/
theorem blk3_2 (V : (c : Dev nD) → (b : Ref sig .tc) → Buf (Elt Ideal) ((c : Thread nD τ).loc b)) (c : Dev nD) (t : Fin cfg3.N) :
    (GenP.iblk3 (F := Ideal) V c 2 t : (⟨2, ![1, 128]⟩ : Shape).Idx → EReal) = (V c (Pipeline.arrRef spec3 2)) := by
  obtain ⟨e0a, e0b, e1a, e1b, e2a, e2b, e3a, e3b, e4a, e4b, e5a, e5b, e6a, e6b⟩ := idx3 t
  funext y
  show (V c (Pipeline.arrRef spec3 2)) (((cfg3.win 2).blk t).view.emb y) = (V c (Pipeline.arrRef spec3 2)) y
  have h : ((cfg3.win 2).blk t).view.emb y = y := by
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [h]

/-- Window 3's block at every point is the whole row. -/
theorem blk3_3 (V : (c : Dev nD) → (b : Ref sig .tc) → Buf (Elt Ideal) ((c : Thread nD τ).loc b)) (c : Dev nD) (t : Fin cfg3.N) :
    (GenP.iblk3 (F := Ideal) V c 3 t : (⟨2, ![1, 128]⟩ : Shape).Idx → EReal) = (V c (Pipeline.arrRef spec3 3)) := by
  obtain ⟨e0a, e0b, e1a, e1b, e2a, e2b, e3a, e3b, e4a, e4b, e5a, e5b, e6a, e6b⟩ := idx3 t
  funext y
  show (V c (Pipeline.arrRef spec3 3)) (((cfg3.win 3).blk t).view.emb y) = (V c (Pipeline.arrRef spec3 3)) y
  have h : ((cfg3.win 3).blk t).view.emb y = y := by
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  rw [h]

/-- Window 4's block at every point is the whole row. -/
theorem blk3_4 (V : (c : Dev nD) → (b : Ref sig .tc) → Buf (Elt Ideal) ((c : Thread nD τ).loc b)) (c : Dev nD) (t : Fin cfg3.N) :
    (GenP.iblk3 (F := Ideal) V c 4 t : (⟨2, ![1, 128]⟩ : Shape).Idx → EReal) = (V c (Pipeline.arrRef spec3 4)) := by
  obtain ⟨e0a, e0b, e1a, e1b, e2a, e2b, e3a, e3b, e4a, e4b, e5a, e5b, e6a, e6b⟩ := idx3 t
  funext y
  show (V c (Pipeline.arrRef spec3 4)) (((cfg3.win 4).blk t).view.emb y) = (V c (Pipeline.arrRef spec3 4)) y
  have h : ((cfg3.win 4).blk t).view.emb y = y := by
    funext a; apply Fin.ext
    match a with
    | ⟨0, _⟩ => show win3_4.index t (0 : Fin 2) * 1 + 1 * (y 0).val = (y 0).val; omega
    | ⟨1, _⟩ => show win3_4.index t (1 : Fin 2) * 128 + 1 * (y 1).val = (y 1).val; omega
  rw [h]

/-- Window 5's block at point t is its matrix's block of rows starting at row 1000·t. -/
theorem blk3_5 (V : (c : Dev nD) → (b : Ref sig .tc) → Buf (Elt Ideal) ((c : Thread nD τ).loc b)) (c : Dev nD) (t : Fin cfg3.N) :
    @RowBlk 1000 50000 128 (1000 * t.val) (GenP.iblk3 (F := Ideal) V c 5 t) (V c (Pipeline.arrRef spec3 5)) := by
  obtain ⟨e0a, e0b, e1a, e1b, e2a, e2b, e3a, e3b, e4a, e4b, e5a, e5b, e6a, e6b⟩ := idx3 t
  refine RowBlk.of_read (fun y => ((cfg3.win 5).blk t).view.emb y) (fun y => ?_) (fun y => ?_) (fun y => rfl)
  · show win3_5.index t (0 : Fin 2) * 1000 + 1 * (y 0).val = 1000 * t.val + (y 0).val
    omega
  · show win3_5.index t (1 : Fin 2) * 128 + 1 * (y 1).val = (y 1).val
    omega

/-- What point t writes back is block t of the layer's whole-array function. -/
theorem flushed3 (V : (c : Dev nD) → (b : Ref sig .tc) → Buf (Elt Ideal) ((c : Thread nD τ).loc b)) (c : Dev nD)
    (hS : (⟨2, ![1, 128]⟩ : Shape).BroadcastsInDim ⟨2, ![50000, 128]⟩ ![0, 1]) (t : Fin cfg3.N) :
    (GenP.dat3 (F := Ideal) V c).flushed 6 t
      = ((cfg3.win 6).blk t).view.read (Elt Ideal) (Cert.Spec.bnreluSkip hS (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((GenP.dat3 V c).after 6 t) = _
  rw [GenP.after3_6]
  unfold GenP.out3_6
  rw [View.canon_unit_zero hz]
  simp only [View.ld_unit_zero (S := S1000x128) hz, View.ld_unit_zero (S := S1x128) hz]
  obtain ⟨e0a, e0b, e1a, e1b, e2a, e2b, e3a, e3b, e4a, e4b, e5a, e5b, e6a, e6b⟩ := idx3 t
  funext j
  exact (pay3 hS (GenP.iblk3 V c 0 t) (V c (Pipeline.arrRef spec3 0)) (GenP.iblk3 V c 3 t) (V c (Pipeline.arrRef spec3 3)) (GenP.iblk3 V c 1 t) (V c (Pipeline.arrRef spec3 1))
      (GenP.iblk3 V c 2 t) (V c (Pipeline.arrRef spec3 2)) (GenP.iblk3 V c 4 t) (V c (Pipeline.arrRef spec3 4)) (GenP.iblk3 V c 5 t) (V c (Pipeline.arrRef spec3 5))
      (blk3_0 V c t) (blk3_3 V c t) (blk3_1 V c t) (blk3_2 V c t) (blk3_4 V c t) (blk3_5 V c t)).read j (((cfg3.win 6).blk t).view.emb j)
    (by show win3_6.index t (0 : Fin 2) * 1000 + 1 * (j 0).val = 1000 * t.val + (j 0).val; omega)
    (by show win3_6.index t (1 : Fin 2) * 128 + 1 * (j 1).val = (j 1).val; omega)

/-- An index of the output array is in point t's block iff each coordinate is in the block's range on its axis. -/
theorem mem_blk3 (t : Fin cfg3.N) (i : S50000x128.Idx) :
    i ∈ ((cfg3.win 6).blk t).view.set ↔ ∀ a : Fin 2, win3_6.index t a * S1000x128.size a ≤ (i a).val ∧ (i a).val < win3_6.index t a * S1000x128.size a + S1000x128.size a := by
  show i ∈ ((View.whole main_v21).slice (win3_6.rect t)).set ↔ _
  rw [View.set_slice_whole, Rect.mem_set_unit]
  exact Iff.rfl

/-- Every index of the output array is in some point's block: the one of its row divided by 1000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 50 := N_3
  refine ⟨⟨(i 0).val / 1000, by rw [hN]; omega⟩, flush3_6 _, ?_⟩
  obtain ⟨e0a, e0b, e1a, e1b, e2a, e2b, e3a, e3b, e4a, e4b, e5a, e5b, e6a, e6b⟩ := idx3 ⟨(i 0).val / 1000, by rw [hN]; omega⟩
  rw [mem_blk3]
  intro a
  match a with
  | ⟨0, _⟩ =>
    show win3_6.index _ (0 : Fin 2) * 1000 ≤ (i 0).val ∧ (i 0).val < win3_6.index _ (0 : Fin 2) * 1000 + 1000
    rw [e6a]; show (i 0).val / 1000 * 1000 ≤ (i 0).val ∧ (i 0).val < (i 0).val / 1000 * 1000 + 1000
    omega
  | ⟨1, _⟩ =>
    show win3_6.index _ (1 : Fin 2) * 128 ≤ (i 1).val ∧ (i 1).val < win3_6.index _ (1 : Fin 2) * 128 + 128
    rw [e6b]; omega

/-- THE OUTPUT ARRAY after region 3: max(g · (Z − mean) · (var + ε)^(-1/2) + be, 0) + R of the arrays as the region finds them
    (window 0 the matrix Z, 1 the mean row, 2 the variance row, 3 the scale row g, 4 the shift row be, 5 the skip matrix R). -/
theorem val3 (V : (c : Dev nD) → (b : Ref sig .tc) → Buf (Elt Ideal) ((c : Thread nD τ).loc b)) (c : Dev nD)
    (hS : (⟨2, ![1, 128]⟩ : Shape).BroadcastsInDim ⟨2, ![50000, 128]⟩ ![0, 1]) :
    (GenP.dat3 (F := Ideal) V c).arrAt 6 cfg3.N
      = Cert.Spec.bnreluSkip hS (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (GenP.dat3 (F := Ideal) V c).arrAt_eq_of_cover 6 _ (fun t _ => flushed3 V c hS t) (fun i => cover3 i)

end Cert.KernelIdeal.RegionVal

end
-- ==== Proof.Region4.lean ====
/-
  Region 4: a dense layer. The grid has 50 points; point t reads rows 1000·t … 1000·t + 999 of the input matrix, the
  whole weight matrix and the whole bias row, and writes the same rows of the output. Each block written back is the
  block of rows of X · W + b, and the 50 blocks tile the output's 50000 rows, so the output array after the region is
  X · W + b of the arrays as the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the input matrix and the output move with the point along the rows; the
    weight matrix and the bias row stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input matrix's block at point t is its block of rows starting at row 1000·t. -/
theorem blk4_0 (V : (c : Dev nD) → (b : Ref sig .tc) → Buf (Elt Ideal) ((c : Thread nD τ).loc b)) (c : Dev nD) (t : Fin cfg4.N) :
    @RowBlk 1000 50000 128 (1000 * t.val) (GenP.iblk4 (F := Ideal) V c 0 t) (V c (Pipeline.arrRef spec4 0)) := by
  obtain ⟨e0, e1, -⟩ := idx4 t
  refine RowBlk.of_read (fun y => ((cfg4.win 0).blk t).view.emb y) (fun y => ?_) (fun y => ?_) (fun y => rfl)
  · show win4_0.index t (0 : Fin 2) * 1000 + 1 * (y 0).val = 1000 * t.val + (y 0).val
    omega
  · show win4_0.index t (1 : Fin 2) * 128 + 1 * (y 1).val = (y 1).val
    omega

/-- The weight matrix's block at every point is the whole matrix. -/
theorem blk4_1 (V : (c : Dev nD) → (b : Ref sig .tc) → Buf (Elt Ideal) ((c : Thread nD τ).loc b)) (c : Dev nD) (t : Fin cfg4.N) :
    (GenP.iblk4 (F := Ideal) V c 1 t : (⟨2, ![128, 64]⟩ : Shape).Idx → EReal) = (V c (Pipeline.arrRef spec4 1)) := by
  obtain ⟨-, -, e2, e3, -⟩ := idx4 t
  funext y
  show (V c (Pipeline.arrRef spec4 1)) (((cfg4.win 1).blk t).view.emb y) = (V c (Pipeline.arrRef spec4 1)) y
  have h : ((cfg4.win 1).blk t).view.emb y = y := by
    funext a; apply Fin.ext
    match a with
    | ⟨0, _⟩ => show win4_1.index t (0 : Fin 2) * 128 + 1 * (y 0).val = (y 0).val; omega
    | ⟨1, _⟩ => show win4_1.index t (1 : Fin 2) * 64 + 1 * (y 1).val = (y 1).val; omega
  rw [h]

/-- The bias row's block at every point is the whole row. -/
theorem blk4_2 (V : (c : Dev nD) → (b : Ref sig .tc) → Buf (Elt Ideal) ((c : Thread nD τ).loc b)) (c : Dev nD) (t : Fin cfg4.N) :
    (GenP.iblk4 (F := Ideal) V c 2 t : (⟨2, ![1, 64]⟩ : Shape).Idx → EReal) = (V c (Pipeline.arrRef spec4 2)) := by
  obtain ⟨-, -, -, -, e4, e5, -⟩ := idx4 t
  funext y
  show (V c (Pipeline.arrRef spec4 2)) (((cfg4.win 2).blk t).view.emb y) = (V c (Pipeline.arrRef spec4 2)) y
  have h : ((cfg4.win 2).blk t).view.emb y = y := by
    funext a; apply Fin.ext
    match a with
    | ⟨0, _⟩ => show win4_2.index t (0 : Fin 2) * 1 + 1 * (y 0).val = (y 0).val; omega
    | ⟨1, _⟩ => show win4_2.index t (1 : Fin 2) * 64 + 1 * (y 1).val = (y 1).val; omega
  rw [h]

/-- What point t writes back is block t of X · W + b. -/
theorem flushed4 (V : (c : Dev nD) → (b : Ref sig .tc) → Buf (Elt Ideal) ((c : Thread nD τ).loc b)) (c : Dev nD)
    (dH : DotDims ⟨2, ![50000, 128]⟩ ⟨2, ![128, 64]⟩ ⟨2, ![50000, 64]⟩) (hH : Cert.Lib.DenseLayer.Plain dH)
    (hS : (⟨2, ![1, 64]⟩ : Shape).BroadcastsInDim ⟨2, ![50000, 64]⟩ ![0, 1]) (t : Fin cfg4.N) :
    (GenP.dat4 (F := Ideal) V c).flushed 3 t
      = ((cfg4.win 3).blk t).view.read (Elt Ideal) (Cert.Spec.affine dH hS (V c (Pipeline.arrRef spec4 0)) (V c (Pipeline.arrRef spec4 1)) (V c (Pipeline.arrRef spec4 2))) := by
  show (cfg4.win 3).cut (grid4.coords t) ((GenP.dat4 V c).after 3 t) = _
  rw [GenP.after4_3]
  unfold GenP.out4_3
  rw [View.canon_unit_zero hz]
  simp only [View.ld_unit_zero (S := S1000x128) hz, View.ld_unit_zero (S := S128x64) hz, View.ld_unit_zero (S := S1x64) hz]
  obtain ⟨-, -, -, -, -, -, e6, e7⟩ := idx4 t
  funext j
  exact (pay4 dH hH hS (GenP.iblk4 V c 0 t) (V c (Pipeline.arrRef spec4 0)) (GenP.iblk4 V c 1 t) (V c (Pipeline.arrRef spec4 1))
      (GenP.iblk4 V c 2 t) (V c (Pipeline.arrRef spec4 2)) (blk4_0 V c t) (blk4_1 V c t) (blk4_2 V c t)).read j (((cfg4.win 3).blk t).view.emb j)
    (by show win4_3.index t (0 : Fin 2) * 1000 + 1 * (j 0).val = 1000 * t.val + (j 0).val; omega)
    (by show win4_3.index t (1 : Fin 2) * 64 + 1 * (j 1).val = (j 1).val; omega)

/-- An index of the output array is in point t's block iff each coordinate is in the block's range on its axis. -/
theorem mem_blk4 (t : Fin cfg4.N) (i : S50000x64.Idx) :
    i ∈ ((cfg4.win 3).blk t).view.set ↔ ∀ a : Fin 2, win4_3.index t a * S1000x64.size a ≤ (i a).val ∧ (i a).val < win4_3.index t a * S1000x64.size a + S1000x64.size a := by
  show i ∈ ((View.whole main_v191).slice (win4_3.rect t)).set ↔ _
  rw [View.set_slice_whole, Rect.mem_set_unit]
  exact Iff.rfl

/-- Every index of the output array is in some point's block: the one of its row divided by 1000. -/
theorem cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 50 := N_4
  refine ⟨⟨(i 0).val / 1000, by rw [hN]; omega⟩, flush4_3 _, ?_⟩
  obtain ⟨-, -, -, -, -, -, e6, e7⟩ := idx4 ⟨(i 0).val / 1000, by rw [hN]; omega⟩
  rw [mem_blk4]
  intro a
  match a with
  | ⟨0, _⟩ =>
    show win4_3.index _ (0 : Fin 2) * 1000 ≤ (i 0).val ∧ (i 0).val < win4_3.index _ (0 : Fin 2) * 1000 + 1000
    rw [e6]; show (i 0).val / 1000 * 1000 ≤ (i 0).val ∧ (i 0).val < (i 0).val / 1000 * 1000 + 1000
    omega
  | ⟨1, _⟩ =>
    show win4_3.index _ (1 : Fin 2) * 64 ≤ (i 1).val ∧ (i 1).val < win4_3.index _ (1 : Fin 2) * 64 + 64
    rw [e7]; omega

/-- THE OUTPUT ARRAY after region 4: X · W + b of the arrays as the region finds them. -/
theorem val4 (V : (c : Dev nD) → (b : Ref sig .tc) → Buf (Elt Ideal) ((c : Thread nD τ).loc b)) (c : Dev nD)
    (dH : DotDims ⟨2, ![50000, 128]⟩ ⟨2, ![128, 64]⟩ ⟨2, ![50000, 64]⟩) (hH : Cert.Lib.DenseLayer.Plain dH)
    (hS : (⟨2, ![1, 64]⟩ : Shape).BroadcastsInDim ⟨2, ![50000, 64]⟩ ![0, 1]) :
    (GenP.dat4 (F := Ideal) V c).arrAt 3 cfg4.N
      = Cert.Spec.affine dH hS (V c (Pipeline.arrRef spec4 0)) (V c (Pipeline.arrRef spec4 1)) (V c (Pipeline.arrRef spec4 2)) :=
  (GenP.dat4 (F := Ideal) V c).arrAt_eq_of_cover 3 _ (fun t _ => flushed4 V c dH hH hS t) (fun i => cover4 i)

end Cert.KernelIdeal.RegionVal

end
-- ==== Proof.Region5.lean ====
/-
  Region 5: a normalisation layer followed by the rectifier. The grid has 50 points; point t reads rows
  1000·t … 1000·t + 999 of the input matrix, the four whole rows (mean, variance, scale, shift), and writes the same
  rows of the output. Each block written back is the block of rows of max(g · (Z − mean) · (var + ε)^(-1/2) + be, 0),
  and the 50 blocks tile the output's 50000 rows, so the output array after the region is that function of the arrays as
  the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the matrices move with the point along the rows, the four rows stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 0's block at point t is its matrix's block of rows starting at row 1000·t. -/
theorem blk5_0 (V : (c : Dev nD) → (b : Ref sig .tc) → Buf (Elt Ideal) ((c : Thread nD τ).loc b)) (c : Dev nD) (t : Fin cfg5.N) :
    @RowBlk 1000 50000 64 (1000 * t.val) (GenP.iblk5 (F := Ideal) V c 0 t) (V c (Pipeline.arrRef spec5 0)) := by
  obtain ⟨e0a, e0b, e1a, e1b, e2a, e2b, e3a, e3b, e4a, e4b, e5a, e5b⟩ := idx5 t
  refine RowBlk.of_read (fun y => ((cfg5.win 0).blk t).view.emb y) (fun y => ?_) (fun y => ?_) (fun y => rfl)
  · show win5_0.index t (0 : Fin 2) * 1000 + 1 * (y 0).val = 1000 * t.val + (y 0).val
    omega
  · show win5_0.index t (1 : Fin 2) * 64 + 1 * (y 1).val = (y 1).val
    omega

/-- Window 1's block at every point is the whole row. -/
theorem blk5_1 (V : (c : Dev nD) → (b : Ref sig .tc) → Buf (Elt Ideal) ((c : Thread nD τ).loc b)) (c : Dev nD) (t : Fin cfg5.N) :
    (GenP.iblk5 (F := Ideal) V c 1 t : (⟨2, ![1, 64]⟩ : Shape).Idx → EReal) = (V c (Pipeline.arrRef spec5 1)) := by
  obtain ⟨e0a, e0b, e1a, e1b, e2a, e2b, e3a, e3b, e4a, e4b, e5a, e5b⟩ := idx5 t
  funext y
  show (V c (Pipeline.arrRef spec5 1)) (((cfg5.win 1).blk t).view.emb y) = (V c (Pipeline.arrRef spec5 1)) y
  have h : ((cfg5.win 1).blk t).view.emb y = y := by
    funext a; apply Fin.ext
    match a with
    | ⟨0, _⟩ => show win5_1.index t (0 : Fin 2) * 1 + 1 * (y 0).val = (y 0).val; omega
    | ⟨1, _⟩ => show win5_1.index t (1 : Fin 2) * 64 + 1 * (y 1).val = (y 1).val; omega
  rw [h]

/-- Window 2's block at every point is the whole row. -/
theorem blk5_2 (V : (c : Dev nD) → (b : Ref sig .tc) → Buf (Elt Ideal) ((c : Thread nD τ).loc b)) (c : Dev nD) (t : Fin cfg5.N) :
    (GenP.iblk5 (F := Ideal) V c 2 t : (⟨2, ![1, 64]⟩ : Shape).Idx → EReal) = (V c (Pipeline.arrRef spec5 2)) := by
  obtain ⟨e0a, e0b, e1a, e1b, e2a, e2b, e3a, e3b, e4a, e4b, e5a, e5b⟩ := idx5 t
  funext y
  show (V c (Pipeline.arrRef spec5 2)) (((cfg5.win 2).blk t).view.emb y) = (V c (Pipeline.arrRef spec5 2)) y
  have h : ((cfg5.win 2).blk t).view.emb y = y := by
    funext a; apply Fin.ext
    match a with
    | ⟨0, _⟩ => show win5_2.index t (0 : Fin 2) * 1 + 1 * (y 0).val = (y 0).val; omega
    | ⟨1, _⟩ => show win5_2.index t (1 : Fin 2) * 64 + 1 * (y 1).val = (y 1).val; omega
  rw [h]

/-- Window 3's block at every point is the whole row. -/
theorem blk5_3 (V : (c : Dev nD) → (b : Ref sig .tc) → Buf (Elt Ideal) ((c : Thread nD τ).loc b)) (c : Dev nD) (t : Fin cfg5.N) :
    (GenP.iblk5 (F := Ideal) V c 3 t : (⟨2, ![1, 64]⟩ : Shape).Idx → EReal) = (V c (Pipeline.arrRef spec5 3)) := by
  obtain ⟨e0a, e0b, e1a, e1b, e2a, e2b, e3a, e3b, e4a, e4b, e5a, e5b⟩ := idx5 t
  funext y
  show (V c (Pipeline.arrRef spec5 3)) (((cfg5.win 3).blk t).view.emb y) = (V c (Pipeline.arrRef spec5 3)) y
  have h : ((cfg5.win 3).blk t).view.emb y = y := by
    funext a; apply Fin.ext
    match a with
    | ⟨0, _⟩ => show win5_3.index t (0 : Fin 2) * 1 + 1 * (y 0).val = (y 0).val; omega
    | ⟨1, _⟩ => show win5_3.index t (1 : Fin 2) * 64 + 1 * (y 1).val = (y 1).val; omega
  rw [h]

/-- Window 4's block at every point is the whole row. -/
theorem blk5_4 (V : (c : Dev nD) → (b : Ref sig .tc) → Buf (Elt Ideal) ((c : Thread nD τ).loc b)) (c : Dev nD) (t : Fin cfg5.N) :
    (GenP.iblk5 (F := Ideal) V c 4 t : (⟨2, ![1, 64]⟩ : Shape).Idx → EReal) = (V c (Pipeline.arrRef spec5 4)) := by
  obtain ⟨e0a, e0b, e1a, e1b, e2a, e2b, e3a, e3b, e4a, e4b, e5a, e5b⟩ := idx5 t
  funext y
  show (V c (Pipeline.arrRef spec5 4)) (((cfg5.win 4).blk t).view.emb y) = (V c (Pipeline.arrRef spec5 4)) y
  have h : ((cfg5.win 4).blk t).view.emb y = y := by
    funext a; apply Fin.ext
    match a with
    | ⟨0, _⟩ => show win5_4.index t (0 : Fin 2) * 1 + 1 * (y 0).val = (y 0).val; omega
    | ⟨1, _⟩ => show win5_4.index t (1 : Fin 2) * 64 + 1 * (y 1).val = (y 1).val; omega
  rw [h]

/-- What point t writes back is block t of the layer's whole-array function. -/
theorem flushed5 (V : (c : Dev nD) → (b : Ref sig .tc) → Buf (Elt Ideal) ((c : Thread nD τ).loc b)) (c : Dev nD)
    (hS : (⟨2, ![1, 64]⟩ : Shape).BroadcastsInDim ⟨2, ![50000, 64]⟩ ![0, 1]) (t : Fin cfg5.N) :
    (GenP.dat5 (F := Ideal) V c).flushed 5 t
      = ((cfg5.win 5).blk t).view.read (Elt Ideal) (Cert.Spec.bnrelu hS (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((GenP.dat5 V c).after 5 t) = _
  rw [GenP.after5_5]
  unfold GenP.out5_5
  rw [View.canon_unit_zero hz]
  simp only [View.ld_unit_zero (S := S1000x64) hz, View.ld_unit_zero (S := S1x64) hz]
  obtain ⟨e0a, e0b, e1a, e1b, e2a, e2b, e3a, e3b, e4a, e4b, e5a, e5b⟩ := idx5 t
  funext j
  exact (pay5 hS (GenP.iblk5 V c 0 t) (V c (Pipeline.arrRef spec5 0)) (GenP.iblk5 V c 3 t) (V c (Pipeline.arrRef spec5 3)) (GenP.iblk5 V c 1 t) (V c (Pipeline.arrRef spec5 1))
      (GenP.iblk5 V c 2 t) (V c (Pipeline.arrRef spec5 2)) (GenP.iblk5 V c 4 t) (V c (Pipeline.arrRef spec5 4))
      (blk5_0 V c t) (blk5_3 V c t) (blk5_1 V c t) (blk5_2 V c t) (blk5_4 V c t)).read j (((cfg5.win 5).blk t).view.emb j)
    (by show win5_5.index t (0 : Fin 2) * 1000 + 1 * (j 0).val = 1000 * t.val + (j 0).val; omega)
    (by show win5_5.index t (1 : Fin 2) * 64 + 1 * (j 1).val = (j 1).val; omega)

/-- An index of the output array is in point t's block iff each coordinate is in the block's range on its axis. -/
theorem mem_blk5 (t : Fin cfg5.N) (i : S50000x64.Idx) :
    i ∈ ((cfg5.win 5).blk t).view.set ↔ ∀ a : Fin 2, win5_5.index t a * S1000x64.size a ≤ (i a).val ∧ (i a).val < win5_5.index t a * S1000x64.size a + S1000x64.size a := by
  show i ∈ ((View.whole main_v200).slice (win5_5.rect t)).set ↔ _
  rw [View.set_slice_whole, Rect.mem_set_unit]
  exact Iff.rfl

/-- Every index of the output array is in some point's block: the one of its row divided by 1000. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 50 := N_5
  refine ⟨⟨(i 0).val / 1000, by rw [hN]; omega⟩, flush5_5 _, ?_⟩
  obtain ⟨e0a, e0b, e1a, e1b, e2a, e2b, e3a, e3b, e4a, e4b, e5a, e5b⟩ := idx5 ⟨(i 0).val / 1000, by rw [hN]; omega⟩
  rw [mem_blk5]
  intro a
  match a with
  | ⟨0, _⟩ =>
    show win5_5.index _ (0 : Fin 2) * 1000 ≤ (i 0).val ∧ (i 0).val < win5_5.index _ (0 : Fin 2) * 1000 + 1000
    rw [e5a]; show (i 0).val / 1000 * 1000 ≤ (i 0).val ∧ (i 0).val < (i 0).val / 1000 * 1000 + 1000
    omega
  | ⟨1, _⟩ =>
    show win5_5.index _ (1 : Fin 2) * 64 ≤ (i 1).val ∧ (i 1).val < win5_5.index _ (1 : Fin 2) * 64 + 64
    rw [e5b]; omega

/-- THE OUTPUT ARRAY after region 5: max(g · (Z − mean) · (var + ε)^(-1/2) + be, 0) of the arrays as the region finds them
    (window 0 the matrix Z, 1 the mean row, 2 the variance row, 3 the scale row g, 4 the shift row be). -/
theorem val5 (V : (c : Dev nD) → (b : Ref sig .tc) → Buf (Elt Ideal) ((c : Thread nD τ).loc b)) (c : Dev nD)
    (hS : (⟨2, ![1, 64]⟩ : Shape).BroadcastsInDim ⟨2, ![50000, 64]⟩ ![0, 1]) :
    (GenP.dat5 (F := Ideal) V c).arrAt 5 cfg5.N
      = Cert.Spec.bnrelu hS (V c (Pipeline.arrRef spec5 0)) (V c (Pipeline.arrRef spec5 1)) (V c (Pipeline.arrRef spec5 2)) (V c (Pipeline.arrRef spec5 3)) (V c (Pipeline.arrRef spec5 4)) :=
  (GenP.dat5 (F := Ideal) V c).arrAt_eq_of_cover 5 _ (fun t _ => flushed5 V c hS t) (fun i => cover5 i)

end Cert.KernelIdeal.RegionVal

end
-- ==== Proof.Region6.lean ====
/-
  Region 6: a dense layer. The grid has 50 points; point t reads rows 1000·t … 1000·t + 999 of the input matrix, the
  whole weight matrix and the whole bias row, and writes the same rows of the output. Each block written back is the
  block of rows of X · W + b, and the 50 blocks tile the output's 50000 rows, so the output array after the region is
  X · W + b of the arrays as the region finds them.
-/
import proofs.«123233_j6760278524490_1_alg».proof.Proof.RegionCommon
import proofs.«123233_j6760278524490_1_alg».proof.Proof.KernelIdealFrameP

set_option maxRecDepth 16384

noncomputable section

namespace Cert.KernelIdeal.RegionVal

open Idealize.ShloMosaic Idealize.ShloMosaic.TcCoe Idealize.ShloMosaic.ValueIdx
open Cert.Lib.DenseLayer Cert.KernelIdeal Cert.KernelIdeal.Gen
open Idealize.ShloMosaic.Pipeline (Dat Cfg Window)

/-- The index maps, decided over the grid: the input matrix and the output move with the point along the rows; the
    weight matrix and the bias row stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The input matrix's block at point t is its block of rows starting at row 1000·t. -/
theorem blk6_0 (V : (c : Dev nD) → (b : Ref sig .tc) → Buf (Elt Ideal) ((c : Thread nD τ).loc b)) (c : Dev nD) (t : Fin cfg6.N) :
    @RowBlk 1000 50000 64 (1000 * t.val) (GenP.iblk6 (F := Ideal) V c 0 t) (V c (Pipeline.arrRef spec6 0)) := by
  obtain ⟨e0, e1, -⟩ := idx6 t
  refine RowBlk.of_read (fun y => ((cfg6.win 0).blk t).view.emb y) (fun y => ?_) (fun y => ?_) (fun y => rfl)
  · show win6_0.index t (0 : Fin 2) * 1000 + 1 * (y 0).val = 1000 * t.val + (y 0).val
    omega
  · show win6_0.index t (1 : Fin 2) * 64 + 1 * (y 1).val = (y 1).val
    omega

/-- The weight matrix's block at every point is the whole matrix. -/
theorem blk6_1 (V : (c : Dev nD) → (b : Ref sig .tc) → Buf (Elt Ideal) ((c : Thread nD τ).loc b)) (c : Dev nD) (t : Fin cfg6.N) :
    (GenP.iblk6 (F := Ideal) V c 1 t : (⟨2, ![64, 1000]⟩ : Shape).Idx → EReal) = (V c (Pipeline.arrRef spec6 1)) := by
  obtain ⟨-, -, e2, e3, -⟩ := idx6 t
  funext y
  show (V c (Pipeline.arrRef spec6 1)) (((cfg6.win 1).blk t).view.emb y) = (V c (Pipeline.arrRef spec6 1)) y
  have h : ((cfg6.win 1).blk t).view.emb y = y := by
    funext a; apply Fin.ext
    match a with
    | ⟨0, _⟩ => show win6_1.index t (0 : Fin 2) * 64 + 1 * (y 0).val = (y 0).val; omega
    | ⟨1, _⟩ => show win6_1.index t (1 : Fin 2) * 1000 + 1 * (y 1).val = (y 1).val; omega
  rw [h]

/-- The bias row's block at every point is the whole row. -/
theorem blk6_2 (V : (c : Dev nD) → (b : Ref sig .tc) → Buf (Elt Ideal) ((c : Thread nD τ).loc b)) (c : Dev nD) (t : Fin cfg6.N) :
    (GenP.iblk6 (F := Ideal) V c 2 t : (⟨2, ![1, 1000]⟩ : Shape).Idx → EReal) = (V c (Pipeline.arrRef spec6 2)) := by
  obtain ⟨-, -, -, -, e4, e5, -⟩ := idx6 t
  funext y
  show (V c (Pipeline.arrRef spec6 2)) (((cfg6.win 2).blk t).view.emb y) = (V c (Pipeline.arrRef spec6 2)) y
  have h : ((cfg6.win 2).blk t).view.emb y = y := by
    funext a; apply Fin.ext
    match a with
    | ⟨0, _⟩ => show win6_2.index t (0 : Fin 2) * 1 + 1 * (y 0).val = (y 0).val; omega
    | ⟨1, _⟩ => show win6_2.index t (1 : Fin 2) * 1000 + 1 * (y 1).val = (y 1).val; omega
  rw [h]

/-- What point t writes back is block t of X · W + b. -/
theorem flushed6 (V : (c : Dev nD) → (b : Ref sig .tc) → Buf (Elt Ideal) ((c : Thread nD τ).loc b)) (c : Dev nD)
    (dH : DotDims ⟨2, ![50000, 64]⟩ ⟨2, ![64, 1000]⟩ ⟨2, ![50000, 1000]⟩) (hH : Cert.Lib.DenseLayer.Plain dH)
    (hS : (⟨2, ![1, 1000]⟩ : Shape).BroadcastsInDim ⟨2, ![50000, 1000]⟩ ![0, 1]) (t : Fin cfg6.N) :
    (GenP.dat6 (F := Ideal) V c).flushed 3 t
      = ((cfg6.win 3).blk t).view.read (Elt Ideal) (Cert.Spec.affine dH hS (V c (Pipeline.arrRef spec6 0)) (V c (Pipeline.arrRef spec6 1)) (V c (Pipeline.arrRef spec6 2))) := by
  show (cfg6.win 3).cut (grid6.coords t) ((GenP.dat6 V c).after 3 t) = _
  rw [GenP.after6_3]
  unfold GenP.out6_3
  rw [View.canon_unit_zero hz]
  simp only [View.ld_unit_zero (S := S1000x64) hz, View.ld_unit_zero (S := S64x1000) hz, View.ld_unit_zero (S := S1x1000) hz]
  obtain ⟨-, -, -, -, -, -, e6, e7⟩ := idx6 t
  funext j
  exact (pay6 dH hH hS (GenP.iblk6 V c 0 t) (V c (Pipeline.arrRef spec6 0)) (GenP.iblk6 V c 1 t) (V c (Pipeline.arrRef spec6 1))
      (GenP.iblk6 V c 2 t) (V c (Pipeline.arrRef spec6 2)) (blk6_0 V c t) (blk6_1 V c t) (blk6_2 V c t)).read j (((cfg6.win 3).blk t).view.emb j)
    (by show win6_3.index t (0 : Fin 2) * 1000 + 1 * (j 0).val = 1000 * t.val + (j 0).val; omega)
    (by show win6_3.index t (1 : Fin 2) * 1000 + 1 * (j 1).val = (j 1).val; omega)

/-- An index of the output array is in point t's block iff each coordinate is in the block's range on its axis. -/
theorem mem_blk6 (t : Fin cfg6.N) (i : S50000x1000.Idx) :
    i ∈ ((cfg6.win 3).blk t).view.set ↔ ∀ a : Fin 2, win6_3.index t a * S1000x1000.size a ≤ (i a).val ∧ (i a).val < win6_3.index t a * S1000x1000.size a + S1000x1000.size a := by
  show i ∈ ((View.whole main_v202).slice (win6_3.rect t)).set ↔ _
  rw [View.set_slice_whole, Rect.mem_set_unit]
  exact Iff.rfl

/-- Every index of the output array is in some point's block: the one of its row divided by 1000. -/
theorem cover6 (i : S50000x1000.Idx) :
    ∃ t : Fin cfg6.N, (cfg6.win 3).flush t = true ∧ i ∈ ((cfg6.win 3).blk t).view.set := by
  have hi0 : (i 0).val < 50000 := (i 0).isLt
  have hi1 : (i 1).val < 1000 := (i 1).isLt
  have hN : cfg6.N = 50 := N_6
  refine ⟨⟨(i 0).val / 1000, by rw [hN]; omega⟩, flush6_3 _, ?_⟩
  obtain ⟨-, -, -, -, -, -, e6, e7⟩ := idx6 ⟨(i 0).val / 1000, by rw [hN]; omega⟩
  rw [mem_blk6]
  intro a
  match a with
  | ⟨0, _⟩ =>
    show win6_3.index _ (0 : Fin 2) * 1000 ≤ (i 0).val ∧ (i 0).val < win6_3.index _ (0 : Fin 2) * 1000 + 1000
    rw [e6]; show (i 0).val / 1000 * 1000 ≤ (i 0).val ∧ (i 0).val < (i 0).val / 1000 * 1000 + 1000
    omega
  | ⟨1, _⟩ =>
    show win6_3.index _ (1 : Fin 2) * 1000 ≤ (i 1).val ∧ (i 1).val < win6_3.index _ (1 : Fin 2) * 1000 + 1000
    rw [e7]; omega

/-- THE OUTPUT ARRAY after region 6: X · W + b of the arrays as the region finds them. -/
theorem val6 (V : (c : Dev nD) → (b : Ref sig .tc) → Buf (Elt Ideal) ((c : Thread nD τ).loc b)) (c : Dev nD)
    (dH : DotDims ⟨2, ![50000, 64]⟩ ⟨2, ![64, 1000]⟩ ⟨2, ![50000, 1000]⟩) (hH : Cert.Lib.DenseLayer.Plain dH)
    (hS : (⟨2, ![1, 1000]⟩ : Shape).BroadcastsInDim ⟨2, ![50000, 1000]⟩ ![0, 1]) :
    (GenP.dat6 (F := Ideal) V c).arrAt 3 cfg6.N
      = Cert.Spec.affine dH hS (V c (Pipeline.arrRef spec6 0)) (V c (Pipeline.arrRef spec6 1)) (V c (Pipeline.arrRef spec6 2)) :=
  (GenP.dat6 (F := Ideal) V c).arrAt_eq_of_cover 3 _ (fun t _ => flushed6 V c dH hH hS t) (fun i => cover6 i)

end Cert.KernelIdeal.RegionVal

end
-- ==== Proof.KChain.lean ====
/-
  What the idealized kernel computes. Boundary by boundary through @main: a launch's output array is its layer of the
  launch's input arrays as the launch finds them, a stretch of host operations makes the next launch's rows (or runs the
  propagation), and the arguments are still at their launch contents wherever they are read. So when @main returns the
  result buffer holds the layers composed, in the kernel's spelling, of the argument arrays.
-/
import proofs.«123233_j6760278524490_1_alg».proof.Proof.KArgs
import proofs.«123233_j6760278524490_1_alg».proof.Proof.Region0
import proofs.«123233_j6760278524490_1_alg».proof.Proof.Region1
import proofs.«123233_j6760278524490_1_alg».proof.Proof.Region2
import proofs.«123233_j6760278524490_1_alg».proof.Proof.Region3
import proofs.«123233_j6760278524490_1_alg».proof.Proof.Region4
import proofs.«123233_j6760278524490_1_alg».proof.Proof.Region5
import proofs.«123233_j6760278524490_1_alg».proof.Proof.Region6

set_option maxRecDepth 16384

noncomputable section

namespace Cert.KernelIdeal.GenP

open Cert.KernelIdeal.Gen Cert.KernelIdeal.HostVal Cert.KernelIdeal.RegionVal Cert.Lib.DenseLayer

open Idealize.ShloMosaic Idealize.ShloMosaic.TcCoe Idealize.ShloMosaic.Tactic
open Idealize.SL.Sem
open Idealize.ShloMosaic.Pipeline (Dat Cfg Window BodyObligation cellOf)

variable [Cert.ReferenceIdeal.Facts₀]
variable (m : (ℓ : Loc nD τ sig) → Buf (Elt Ideal) ℓ) (ρ : Dev nD → PrngReg)

theorem plain1 : Plain Cert.ReferenceIdeal.dot_S50000x128_S128x128_S50000x128_1_0_0_1_n_n := Plain.of_fields _ rfl rfl rfl rfl rfl rfl
theorem plain3 : Plain Cert.ReferenceIdeal.dot_S50000x128_S128x64_S50000x64_1_0_0_1_n_n := Plain.of_fields _ rfl rfl rfl rfl rfl rfl
theorem plain4 : Plain Cert.ReferenceIdeal.dot_S50000x64_S64x1000_S50000x1000_1_0_0_1_n_n := Plain.of_fields _ rfl rfl rfl rfl rfl rfl

/-- The first dense layer of the arguments. -/
def kz1 (c : Dev nD) : FVec Ideal S50000x128 .f32 :=
  (Cert.Spec.affine Cert.ReferenceIdeal.dot_S50000x128_S128x128_S50000x128_1_0_0_1_n_n Cert.ReferenceIdeal.Facts₀.bcast_S1x128_S50000x128_0_1 (m ((c.tc : Thread nD τ).loc main_arg0)) (m ((c.tc : Thread nD τ).loc main_arg2)) (shapeCast S1x128 (m ((c.tc : Thread nD τ).loc main_arg3)) Cert.KernelIdeal.Facts₀.shapeCasts_S128_S1x128))

/-- Normalised and rectified. -/
def kh1 (c : Dev nD) : FVec Ideal S50000x128 .f32 :=
  (Cert.Spec.bnrelu Cert.ReferenceIdeal.Facts₀.bcast_S1x128_S50000x128_0_1 (kz1 m c) (shapeCast S1x128 (Cert.ReferenceIdeal.Fns.mean128 (F := Ideal) (kz1 m c)) Cert.KernelIdeal.Facts₀.shapeCasts_S128_S1x128) (shapeCast S1x128 (Cert.ReferenceIdeal.Fns.var128 (F := Ideal) (kz1 m c) (constantI S_ 32 0#32)) Cert.KernelIdeal.Facts₀.shapeCasts_S128_S1x128) (shapeCast S1x128 (m ((c.tc : Thread nD τ).loc main_arg4)) Cert.KernelIdeal.Facts₀.shapeCasts_S128_S1x128) (shapeCast S1x128 (m ((c.tc : Thread nD τ).loc main_arg5)) Cert.KernelIdeal.Facts₀.shapeCasts_S128_S1x128))

/-- The second dense layer. -/
def kz2 (c : Dev nD) : FVec Ideal S50000x128 .f32 :=
  (Cert.Spec.affine Cert.ReferenceIdeal.dot_S50000x128_S128x128_S50000x128_1_0_0_1_n_n Cert.ReferenceIdeal.Facts₀.bcast_S1x128_S50000x128_0_1 (kh1 m c) (m ((c.tc : Thread nD τ).loc main_arg6)) (shapeCast S1x128 (m ((c.tc : Thread nD τ).loc main_arg7)) Cert.KernelIdeal.Facts₀.shapeCasts_S128_S1x128))

/-- Normalised, rectified, plus the first layer's output. -/
def kh2 (c : Dev nD) : FVec Ideal S50000x128 .f32 :=
  (Cert.Spec.bnreluSkip Cert.ReferenceIdeal.Facts₀.bcast_S1x128_S50000x128_0_1 (kz2 m c) (shapeCast S1x128 (Cert.ReferenceIdeal.Fns.mean128 (F := Ideal) (kz2 m c)) Cert.KernelIdeal.Facts₀.shapeCasts_S128_S1x128) (shapeCast S1x128 (Cert.ReferenceIdeal.Fns.var128 (F := Ideal) (kz2 m c) (constantI S_ 32 0#32)) Cert.KernelIdeal.Facts₀.shapeCasts_S128_S1x128) (shapeCast S1x128 (m ((c.tc : Thread nD τ).loc main_arg8)) Cert.KernelIdeal.Facts₀.shapeCasts_S128_S1x128) (shapeCast S1x128 (m ((c.tc : Thread nD τ).loc main_arg9)) Cert.KernelIdeal.Facts₀.shapeCasts_S128_S1x128) (kh1 m c))

/-- Propagated along the edges. -/
def kp (c : Dev nD) : FVec Ideal S50000x128 .f32 :=
  (Cert.ReferenceIdeal.Fns.propagate (F := Ideal) (kh2 m c) (m ((c.tc : Thread nD τ).loc main_arg1)) (m ((c.tc : Thread nD τ).loc main_arg10)))

/-- The third dense layer. -/
def kz3 (c : Dev nD) : FVec Ideal S50000x64 .f32 :=
  (Cert.Spec.affine Cert.ReferenceIdeal.dot_S50000x128_S128x64_S50000x64_1_0_0_1_n_n Cert.ReferenceIdeal.Facts₀.bcast_S1x64_S50000x64_0_1 (kp m c) (m ((c.tc : Thread nD τ).loc main_arg11)) (shapeCast S1x64 (m ((c.tc : Thread nD τ).loc main_arg12)) Cert.KernelIdeal.Facts₀.shapeCasts_S64_S1x64))

/-- Normalised and rectified. -/
def kh3 (c : Dev nD) : FVec Ideal S50000x64 .f32 :=
  (Cert.Spec.bnrelu Cert.ReferenceIdeal.Facts₀.bcast_S1x64_S50000x64_0_1 (kz3 m c) (shapeCast S1x64 (Cert.ReferenceIdeal.Fns.mean64 (F := Ideal) (kz3 m c)) Cert.KernelIdeal.Facts₀.shapeCasts_S64_S1x64) (shapeCast S1x64 (Cert.ReferenceIdeal.Fns.var64 (F := Ideal) (kz3 m c) (constantI S_ 32 0#32)) Cert.KernelIdeal.Facts₀.shapeCasts_S64_S1x64) (shapeCast S1x64 (m ((c.tc : Thread nD τ).loc main_arg13)) Cert.KernelIdeal.Facts₀.shapeCasts_S64_S1x64) (shapeCast S1x64 (m ((c.tc : Thread nD τ).loc main_arg14)) Cert.KernelIdeal.Facts₀.shapeCasts_S64_S1x64))

/-- The output layer. -/
def kout (c : Dev nD) : FVec Ideal S50000x1000 .f32 :=
  (Cert.Spec.affine Cert.ReferenceIdeal.dot_S50000x64_S64x1000_S50000x1000_1_0_0_1_n_n Cert.ReferenceIdeal.Facts₀.bcast_S1x1000_S50000x1000_0_1 (kh3 m c) (m ((c.tc : Thread nD τ).loc main_arg15)) (shapeCast S1x1000 (m ((c.tc : Thread nD τ).loc main_arg16)) Cert.KernelIdeal.Facts₀.shapeCasts_S1000_S1x1000))

set_option maxHeartbeats 4000000 in
theorem at1_v0 (c : Dev nD) : W1 m ρ c (Proc.devRef .tc main_v0) = (shapeCast S1x128 (m ((c.tc : Thread nD τ).loc main_arg3)) Cert.KernelIdeal.Facts₀.shapeCasts_S128_S1x128) :=
  row0 (W0 m ρ c)

set_option maxHeartbeats 4000000 in
theorem at2_v1 (c : Dev nD) : W2 m ρ c (Proc.devRef .tc main_v1) = kz1 m c :=
  (W2_arr m ρ c 3).trans ((val0 (V1 m ρ) c Cert.ReferenceIdeal.dot_S50000x128_S128x128_S50000x128_1_0_0_1_n_n plain1 Cert.ReferenceIdeal.Facts₀.bcast_S1x128_S50000x128_0_1).trans (by
    rw [show V1 m ρ c (Pipeline.arrRef spec0 0) = (m ((c.tc : Thread nD τ).loc main_arg0)) from arg0_at1 m ρ c,
      show V1 m ρ c (Pipeline.arrRef spec0 1) = (m ((c.tc : Thread nD τ).loc main_arg2)) from arg2_at1 m ρ c,
      show V1 m ρ c (Pipeline.arrRef spec0 2) = (shapeCast S1x128 (m ((c.tc : Thread nD τ).loc main_arg3)) Cert.KernelIdeal.Facts₀.shapeCasts_S128_S1x128) from at1_v0 m ρ c]
    rfl))

set_option maxHeartbeats 4000000 in
theorem at5_v6 (c : Dev nD) : W5 m ρ c (Proc.devRef .tc main_v6) = (shapeCast S1x128 (Cert.ReferenceIdeal.Fns.mean128 (F := Ideal) (kz1 m c)) Cert.KernelIdeal.Facts₀.shapeCasts_S128_S1x128) :=
  (blk1_mean (W2 m ρ c)).trans (by rw [at2_v1 m ρ c])

set_option maxHeartbeats 4000000 in
theorem at5_v7 (c : Dev nD) : W5 m ρ c (Proc.devRef .tc main_v7) = (shapeCast S1x128 (Cert.ReferenceIdeal.Fns.var128 (F := Ideal) (kz1 m c) (constantI S_ 32 0#32)) Cert.KernelIdeal.Facts₀.shapeCasts_S128_S1x128) :=
  (blk1_var (W2 m ρ c)).trans (by rw [at2_v1 m ρ c])

set_option maxHeartbeats 4000000 in
theorem at5_v8 (c : Dev nD) : W5 m ρ c (Proc.devRef .tc main_v8) = (shapeCast S1x128 (m ((c.tc : Thread nD τ).loc main_arg4)) Cert.KernelIdeal.Facts₀.shapeCasts_S128_S1x128) :=
  (blk1_g (W2 m ρ c)).trans (by rw [arg4_at2 m ρ c])

set_option maxHeartbeats 4000000 in
theorem at5_v9 (c : Dev nD) : W5 m ρ c (Proc.devRef .tc main_v9) = (shapeCast S1x128 (m ((c.tc : Thread nD τ).loc main_arg5)) Cert.KernelIdeal.Facts₀.shapeCasts_S128_S1x128) :=
  (blk1_be (W2 m ρ c)).trans (by rw [arg5_at2 m ρ c])

set_option maxHeartbeats 4000000 in
theorem at5_v1 (c : Dev nD) : W5 m ρ c (Proc.devRef .tc main_v1) = kz1 m c :=
  (blk1_z (W2 m ρ c)).trans (at2_v1 m ρ c)

set_option maxHeartbeats 4000000 in
theorem at6_v10 (c : Dev nD) : W6 m ρ c (Proc.devRef .tc main_v10) = kh1 m c :=
  (W6_arr m ρ c 5).trans ((val1 (V5 m ρ) c Cert.ReferenceIdeal.Facts₀.bcast_S1x128_S50000x128_0_1).trans (by
    rw [show V5 m ρ c (Pipeline.arrRef spec1 0) = kz1 m c from at5_v1 m ρ c,
      show V5 m ρ c (Pipeline.arrRef spec1 1) = (shapeCast S1x128 (Cert.ReferenceIdeal.Fns.mean128 (F := Ideal) (kz1 m c)) Cert.KernelIdeal.Facts₀.shapeCasts_S128_S1x128) from at5_v6 m ρ c,
      show V5 m ρ c (Pipeline.arrRef spec1 2) = (shapeCast S1x128 (Cert.ReferenceIdeal.Fns.var128 (F := Ideal) (kz1 m c) (constantI S_ 32 0#32)) Cert.KernelIdeal.Facts₀.shapeCasts_S128_S1x128) from at5_v7 m ρ c,
      show V5 m ρ c (Pipeline.arrRef spec1 3) = (shapeCast S1x128 (m ((c.tc : Thread nD τ).loc main_arg4)) Cert.KernelIdeal.Facts₀.shapeCasts_S128_S1x128) from at5_v8 m ρ c,
      show V5 m ρ c (Pipeline.arrRef spec1 4) = (shapeCast S1x128 (m ((c.tc : Thread nD τ).loc main_arg5)) Cert.KernelIdeal.Facts₀.shapeCasts_S128_S1x128) from at5_v9 m ρ c]
    rfl))

set_option maxHeartbeats 4000000 in
theorem at7_v11 (c : Dev nD) : W7 m ρ c (Proc.devRef .tc main_v11) = (shapeCast S1x128 (m ((c.tc : Thread nD τ).loc main_arg7)) Cert.KernelIdeal.Facts₀.shapeCasts_S128_S1x128) :=
  (row2 (W6 m ρ c)).trans (by rw [arg7_at6 m ρ c])

set_option maxHeartbeats 4000000 in
theorem at7_v10 (c : Dev nD) : W7 m ρ c (Proc.devRef .tc main_v10) = kh1 m c :=
  (row2_h (W6 m ρ c)).trans (at6_v10 m ρ c)

set_option maxHeartbeats 4000000 in
theorem at7_arg6 (c : Dev nD) : W7 m ρ c (Proc.devRef .tc main_arg6) = (m ((c.tc : Thread nD τ).loc main_arg6)) :=
  (keepArgs_hostOps2 _ main_arg6 (by decide)).trans (arg6_at6 m ρ c)

set_option maxHeartbeats 4000000 in
theorem at8_v12 (c : Dev nD) : W8 m ρ c (Proc.devRef .tc main_v12) = kz2 m c :=
  (W8_arr m ρ c 3).trans ((val2 (V7 m ρ) c Cert.ReferenceIdeal.dot_S50000x128_S128x128_S50000x128_1_0_0_1_n_n plain1 Cert.ReferenceIdeal.Facts₀.bcast_S1x128_S50000x128_0_1).trans (by
    rw [show V7 m ρ c (Pipeline.arrRef spec2 0) = kh1 m c from at7_v10 m ρ c,
      show V7 m ρ c (Pipeline.arrRef spec2 1) = (m ((c.tc : Thread nD τ).loc main_arg6)) from at7_arg6 m ρ c,
      show V7 m ρ c (Pipeline.arrRef spec2 2) = (shapeCast S1x128 (m ((c.tc : Thread nD τ).loc main_arg7)) Cert.KernelIdeal.Facts₀.shapeCasts_S128_S1x128) from at7_v11 m ρ c]
    rfl))

set_option maxHeartbeats 4000000 in
theorem at8_v10 (c : Dev nD) : W8 m ρ c (Proc.devRef .tc main_v10) = kh1 m c :=
  ((W8_arr m ρ c 0).trans (((dat2 (V7 m ρ) c).arrAt_in 0 rfl _).trans (A_eq2 (V7 m ρ) c 0))).trans (at7_v10 m ρ c)

set_option maxHeartbeats 4000000 in
theorem at11_v17 (c : Dev nD) : W11 m ρ c (Proc.devRef .tc main_v17) = (shapeCast S1x128 (Cert.ReferenceIdeal.Fns.mean128 (F := Ideal) (kz2 m c)) Cert.KernelIdeal.Facts₀.shapeCasts_S128_S1x128) :=
  (blk3_mean (W8 m ρ c)).trans (by rw [at8_v12 m ρ c])

set_option maxHeartbeats 4000000 in
theorem at11_v18 (c : Dev nD) : W11 m ρ c (Proc.devRef .tc main_v18) = (shapeCast S1x128 (Cert.ReferenceIdeal.Fns.var128 (F := Ideal) (kz2 m c) (constantI S_ 32 0#32)) Cert.KernelIdeal.Facts₀.shapeCasts_S128_S1x128) :=
  (blk3_var (W8 m ρ c)).trans (by rw [at8_v12 m ρ c])

set_option maxHeartbeats 4000000 in
theorem at11_v19 (c : Dev nD) : W11 m ρ c (Proc.devRef .tc main_v19) = (shapeCast S1x128 (m ((c.tc : Thread nD τ).loc main_arg8)) Cert.KernelIdeal.Facts₀.shapeCasts_S128_S1x128) :=
  (blk3_g (W8 m ρ c)).trans (by rw [arg8_at8 m ρ c])

set_option maxHeartbeats 4000000 in
theorem at11_v20 (c : Dev nD) : W11 m ρ c (Proc.devRef .tc main_v20) = (shapeCast S1x128 (m ((c.tc : Thread nD τ).loc main_arg9)) Cert.KernelIdeal.Facts₀.shapeCasts_S128_S1x128) :=
  (blk3_be (W8 m ρ c)).trans (by rw [arg9_at8 m ρ c])

set_option maxHeartbeats 4000000 in
theorem at11_v12 (c : Dev nD) : W11 m ρ c (Proc.devRef .tc main_v12) = kz2 m c :=
  (blk3_z (W8 m ρ c)).trans (at8_v12 m ρ c)

set_option maxHeartbeats 4000000 in
theorem at11_v10 (c : Dev nD) : W11 m ρ c (Proc.devRef .tc main_v10) = kh1 m c :=
  (blk3_h (W8 m ρ c)).trans (at8_v10 m ρ c)

set_option maxHeartbeats 4000000 in
theorem at12_v21 (c : Dev nD) : W12 m ρ c (Proc.devRef .tc main_v21) = kh2 m c :=
  (W12_arr m ρ c 6).trans ((val3 (V11 m ρ) c Cert.ReferenceIdeal.Facts₀.bcast_S1x128_S50000x128_0_1).trans (by
    rw [show V11 m ρ c (Pipeline.arrRef spec3 0) = kz2 m c from at11_v12 m ρ c,
      show V11 m ρ c (Pipeline.arrRef spec3 1) = (shapeCast S1x128 (Cert.ReferenceIdeal.Fns.mean128 (F := Ideal) (kz2 m c)) Cert.KernelIdeal.Facts₀.shapeCasts_S128_S1x128) from at11_v17 m ρ c,
      show V11 m ρ c (Pipeline.arrRef spec3 2) = (shapeCast S1x128 (Cert.ReferenceIdeal.Fns.var128 (F := Ideal) (kz2 m c) (constantI S_ 32 0#32)) Cert.KernelIdeal.Facts₀.shapeCasts_S128_S1x128) from at11_v18 m ρ c,
      show V11 m ρ c (Pipeline.arrRef spec3 3) = (shapeCast S1x128 (m ((c.tc : Thread nD τ).loc main_arg8)) Cert.KernelIdeal.Facts₀.shapeCasts_S128_S1x128) from at11_v19 m ρ c,
      show V11 m ρ c (Pipeline.arrRef spec3 4) = (shapeCast S1x128 (m ((c.tc : Thread nD τ).loc main_arg9)) Cert.KernelIdeal.Facts₀.shapeCasts_S128_S1x128) from at11_v20 m ρ c,
      show V11 m ρ c (Pipeline.arrRef spec3 5) = kh1 m c from at11_v10 m ρ c]
    rfl))

set_option maxHeartbeats 4000000 in
theorem at13_v189 (c : Dev nD) : W13 m ρ c (Proc.devRef .tc main_v189) = kp m c :=
  (prop4 (W12 m ρ c)).trans (by
    rw [at12_v21 m ρ c, arg1_at12 m ρ c, arg10_at12 m ρ c]
    rfl)

set_option maxHeartbeats 4000000 in
theorem at13_v190 (c : Dev nD) : W13 m ρ c (Proc.devRef .tc main_v190) = (shapeCast S1x64 (m ((c.tc : Thread nD τ).loc main_arg12)) Cert.KernelIdeal.Facts₀.shapeCasts_S64_S1x64) :=
  (row4 (W12 m ρ c)).trans (by rw [arg12_at12 m ρ c])

set_option maxHeartbeats 4000000 in
theorem at13_arg11 (c : Dev nD) : W13 m ρ c (Proc.devRef .tc main_arg11) = (m ((c.tc : Thread nD τ).loc main_arg11)) :=
  (keepArgs_hostOps4 _ main_arg11 (by decide)).trans (arg11_at12 m ρ c)

set_option maxHeartbeats 4000000 in
theorem at14_v191 (c : Dev nD) : W14 m ρ c (Proc.devRef .tc main_v191) = kz3 m c :=
  (W14_arr m ρ c 3).trans ((val4 (V13 m ρ) c Cert.ReferenceIdeal.dot_S50000x128_S128x64_S50000x64_1_0_0_1_n_n plain3 Cert.ReferenceIdeal.Facts₀.bcast_S1x64_S50000x64_0_1).trans (by
    rw [show V13 m ρ c (Pipeline.arrRef spec4 0) = kp m c from at13_v189 m ρ c,
      show V13 m ρ c (Pipeline.arrRef spec4 1) = (m ((c.tc : Thread nD τ).loc main_arg11)) from at13_arg11 m ρ c,
      show V13 m ρ c (Pipeline.arrRef spec4 2) = (shapeCast S1x64 (m ((c.tc : Thread nD τ).loc main_arg12)) Cert.KernelIdeal.Facts₀.shapeCasts_S64_S1x64) from at13_v190 m ρ c]
    rfl))

set_option maxHeartbeats 4000000 in
theorem at17_v196 (c : Dev nD) : W17 m ρ c (Proc.devRef .tc main_v196) = (shapeCast S1x64 (Cert.ReferenceIdeal.Fns.mean64 (F := Ideal) (kz3 m c)) Cert.KernelIdeal.Facts₀.shapeCasts_S64_S1x64) :=
  (blk5_mean (W14 m ρ c)).trans (by rw [at14_v191 m ρ c])

set_option maxHeartbeats 4000000 in
theorem at17_v197 (c : Dev nD) : W17 m ρ c (Proc.devRef .tc main_v197) = (shapeCast S1x64 (Cert.ReferenceIdeal.Fns.var64 (F := Ideal) (kz3 m c) (constantI S_ 32 0#32)) Cert.KernelIdeal.Facts₀.shapeCasts_S64_S1x64) :=
  (blk5_var (W14 m ρ c)).trans (by rw [at14_v191 m ρ c])

set_option maxHeartbeats 4000000 in
theorem at17_v198 (c : Dev nD) : W17 m ρ c (Proc.devRef .tc main_v198) = (shapeCast S1x64 (m ((c.tc : Thread nD τ).loc main_arg13)) Cert.KernelIdeal.Facts₀.shapeCasts_S64_S1x64) :=
  (blk5_g (W14 m ρ c)).trans (by rw [arg13_at14 m ρ c])

set_option maxHeartbeats 4000000 in
theorem at17_v199 (c : Dev nD) : W17 m ρ c (Proc.devRef .tc main_v199) = (shapeCast S1x64 (m ((c.tc : Thread nD τ).loc main_arg14)) Cert.KernelIdeal.Facts₀.shapeCasts_S64_S1x64) :=
  (blk5_be (W14 m ρ c)).trans (by rw [arg14_at14 m ρ c])

set_option maxHeartbeats 4000000 in
theorem at17_v191 (c : Dev nD) : W17 m ρ c (Proc.devRef .tc main_v191) = kz3 m c :=
  (blk5_z (W14 m ρ c)).trans (at14_v191 m ρ c)

set_option maxHeartbeats 4000000 in
theorem at18_v200 (c : Dev nD) : W18 m ρ c (Proc.devRef .tc main_v200) = kh3 m c :=
  (W18_arr m ρ c 5).trans ((val5 (V17 m ρ) c Cert.ReferenceIdeal.Facts₀.bcast_S1x64_S50000x64_0_1).trans (by
    rw [show V17 m ρ c (Pipeline.arrRef spec5 0) = kz3 m c from at17_v191 m ρ c,
      show V17 m ρ c (Pipeline.arrRef spec5 1) = (shapeCast S1x64 (Cert.ReferenceIdeal.Fns.mean64 (F := Ideal) (kz3 m c)) Cert.KernelIdeal.Facts₀.shapeCasts_S64_S1x64) from at17_v196 m ρ c,
      show V17 m ρ c (Pipeline.arrRef spec5 2) = (shapeCast S1x64 (Cert.ReferenceIdeal.Fns.var64 (F := Ideal) (kz3 m c) (constantI S_ 32 0#32)) Cert.KernelIdeal.Facts₀.shapeCasts_S64_S1x64) from at17_v197 m ρ c,
      show V17 m ρ c (Pipeline.arrRef spec5 3) = (shapeCast S1x64 (m ((c.tc : Thread nD τ).loc main_arg13)) Cert.KernelIdeal.Facts₀.shapeCasts_S64_S1x64) from at17_v198 m ρ c,
      show V17 m ρ c (Pipeline.arrRef spec5 4) = (shapeCast S1x64 (m ((c.tc : Thread nD τ).loc main_arg14)) Cert.KernelIdeal.Facts₀.shapeCasts_S64_S1x64) from at17_v199 m ρ c]
    rfl))

set_option maxHeartbeats 4000000 in
theorem at19_v201 (c : Dev nD) : W19 m ρ c (Proc.devRef .tc main_v201) = (shapeCast S1x1000 (m ((c.tc : Thread nD τ).loc main_arg16)) Cert.KernelIdeal.Facts₀.shapeCasts_S1000_S1x1000) :=
  (row6 (W18 m ρ c)).trans (by rw [arg16_at18 m ρ c])

set_option maxHeartbeats 4000000 in
theorem at19_v200 (c : Dev nD) : W19 m ρ c (Proc.devRef .tc main_v200) = kh3 m c :=
  (row6_h (W18 m ρ c)).trans (at18_v200 m ρ c)

set_option maxHeartbeats 4000000 in
theorem at19_arg15 (c : Dev nD) : W19 m ρ c (Proc.devRef .tc main_arg15) = (m ((c.tc : Thread nD τ).loc main_arg15)) :=
  (keepArgs_hostOps6 _ main_arg15 (by decide)).trans (arg15_at18 m ρ c)

set_option maxHeartbeats 4000000 in
/-- When @main returns, the result buffer holds the output layer of the layers before it. -/
theorem kernel_value (c : Dev nD) : W20 m ρ c (Proc.devRef .tc main_v202) = kout m c :=
  (W20_arr m ρ c 3).trans ((val6 (V19 m ρ) c Cert.ReferenceIdeal.dot_S50000x64_S64x1000_S50000x1000_1_0_0_1_n_n plain4 Cert.ReferenceIdeal.Facts₀.bcast_S1x1000_S50000x1000_0_1).trans (by
    rw [show V19 m ρ c (Pipeline.arrRef spec6 0) = kh3 m c from at19_v200 m ρ c,
      show V19 m ρ c (Pipeline.arrRef spec6 1) = (m ((c.tc : Thread nD τ).loc main_arg15)) from at19_arg15 m ρ c,
      show V19 m ρ c (Pipeline.arrRef spec6 2) = (shapeCast S1x1000 (m ((c.tc : Thread nD τ).loc main_arg16)) Cert.KernelIdeal.Facts₀.shapeCasts_S1000_S1x1000) from at19_v201 m ρ c]
    rfl))

end Cert.KernelIdeal.GenP

end
-- ==== Proof.Bridge.lean ====
/-
  The kernel's spelling of each layer against the reference's. The kernel makes a bias or a statistics vector a 1×N row
  by a reshape and repeats it along the rows inside the launch; the reference broadcasts the vector along a new unit axis
  and then along the rows. A vector reshaped [n] → [1, n] is its broadcast along the new axis, and every operation of a
  layer acts entry by entry, so the two spellings are one function of the same arrays.
-/
import proofs.«123233_j6760278524490_1_alg».proof.Proof.Spec
import proofs.«123233_j6760278524490_1_alg».proof.Proof.RefFns
import proofs.«123233_j6760278524490_1_alg».proof.Proof.LibDenseLayer

noncomputable section

namespace Cert.Bridge

open Idealize.ShloMosaic Cert.ReferenceIdeal Cert.Lib.DenseLayer

variable [Cert.ReferenceIdeal.Facts₀]
open Cert.ReferenceIdeal.Facts₀

/-- A dense layer 128 → 128. -/
theorem dense128_eq (X : FVec Ideal S50000x128 .f32) (W : FVec Ideal S128x128 .f32) (b : FVec Ideal S128 .f32)
    (hc : S128.ShapeCasts S1x128) :
    Cert.Spec.affine dot_S50000x128_S128x128_S50000x128_1_0_0_1_n_n bcast_S1x128_S50000x128_0_1 X W (shapeCast S1x128 b hc)
      = Fns.dense128 (F := Ideal) X W b := by
  rw [addUnit_eq_bcast (by decide) b hc bcast_S128_S1x128_1]
  rfl

/-- A dense layer 128 → 64. -/
theorem dense64_eq (X : FVec Ideal S50000x128 .f32) (W : FVec Ideal S128x64 .f32) (b : FVec Ideal S64 .f32)
    (hc : S64.ShapeCasts S1x64) :
    Cert.Spec.affine dot_S50000x128_S128x64_S50000x64_1_0_0_1_n_n bcast_S1x64_S50000x64_0_1 X W (shapeCast S1x64 b hc)
      = Fns.dense64 (F := Ideal) X W b := by
  rw [addUnit_eq_bcast (by decide) b hc bcast_S64_S1x64_1]
  rfl

/-- The output layer 64 → 1000. -/
theorem dense1000_eq (X : FVec Ideal S50000x64 .f32) (W : FVec Ideal S64x1000 .f32) (b : FVec Ideal S1000 .f32)
    (hc : S1000.ShapeCasts S1x1000) :
    Cert.Spec.affine dot_S50000x64_S64x1000_S50000x1000_1_0_0_1_n_n bcast_S1x1000_S50000x1000_0_1 X W (shapeCast S1x1000 b hc)
      = Fns.dense1000 (F := Ideal) X W b := by
  rw [addUnit_eq_bcast (by decide) b hc bcast_S1000_S1x1000_1]
  rfl

/-- The normalisation layer with the rectifier at width 128. -/
theorem norm128_eq (Z : FVec Ideal S50000x128 .f32) (mean var g be : FVec Ideal S128 .f32) (hc : S128.ShapeCasts S1x128) :
    Cert.Spec.bnrelu bcast_S1x128_S50000x128_0_1 Z (shapeCast S1x128 mean hc) (shapeCast S1x128 var hc)
        (shapeCast S1x128 g hc) (shapeCast S1x128 be hc)
      = Fns.norm128 (F := Ideal) Z mean var g be := by
  rw [addUnit_eq_bcast (by decide) mean hc bcast_S128_S1x128_1, addUnit_eq_bcast (by decide) var hc bcast_S128_S1x128_1,
    addUnit_eq_bcast (by decide) g hc bcast_S128_S1x128_1, addUnit_eq_bcast (by decide) be hc bcast_S128_S1x128_1]
  rfl

/-- The normalisation layer with the rectifier at width 64. -/
theorem norm64_eq (Z : FVec Ideal S50000x64 .f32) (mean var g be : FVec Ideal S64 .f32) (hc : S64.ShapeCasts S1x64) :
    Cert.Spec.bnrelu bcast_S1x64_S50000x64_0_1 Z (shapeCast S1x64 mean hc) (shapeCast S1x64 var hc)
        (shapeCast S1x64 g hc) (shapeCast S1x64 be hc)
      = Fns.norm64 (F := Ideal) Z mean var g be := by
  rw [addUnit_eq_bcast (by decide) mean hc bcast_S64_S1x64_1, addUnit_eq_bcast (by decide) var hc bcast_S64_S1x64_1,
    addUnit_eq_bcast (by decide) g hc bcast_S64_S1x64_1, addUnit_eq_bcast (by decide) be hc bcast_S64_S1x64_1]
  rfl

end Cert.Bridge

end
-- ==== Proof.KFinal.lean ====
/-
  The kernel's layers are the reference's. Stage by stage, the kernel's spelling of a layer (a reshaped row repeated inside
  the launch) equals the reference's (a vector broadcast twice) on equal inputs; the statistics and the propagation are the
  same operations on both sides. So the array the kernel's result buffer ends at is the reference's network of the arguments.
-/
import proofs.«123233_j6760278524490_1_alg».proof.Proof.KChain
import proofs.«123233_j6760278524490_1_alg».proof.Proof.Bridge

noncomputable section

namespace Cert.KernelIdeal.GenP

open Cert.KernelIdeal.Gen
open Idealize.ShloMosaic Idealize.ShloMosaic.TcCoe Idealize.SL.Sem

variable [Cert.ReferenceIdeal.Facts₀]
variable (m : (ℓ : Loc nD τ sig) → Buf (Elt Ideal) ℓ)

/-- The reference's first dense layer of the kernel's arguments. -/
def rz1 (c : Dev nD) : FVec Ideal S50000x128 .f32 :=
  Cert.ReferenceIdeal.Fns.dense128 (F := Ideal) (m ((c.tc : Thread nD τ).loc main_arg0)) (m ((c.tc : Thread nD τ).loc main_arg2)) (m ((c.tc : Thread nD τ).loc main_arg3))

/-- Normalised and rectified. -/
def rh1 (c : Dev nD) : FVec Ideal S50000x128 .f32 :=
  Cert.ReferenceIdeal.Fns.norm128 (F := Ideal) (rz1 m c) (Cert.ReferenceIdeal.Fns.mean128 (F := Ideal) (rz1 m c)) (Cert.ReferenceIdeal.Fns.var128 (F := Ideal) (rz1 m c) (constantI S_ 32 0#32)) (m ((c.tc : Thread nD τ).loc main_arg4)) (m ((c.tc : Thread nD τ).loc main_arg5))

/-- The second dense layer. -/
def rz2 (c : Dev nD) : FVec Ideal S50000x128 .f32 :=
  Cert.ReferenceIdeal.Fns.dense128 (F := Ideal) (rh1 m c) (m ((c.tc : Thread nD τ).loc main_arg6)) (m ((c.tc : Thread nD τ).loc main_arg7))

/-- Normalised, rectified, plus the first layer's output. -/
def rh2 (c : Dev nD) : FVec Ideal S50000x128 .f32 :=
  addf (Cert.ReferenceIdeal.Fns.norm128 (F := Ideal) (rz2 m c) (Cert.ReferenceIdeal.Fns.mean128 (F := Ideal) (rz2 m c)) (Cert.ReferenceIdeal.Fns.var128 (F := Ideal) (rz2 m c) (constantI S_ 32 0#32)) (m ((c.tc : Thread nD τ).loc main_arg8)) (m ((c.tc : Thread nD τ).loc main_arg9))) (rh1 m c)

/-- Propagated along the edges. -/
def rp (c : Dev nD) : FVec Ideal S50000x128 .f32 :=
  Cert.ReferenceIdeal.Fns.propagate (F := Ideal) (rh2 m c) (m ((c.tc : Thread nD τ).loc main_arg1)) (m ((c.tc : Thread nD τ).loc main_arg10))

/-- The third dense layer. -/
def rz3 (c : Dev nD) : FVec Ideal S50000x64 .f32 :=
  Cert.ReferenceIdeal.Fns.dense64 (F := Ideal) (rp m c) (m ((c.tc : Thread nD τ).loc main_arg11)) (m ((c.tc : Thread nD τ).loc main_arg12))

/-- Normalised and rectified. -/
def rh3 (c : Dev nD) : FVec Ideal S50000x64 .f32 :=
  Cert.ReferenceIdeal.Fns.norm64 (F := Ideal) (rz3 m c) (Cert.ReferenceIdeal.Fns.mean64 (F := Ideal) (rz3 m c)) (Cert.ReferenceIdeal.Fns.var64 (F := Ideal) (rz3 m c) (constantI S_ 32 0#32)) (m ((c.tc : Thread nD τ).loc main_arg13)) (m ((c.tc : Thread nD τ).loc main_arg14))

/-- The output layer. -/
def rout (c : Dev nD) : FVec Ideal S50000x1000 .f32 :=
  Cert.ReferenceIdeal.Fns.dense1000 (F := Ideal) (rh3 m c) (m ((c.tc : Thread nD τ).loc main_arg15)) (m ((c.tc : Thread nD τ).loc main_arg16))

/-- The reference's network of the kernel's arguments, layer by layer. -/
theorem network_eq (c : Dev nD) :
    Cert.ReferenceIdeal.Fns.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = rout m c := rfl

theorem kz1_eq (c : Dev nD) : kz1 m c = rz1 m c := Cert.Bridge.dense128_eq _ _ _ _

theorem kh1_eq (c : Dev nD) : kh1 m c = rh1 m c := by
  unfold kh1 rh1; rw [kz1_eq m c]; exact Cert.Bridge.norm128_eq _ _ _ _ _ _

theorem kz2_eq (c : Dev nD) : kz2 m c = rz2 m c := by
  unfold kz2 rz2; rw [kh1_eq m c]; exact Cert.Bridge.dense128_eq _ _ _ _

theorem kh2_eq (c : Dev nD) : kh2 m c = rh2 m c := by
  unfold kh2 rh2 Cert.Spec.bnreluSkip; rw [kz2_eq m c, kh1_eq m c, Cert.Bridge.norm128_eq]

theorem kp_eq (c : Dev nD) : kp m c = rp m c := by
  unfold kp rp; rw [kh2_eq m c]

theorem kz3_eq (c : Dev nD) : kz3 m c = rz3 m c := by
  unfold kz3 rz3; rw [kp_eq m c]; exact Cert.Bridge.dense64_eq _ _ _ _

theorem kh3_eq (c : Dev nD) : kh3 m c = rh3 m c := by
  unfold kh3 rh3; rw [kz3_eq m c]; exact Cert.Bridge.norm64_eq _ _ _ _ _ _

/-- The array the kernel's result buffer ends at is the reference's network of the arguments. -/
theorem kout_eq (c : Dev nD) : kout m c = rout m c := by
  unfold kout rout; rw [kh3_eq m c]; exact Cert.Bridge.dense1000_eq _ _ _ _

end Cert.KernelIdeal.GenP

end
-- ==== Proof.RefLine.lean ====
/-
  The reference program's run. Its @main is one straight line of 359 host operations (the functions it calls written out
  at their calls); the line is cut into nine consecutive pieces: the first normalised dense layer, the second with its skip
  connection, the propagation (five pieces), the third normalised dense layer, and the output layer. Every weakly fair
  execution terminates with each buffer at the fold of the operations' results over the launch contents.
-/
import proofs.«123233_j6760278524490_1_alg».proof.Proof.Gen.ReferenceIdeal
import Idealize.ShloMosaic.Lib.StableHlo.Run

noncomputable section

namespace Cert.ReferenceIdeal.Line

open Cert.ReferenceIdeal Idealize.ShloMosaic Idealize.ShloMosaic.TcCoe Idealize.SL.Sem Idealize.ShloMosaic.StableHlo

variable {F : FTy → Type} [FloatOps F] [Facts]
open Facts₀ Facts

/-- Operations 0 to 50 of the line. -/
abbrev sa : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x00000000#32),
    StableHlo.binary main_v3 main_cst main_v4 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v3 : StableHlo.TRef sig ⟨S50000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S128 ![] bcast_S_S128),
    StableHlo.TRef.ternary main_call0.v12 main_call0.v11 main_call0_call0.v1 main_call0_call0.v2 (fun p a b => select (broadcastInDim S128 ![] bcast_S_S128 p) a b),
    StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S50000x128 ![0, 1] bcast_S1x128_S50000x128_0_1 : (⟨S1x128, .f32⟩ : BufTy).Contents (Elt F) → (⟨S50000x128, .f32⟩ : BufTy).Contents (Elt F)),
    StableHlo.binary main_v3 main_v9 main_v10 (subf : (⟨S50000x128, .f32⟩ : BufTy).Contents (Elt F) → (⟨S50000x128, .f32⟩ : BufTy).Contents (Elt F) → (⟨S50000x128, .f32⟩ : BufTy).Contents (Elt F)),
    StableHlo.unary main_arg4 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v10 main_v13 (mulf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v14 (broadcastInDim S128 ![] bcast_S_S128 : (⟨S_, .f32⟩ : BufTy).Contents (Elt F) → (⟨S128, .f32⟩ : BufTy).Contents (Elt F)),
    StableHlo.binary main_v7 main_v14 main_v15 (addf : (⟨S128, .f32⟩ : BufTy).Contents (Elt F) → (⟨S128, .f32⟩ : BufTy).Contents (Elt F) → (⟨S128, .f32⟩ : BufTy).Contents (Elt F)),
    StableHlo.unary main_v15 main_v16 (Host.rsqrt : (⟨S128, .f32⟩ : BufTy).Contents (Elt F) → (⟨S128, .f32⟩ : BufTy).Contents (Elt F)),
    StableHlo.unary main_v16 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v18 main_v19 (mulf : (⟨S50000x128, .f32⟩ : BufTy).Contents (Elt F) → (⟨S50000x128, .f32⟩ : BufTy).Contents (Elt F) → (⟨S50000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v21 main_v22 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v22 : StableHlo.TRef sig ⟨S50000x128, .f32⟩) main_call1.v0 main_call1.v1 maximumf ]

theorem sa_sub : (sa : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem sa_fresh : (sa : List (HloOp τ sig (Elt F))).Forall fun op => op.fresh = ∅ := by
  simp only [List.Forall]; repeat' constructor

/-- Operations 51 to 102 of the line. -/
abbrev sb : List (HloOp τ sig (Elt F)) :=
  [ StableHlo.binary main_v23 main_arg6 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v26 main_v27 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.binary main_v27 main_cst_2 main_v28 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v27 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v27 : StableHlo.TRef sig ⟨S50000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S128 ![] bcast_S_S128),
    StableHlo.TRef.ternary main_call2.v12 main_call2.v11 main_call2_call0.v1 main_call2_call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v33 main_v34 (subf : (⟨S50000x128, .f32⟩ : BufTy).Contents (Elt F) → (⟨S50000x128, .f32⟩ : BufTy).Contents (Elt F) → (⟨S50000x128, .f32⟩ : BufTy).Contents (Elt F)),
    StableHlo.unary main_arg8 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v34 main_v37 (mulf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v38 (broadcastInDim S128 ![] bcast_S_S128 : (⟨S_, .f32⟩ : BufTy).Contents (Elt F) → (⟨S128, .f32⟩ : BufTy).Contents (Elt F)),
    StableHlo.binary main_v31 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v42 main_v43 (mulf : (⟨S50000x128, .f32⟩ : BufTy).Contents (Elt F) → (⟨S50000x128, .f32⟩ : BufTy).Contents (Elt F) → (⟨S50000x128, .f32⟩ : BufTy).Contents (Elt F)),
    StableHlo.unary main_arg9 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v46 : StableHlo.TRef sig ⟨S50000x128, .f32⟩) main_call3.v0 main_call3.v1 maximumf,
    StableHlo.binary main_v47 main_v23 main_v48 (addf : (⟨S50000x128, .f32⟩ : BufTy).Contents (Elt F) → (⟨S50000x128, .f32⟩ : BufTy).Contents (Elt F) → (⟨S50000x128, .f32⟩ : BufTy).Contents (Elt F)) ]

theorem sb_sub : (sb : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem sb_fresh : (sb : List (HloOp τ sig (Elt F))).Forall fun op => op.fresh = ∅ := by
  simp only [List.Forall]; repeat' constructor

/-- Operations 103 to 105 of the line. -/
abbrev sc : List (HloOp τ sig (Elt F)) :=
  [ StableHlo.unary main_arg1 main_v49 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v49 main_v50 rfl shapeCasts_S1x800000_S800000,
    StableHlo.unary main_arg1 main_v51 ((extractStridedSlice S1x800000 ![1, 0] · slices_S2x800000_S1x800000_1_0) : (⟨S2x800000, .i32⟩ : BufTy).Contents (Elt F) → (⟨S1x800000, .i32⟩ : BufTy).Contents (Elt F)) ]

theorem sc_sub : (sc : List (HloOp τ sig (Elt F))).Forall fun op => op.bufs ⊆ tcRefs τ sig :=
  ⟨unary_bufs_sub .., reshape_bufs_sub .., unary_bufs_sub ..⟩

theorem sc_fresh : (sc : List (HloOp τ sig (Elt F))).Forall fun op => op.fresh = ∅ := by
  simp only [List.Forall]; repeat' constructor

/-- Operations 106 to 165 of the line. -/
abbrev sd : List (HloOp τ sig (Elt F)) :=
  [ StableHlo.reshape main_v51 main_v52 rfl shapeCasts_S1x800000_S800000,
    StableHlo.nullary main_cst_6 (constant S_ .f32 0xFF800000#32),
    StableHlo.binary main_arg10 main_cst_6 main_v53 ((fun x v => Host.reduce FloatOps.maximumf x v reducesTo_S11_S_d0 h_S_) : (⟨S11, .f32⟩ : BufTy).Contents (Elt F) → (⟨S_, .f32⟩ : BufTy).Contents (Elt F) → (⟨S_, .f32⟩ : BufTy).Contents (Elt F)),
    StableHlo.nullary main_cst_7 (constant S_ .f32 0xFF800000#32),
    StableHlo.binary main_cst_7 main_v53 main_v54 (maximumf : (⟨S_, .f32⟩ : BufTy).Contents (Elt F) → (⟨S_, .f32⟩ : BufTy).Contents (Elt F) → (⟨S_, .f32⟩ : BufTy).Contents (Elt F)),
    StableHlo.unary main_v54 main_v55 (broadcastInDim S1 ![] bcast_S_S1 : (⟨S_, .f32⟩ : BufTy).Contents (Elt F) → (⟨S1, .f32⟩ : BufTy).Contents (Elt F)),
    StableHlo.unary main_v55 main_v56 (broadcastInDim S11 ![0] bcast_S1_S11_0 : (⟨S1, .f32⟩ : BufTy).Contents (Elt F) → (⟨S11, .f32⟩ : BufTy).Contents (Elt F)),
    StableHlo.binary main_arg10 main_v56 main_v57 (subf : (⟨S11, .f32⟩ : BufTy).Contents (Elt F) → (⟨S11, .f32⟩ : BufTy).Contents (Elt F) → (⟨S11, .f32⟩ : BufTy).Contents (Elt F)),
    StableHlo.unary main_v57 main_v58 (Host.exp : (⟨S11, .f32⟩ : BufTy).Contents (Elt F) → (⟨S11, .f32⟩ : BufTy).Contents (Elt F)),
    StableHlo.nullary main_cst_8 (constant S_ .f32 0x00000000#32),
    StableHlo.binary main_v58 main_cst_8 main_v59 ((fun x v => Host.reduceAdd x v reducesTo_S11_S_d0 h_S_) : (⟨S11, .f32⟩ : BufTy).Contents (Elt F) → (⟨S_, .f32⟩ : BufTy).Contents (Elt F) → (⟨S_, .f32⟩ : BufTy).Contents (Elt F)),
    StableHlo.unary main_v59 main_v60 (broadcastInDim S1 ![] bcast_S_S1 : (⟨S_, .f32⟩ : BufTy).Contents (Elt F) → (⟨S1, .f32⟩ : BufTy).Contents (Elt F)),
    StableHlo.unary main_v60 main_v61 (broadcastInDim S11 ![0] bcast_S1_S11_0 : (⟨S1, .f32⟩ : BufTy).Contents (Elt F) → (⟨S11, .f32⟩ : BufTy).Contents (Elt F)),
    StableHlo.binary main_v58 main_v61 main_v62 (Host.divf : (⟨S11, .f32⟩ : BufTy).Contents (Elt F) → (⟨S11, .f32⟩ : BufTy).Contents (Elt F) → (⟨S11, .f32⟩ : BufTy).Contents (Elt F)),
    StableHlo.unary main_v62 main_v63 ((extractStridedSlice S1 ![0] · slices_S11_S1_0) : (⟨S11, .f32⟩ : BufTy).Contents (Elt F) → (⟨S1, .f32⟩ : BufTy).Contents (Elt F)),
    StableHlo.reshape main_v63 main_v64 rfl shapeCasts_S1_S_,
    StableHlo.unary main_v64 main_v65 (broadcastInDim S50000x128 ![] bcast_S_S50000x128 : (⟨S_, .f32⟩ : BufTy).Contents (Elt F) → (⟨S50000x128, .f32⟩ : BufTy).Contents (Elt F)),
    StableHlo.binary main_v65 main_v48 main_v66 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v67 (broadcastInDim S800000 ![] bcast_S_S800000 : (⟨S_, .i32⟩ : BufTy).Contents (Elt F) → (⟨S800000, .i32⟩ : BufTy).Contents (Elt F)),
    StableHlo.binary main_v50 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v69 (broadcastInDim S800000 ![] bcast_S_S800000 : (⟨S_, .i32⟩ : BufTy).Contents (Elt F) → (⟨S800000, .i32⟩ : BufTy).Contents (Elt F)),
    StableHlo.binary main_v50 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_v50 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v48 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v74 (broadcastInDim S50000x128 ![] bcast_S_S50000x128 : (⟨S_, .f32⟩ : BufTy).Contents (Elt F) → (⟨S50000x128, .f32⟩ : BufTy).Contents (Elt F)),
    StableHlo.unary main_v52 main_v75 (broadcastInDim S800000x1 ![0] bcast_S800000_S800000x1_0 : (⟨S800000, .i32⟩ : BufTy).Contents (Elt F) → (⟨S800000x1, .i32⟩ : BufTy).Contents (Elt F)),
    StableHlo.ternary main_v74 main_v75 main_v73 main_v76 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v77 ((extractStridedSlice S1 ![1] · slices_S11_S1_1) : (⟨S11, .f32⟩ : BufTy).Contents (Elt F) → (⟨S1, .f32⟩ : BufTy).Contents (Elt F)),
    StableHlo.reshape main_v77 main_v78 rfl shapeCasts_S1_S_,
    StableHlo.unary main_v78 main_v79 (broadcastInDim S50000x128 ![] bcast_S_S50000x128 : (⟨S_, .f32⟩ : BufTy).Contents (Elt F) → (⟨S50000x128, .f32⟩ : BufTy).Contents (Elt F)),
    StableHlo.binary main_v79 main_v76 main_v80 (mulf : (⟨S50000x128, .f32⟩ : BufTy).Contents (Elt F) → (⟨S50000x128, .f32⟩ : BufTy).Contents (Elt F) → (⟨S50000x128, .f32⟩ : BufTy).Contents (Elt F)),
    StableHlo.binary main_v66 main_v80 main_v81 (addf : (⟨S50000x128, .f32⟩ : BufTy).Contents (Elt F) → (⟨S50000x128, .f32⟩ : BufTy).Contents (Elt F) → (⟨S50000x128, .f32⟩ : BufTy).Contents (Elt F)),
    StableHlo.nullary main_c_12 (constantI S_ 32 0#32),
    StableHlo.unary main_c_12 main_v82 (broadcastInDim S800000 ![] bcast_S_S800000 : (⟨S_, .i32⟩ : BufTy).Contents (Elt F) → (⟨S800000, .i32⟩ : BufTy).Contents (Elt F)),
    StableHlo.binary main_v50 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v84 (broadcastInDim S800000 ![] bcast_S_S800000 : (⟨S_, .i32⟩ : BufTy).Contents (Elt F) → (⟨S800000, .i32⟩ : BufTy).Contents (Elt F)),
    StableHlo.binary main_v50 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v50 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v76 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v89 (broadcastInDim S50000x128 ![] bcast_S_S50000x128 : (⟨S_, .f32⟩ : BufTy).Contents (Elt F) → (⟨S50000x128, .f32⟩ : BufTy).Contents (Elt F)),
    StableHlo.unary main_v52 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v92 ((extractStridedSlice S1 ![2] · slices_S11_S1_2) : (⟨S11, .f32⟩ : BufTy).Contents (Elt F) → (⟨S1, .f32⟩ : BufTy).Contents (Elt F)),
    StableHlo.reshape main_v92 main_v93 rfl shapeCasts_S1_S_,
    StableHlo.unary main_v93 main_v94 (broadcastInDim S50000x128 ![] bcast_S_S50000x128 : (⟨S_, .f32⟩ : BufTy).Contents (Elt F) → (⟨S50000x128, .f32⟩ : BufTy).Contents (Elt F)),
    StableHlo.binary main_v94 main_v91 main_v95 (mulf : (⟨S50000x128, .f32⟩ : BufTy).Contents (Elt F) → (⟨S50000x128, .f32⟩ : BufTy).Contents (Elt F) → (⟨S50000x128, .f32⟩ : BufTy).Contents (Elt F)),
    StableHlo.binary main_v81 main_v95 main_v96 (addf : (⟨S50000x128, .f32⟩ : BufTy).Contents (Elt F) → (⟨S50000x128, .f32⟩ : BufTy).Contents (Elt F) → (⟨S50000x128, .f32⟩ : BufTy).Contents (Elt F)),
    StableHlo.nullary main_c_15 (constantI S_ 32 0#32),
    StableHlo.unary main_c_15 main_v97 (broadcastInDim S800000 ![] bcast_S_S800000 : (⟨S_, .i32⟩ : BufTy).Contents (Elt F) → (⟨S800000, .i32⟩ : BufTy).Contents (Elt F)),
    StableHlo.binary main_v50 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v99 (broadcastInDim S800000 ![] bcast_S_S800000 : (⟨S_, .i32⟩ : BufTy).Contents (Elt F) → (⟨S800000, .i32⟩ : BufTy).Contents (Elt F)),
    StableHlo.binary main_v50 main_v99 main_v100 (addi : (⟨S800000, .i32⟩ : BufTy).Contents (Elt F) → (⟨S800000, .i32⟩ : BufTy).Contents (Elt F) → (⟨S800000, .i32⟩ : BufTy).Contents (Elt F)) ]

theorem sd_sub : (sd : List (HloOp τ sig (Elt F))).Forall fun op => op.bufs ⊆ tcRefs τ sig :=
  ⟨reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub ..⟩

theorem sd_fresh : (sd : List (HloOp τ sig (Elt F))).Forall fun op => op.fresh = ∅ := by
  simp only [List.Forall]; repeat' constructor

/-- Operations 166 to 225 of the line. -/
abbrev se : List (HloOp τ sig (Elt F)) :=
  [ StableHlo.ternary main_v98 main_v100 main_v50 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v91 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v104 (broadcastInDim S50000x128 ![] bcast_S_S50000x128 : (⟨S_, .f32⟩ : BufTy).Contents (Elt F) → (⟨S50000x128, .f32⟩ : BufTy).Contents (Elt F)),
    StableHlo.unary main_v52 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v107 ((extractStridedSlice S1 ![3] · slices_S11_S1_3) : (⟨S11, .f32⟩ : BufTy).Contents (Elt F) → (⟨S1, .f32⟩ : BufTy).Contents (Elt F)),
    StableHlo.reshape main_v107 main_v108 rfl shapeCasts_S1_S_,
    StableHlo.unary main_v108 main_v109 (broadcastInDim S50000x128 ![] bcast_S_S50000x128 : (⟨S_, .f32⟩ : BufTy).Contents (Elt F) → (⟨S50000x128, .f32⟩ : BufTy).Contents (Elt F)),
    StableHlo.binary main_v109 main_v106 main_v110 (mulf : (⟨S50000x128, .f32⟩ : BufTy).Contents (Elt F) → (⟨S50000x128, .f32⟩ : BufTy).Contents (Elt F) → (⟨S50000x128, .f32⟩ : BufTy).Contents (Elt F)),
    StableHlo.binary main_v96 main_v110 main_v111 (addf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v112 (broadcastInDim S800000 ![] bcast_S_S800000 : (⟨S_, .i32⟩ : BufTy).Contents (Elt F) → (⟨S800000, .i32⟩ : BufTy).Contents (Elt F)),
    StableHlo.binary main_v50 main_v112 main_v113 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v114 (broadcastInDim S800000 ![] bcast_S_S800000 : (⟨S_, .i32⟩ : BufTy).Contents (Elt F) → (⟨S800000, .i32⟩ : BufTy).Contents (Elt F)),
    StableHlo.binary main_v50 main_v114 main_v115 (addi : (⟨S800000, .i32⟩ : BufTy).Contents (Elt F) → (⟨S800000, .i32⟩ : BufTy).Contents (Elt F) → (⟨S800000, .i32⟩ : BufTy).Contents (Elt F)),
    StableHlo.ternary main_v113 main_v115 main_v50 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v116 main_v117 (broadcastInDim S800000x1 ![0] bcast_S800000_S800000x1_0 : (⟨S800000, .i32⟩ : BufTy).Contents (Elt F) → (⟨S800000x1, .i32⟩ : BufTy).Contents (Elt F)),
    StableHlo.binary main_v106 main_v117 main_v118 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v119 (broadcastInDim S50000x128 ![] bcast_S_S50000x128 : (⟨S_, .f32⟩ : BufTy).Contents (Elt F) → (⟨S50000x128, .f32⟩ : BufTy).Contents (Elt F)),
    StableHlo.unary main_v52 main_v120 (broadcastInDim S800000x1 ![0] bcast_S800000_S800000x1_0 : (⟨S800000, .i32⟩ : BufTy).Contents (Elt F) → (⟨S800000x1, .i32⟩ : BufTy).Contents (Elt F)),
    StableHlo.ternary main_v119 main_v120 main_v118 main_v121 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v122 ((extractStridedSlice S1 ![4] · slices_S11_S1_4) : (⟨S11, .f32⟩ : BufTy).Contents (Elt F) → (⟨S1, .f32⟩ : BufTy).Contents (Elt F)),
    StableHlo.reshape main_v122 main_v123 rfl shapeCasts_S1_S_,
    StableHlo.unary main_v123 main_v124 (broadcastInDim S50000x128 ![] bcast_S_S50000x128 : (⟨S_, .f32⟩ : BufTy).Contents (Elt F) → (⟨S50000x128, .f32⟩ : BufTy).Contents (Elt F)),
    StableHlo.binary main_v124 main_v121 main_v125 (mulf : (⟨S50000x128, .f32⟩ : BufTy).Contents (Elt F) → (⟨S50000x128, .f32⟩ : BufTy).Contents (Elt F) → (⟨S50000x128, .f32⟩ : BufTy).Contents (Elt F)),
    StableHlo.binary main_v111 main_v125 main_v126 (addf : (⟨S50000x128, .f32⟩ : BufTy).Contents (Elt F) → (⟨S50000x128, .f32⟩ : BufTy).Contents (Elt F) → (⟨S50000x128, .f32⟩ : BufTy).Contents (Elt F)),
    StableHlo.nullary main_c_21 (constantI S_ 32 0#32),
    StableHlo.unary main_c_21 main_v127 (broadcastInDim S800000 ![] bcast_S_S800000 : (⟨S_, .i32⟩ : BufTy).Contents (Elt F) → (⟨S800000, .i32⟩ : BufTy).Contents (Elt F)),
    StableHlo.binary main_v50 main_v127 main_v128 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v129 (broadcastInDim S800000 ![] bcast_S_S800000 : (⟨S_, .i32⟩ : BufTy).Contents (Elt F) → (⟨S800000, .i32⟩ : BufTy).Contents (Elt F)),
    StableHlo.binary main_v50 main_v129 main_v130 (addi : (⟨S800000, .i32⟩ : BufTy).Contents (Elt F) → (⟨S800000, .i32⟩ : BufTy).Contents (Elt F) → (⟨S800000, .i32⟩ : BufTy).Contents (Elt F)),
    StableHlo.ternary main_v128 main_v130 main_v50 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v131 main_v132 (broadcastInDim S800000x1 ![0] bcast_S800000_S800000x1_0 : (⟨S800000, .i32⟩ : BufTy).Contents (Elt F) → (⟨S800000x1, .i32⟩ : BufTy).Contents (Elt F)),
    StableHlo.binary main_v121 main_v132 main_v133 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_23 (constant S_ .f32 0x00000000#32),
    StableHlo.unary main_cst_23 main_v134 (broadcastInDim S50000x128 ![] bcast_S_S50000x128 : (⟨S_, .f32⟩ : BufTy).Contents (Elt F) → (⟨S50000x128, .f32⟩ : BufTy).Contents (Elt F)),
    StableHlo.unary main_v52 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v137 ((extractStridedSlice S1 ![5] · slices_S11_S1_5) : (⟨S11, .f32⟩ : BufTy).Contents (Elt F) → (⟨S1, .f32⟩ : BufTy).Contents (Elt F)),
    StableHlo.reshape main_v137 main_v138 rfl shapeCasts_S1_S_,
    StableHlo.unary main_v138 main_v139 (broadcastInDim S50000x128 ![] bcast_S_S50000x128 : (⟨S_, .f32⟩ : BufTy).Contents (Elt F) → (⟨S50000x128, .f32⟩ : BufTy).Contents (Elt F)),
    StableHlo.binary main_v139 main_v136 main_v140 (mulf : (⟨S50000x128, .f32⟩ : BufTy).Contents (Elt F) → (⟨S50000x128, .f32⟩ : BufTy).Contents (Elt F) → (⟨S50000x128, .f32⟩ : BufTy).Contents (Elt F)),
    StableHlo.binary main_v126 main_v140 main_v141 (addf : (⟨S50000x128, .f32⟩ : BufTy).Contents (Elt F) → (⟨S50000x128, .f32⟩ : BufTy).Contents (Elt F) → (⟨S50000x128, .f32⟩ : BufTy).Contents (Elt F)),
    StableHlo.nullary main_c_24 (constantI S_ 32 0#32),
    StableHlo.unary main_c_24 main_v142 (broadcastInDim S800000 ![] bcast_S_S800000 : (⟨S_, .i32⟩ : BufTy).Contents (Elt F) → (⟨S800000, .i32⟩ : BufTy).Contents (Elt F)),
    StableHlo.binary main_v50 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v144 (broadcastInDim S800000 ![] bcast_S_S800000 : (⟨S_, .i32⟩ : BufTy).Contents (Elt F) → (⟨S800000, .i32⟩ : BufTy).Contents (Elt F)),
    StableHlo.binary main_v50 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v50 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_v136 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_26 (constant S_ .f32 0x00000000#32),
    StableHlo.unary main_cst_26 main_v149 (broadcastInDim S50000x128 ![] bcast_S_S50000x128 : (⟨S_, .f32⟩ : BufTy).Contents (Elt F) → (⟨S50000x128, .f32⟩ : BufTy).Contents (Elt F)),
    StableHlo.unary main_v52 main_v150 (broadcastInDim S800000x1 ![0] bcast_S800000_S800000x1_0 : (⟨S800000, .i32⟩ : BufTy).Contents (Elt F) → (⟨S800000x1, .i32⟩ : BufTy).Contents (Elt F)) ]

theorem se_sub : (se : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

theorem se_fresh : (se : List (HloOp τ sig (Elt F))).Forall fun op => op.fresh = ∅ := by
  simp only [List.Forall]; repeat' constructor

/-- Operations 226 to 285 of the line. -/
abbrev sf : List (HloOp τ sig (Elt F)) :=
  [ StableHlo.ternary main_v149 main_v150 main_v148 main_v151 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v152 ((extractStridedSlice S1 ![6] · slices_S11_S1_6) : (⟨S11, .f32⟩ : BufTy).Contents (Elt F) → (⟨S1, .f32⟩ : BufTy).Contents (Elt F)),
    StableHlo.reshape main_v152 main_v153 rfl shapeCasts_S1_S_,
    StableHlo.unary main_v153 main_v154 (broadcastInDim S50000x128 ![] bcast_S_S50000x128 : (⟨S_, .f32⟩ : BufTy).Contents (Elt F) → (⟨S50000x128, .f32⟩ : BufTy).Contents (Elt F)),
    StableHlo.binary main_v154 main_v151 main_v155 (mulf : (⟨S50000x128, .f32⟩ : BufTy).Contents (Elt F) → (⟨S50000x128, .f32⟩ : BufTy).Contents (Elt F) → (⟨S50000x128, .f32⟩ : BufTy).Contents (Elt F)),
    StableHlo.binary main_v141 main_v155 main_v156 (addf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32),
    StableHlo.unary main_c_27 main_v157 (broadcastInDim S800000 ![] bcast_S_S800000 : (⟨S_, .i32⟩ : BufTy).Contents (Elt F) → (⟨S800000, .i32⟩ : BufTy).Contents (Elt F)),
    StableHlo.binary main_v50 main_v157 main_v158 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v159 (broadcastInDim S800000 ![] bcast_S_S800000 : (⟨S_, .i32⟩ : BufTy).Contents (Elt F) → (⟨S800000, .i32⟩ : BufTy).Contents (Elt F)),
    StableHlo.binary main_v50 main_v159 main_v160 (addi : (⟨S800000, .i32⟩ : BufTy).Contents (Elt F) → (⟨S800000, .i32⟩ : BufTy).Contents (Elt F) → (⟨S800000, .i32⟩ : BufTy).Contents (Elt F)),
    StableHlo.ternary main_v158 main_v160 main_v50 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v161 main_v162 (broadcastInDim S800000x1 ![0] bcast_S800000_S800000x1_0 : (⟨S800000, .i32⟩ : BufTy).Contents (Elt F) → (⟨S800000x1, .i32⟩ : BufTy).Contents (Elt F)),
    StableHlo.binary main_v151 main_v162 main_v163 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v164 (broadcastInDim S50000x128 ![] bcast_S_S50000x128 : (⟨S_, .f32⟩ : BufTy).Contents (Elt F) → (⟨S50000x128, .f32⟩ : BufTy).Contents (Elt F)),
    StableHlo.unary main_v52 main_v165 (broadcastInDim S800000x1 ![0] bcast_S800000_S800000x1_0 : (⟨S800000, .i32⟩ : BufTy).Contents (Elt F) → (⟨S800000x1, .i32⟩ : BufTy).Contents (Elt F)),
    StableHlo.ternary main_v164 main_v165 main_v163 main_v166 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v167 ((extractStridedSlice S1 ![7] · slices_S11_S1_7) : (⟨S11, .f32⟩ : BufTy).Contents (Elt F) → (⟨S1, .f32⟩ : BufTy).Contents (Elt F)),
    StableHlo.reshape main_v167 main_v168 rfl shapeCasts_S1_S_,
    StableHlo.unary main_v168 main_v169 (broadcastInDim S50000x128 ![] bcast_S_S50000x128 : (⟨S_, .f32⟩ : BufTy).Contents (Elt F) → (⟨S50000x128, .f32⟩ : BufTy).Contents (Elt F)),
    StableHlo.binary main_v169 main_v166 main_v170 (mulf : (⟨S50000x128, .f32⟩ : BufTy).Contents (Elt F) → (⟨S50000x128, .f32⟩ : BufTy).Contents (Elt F) → (⟨S50000x128, .f32⟩ : BufTy).Contents (Elt F)),
    StableHlo.binary main_v156 main_v170 main_v171 (addf : (⟨S50000x128, .f32⟩ : BufTy).Contents (Elt F) → (⟨S50000x128, .f32⟩ : BufTy).Contents (Elt F) → (⟨S50000x128, .f32⟩ : BufTy).Contents (Elt F)),
    StableHlo.nullary main_c_30 (constantI S_ 32 0#32),
    StableHlo.unary main_c_30 main_v172 (broadcastInDim S800000 ![] bcast_S_S800000 : (⟨S_, .i32⟩ : BufTy).Contents (Elt F) → (⟨S800000, .i32⟩ : BufTy).Contents (Elt F)),
    StableHlo.binary main_v50 main_v172 main_v173 (cmpi .slt : (⟨S800000, .i32⟩ : BufTy).Contents (Elt F) → (⟨S800000, .i32⟩ : BufTy).Contents (Elt F) → (⟨S800000, .i1⟩ : BufTy).Contents (Elt F)),
    StableHlo.nullary main_c_31 (constantI S_ 32 50000#32),
    StableHlo.unary main_c_31 main_v174 (broadcastInDim S800000 ![] bcast_S_S800000 : (⟨S_, .i32⟩ : BufTy).Contents (Elt F) → (⟨S800000, .i32⟩ : BufTy).Contents (Elt F)),
    StableHlo.binary main_v50 main_v174 main_v175 (addi : (⟨S800000, .i32⟩ : BufTy).Contents (Elt F) → (⟨S800000, .i32⟩ : BufTy).Contents (Elt F) → (⟨S800000, .i32⟩ : BufTy).Contents (Elt F)),
    StableHlo.ternary main_v173 main_v175 main_v50 main_v176 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v176 main_v177 (broadcastInDim S800000x1 ![0] bcast_S800000_S800000x1_0 : (⟨S800000, .i32⟩ : BufTy).Contents (Elt F) → (⟨S800000x1, .i32⟩ : BufTy).Contents (Elt F)),
    StableHlo.binary main_v166 main_v177 main_v178 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_32 (constant S_ .f32 0x00000000#32),
    StableHlo.unary main_cst_32 main_v179 (broadcastInDim S50000x128 ![] bcast_S_S50000x128 : (⟨S_, .f32⟩ : BufTy).Contents (Elt F) → (⟨S50000x128, .f32⟩ : BufTy).Contents (Elt F)),
    StableHlo.unary main_v52 main_v180 (broadcastInDim S800000x1 ![0] bcast_S800000_S800000x1_0 : (⟨S800000, .i32⟩ : BufTy).Contents (Elt F) → (⟨S800000x1, .i32⟩ : BufTy).Contents (Elt F)),
    StableHlo.ternary main_v179 main_v180 main_v178 main_v181 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v182 ((extractStridedSlice S1 ![8] · slices_S11_S1_8) : (⟨S11, .f32⟩ : BufTy).Contents (Elt F) → (⟨S1, .f32⟩ : BufTy).Contents (Elt F)),
    StableHlo.reshape main_v182 main_v183 rfl shapeCasts_S1_S_,
    StableHlo.unary main_v183 main_v184 (broadcastInDim S50000x128 ![] bcast_S_S50000x128 : (⟨S_, .f32⟩ : BufTy).Contents (Elt F) → (⟨S50000x128, .f32⟩ : BufTy).Contents (Elt F)),
    StableHlo.binary main_v184 main_v181 main_v185 (mulf : (⟨S50000x128, .f32⟩ : BufTy).Contents (Elt F) → (⟨S50000x128, .f32⟩ : BufTy).Contents (Elt F) → (⟨S50000x128, .f32⟩ : BufTy).Contents (Elt F)),
    StableHlo.binary main_v171 main_v185 main_v186 (addf : (⟨S50000x128, .f32⟩ : BufTy).Contents (Elt F) → (⟨S50000x128, .f32⟩ : BufTy).Contents (Elt F) → (⟨S50000x128, .f32⟩ : BufTy).Contents (Elt F)),
    StableHlo.nullary main_c_33 (constantI S_ 32 0#32),
    StableHlo.unary main_c_33 main_v187 (broadcastInDim S800000 ![] bcast_S_S800000 : (⟨S_, .i32⟩ : BufTy).Contents (Elt F) → (⟨S800000, .i32⟩ : BufTy).Contents (Elt F)),
    StableHlo.binary main_v50 main_v187 main_v188 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 50000#32),
    StableHlo.unary main_c_34 main_v189 (broadcastInDim S800000 ![] bcast_S_S800000 : (⟨S_, .i32⟩ : BufTy).Contents (Elt F) → (⟨S800000, .i32⟩ : BufTy).Contents (Elt F)),
    StableHlo.binary main_v50 main_v189 main_v190 (addi : (⟨S800000, .i32⟩ : BufTy).Contents (Elt F) → (⟨S800000, .i32⟩ : BufTy).Contents (Elt F) → (⟨S800000, .i32⟩ : BufTy).Contents (Elt F)),
    StableHlo.ternary main_v188 main_v190 main_v50 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v191 main_v192 (broadcastInDim S800000x1 ![0] bcast_S800000_S800000x1_0 : (⟨S800000, .i32⟩ : BufTy).Contents (Elt F) → (⟨S800000x1, .i32⟩ : BufTy).Contents (Elt F)),
    StableHlo.binary main_v181 main_v192 main_v193 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_35 (constant S_ .f32 0x00000000#32),
    StableHlo.unary main_cst_35 main_v194 (broadcastInDim S50000x128 ![] bcast_S_S50000x128 : (⟨S_, .f32⟩ : BufTy).Contents (Elt F) → (⟨S50000x128, .f32⟩ : BufTy).Contents (Elt F)),
    StableHlo.unary main_v52 main_v195 (broadcastInDim S800000x1 ![0] bcast_S800000_S800000x1_0 : (⟨S800000, .i32⟩ : BufTy).Contents (Elt F) → (⟨S800000x1, .i32⟩ : BufTy).Contents (Elt F)),
    StableHlo.ternary main_v194 main_v195 main_v193 main_v196 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v197 ((extractStridedSlice S1 ![9] · slices_S11_S1_9) : (⟨S11, .f32⟩ : BufTy).Contents (Elt F) → (⟨S1, .f32⟩ : BufTy).Contents (Elt F)),
    StableHlo.reshape main_v197 main_v198 rfl shapeCasts_S1_S_,
    StableHlo.unary main_v198 main_v199 (broadcastInDim S50000x128 ![] bcast_S_S50000x128 : (⟨S_, .f32⟩ : BufTy).Contents (Elt F) → (⟨S50000x128, .f32⟩ : BufTy).Contents (Elt F)),
    StableHlo.binary main_v199 main_v196 main_v200 (mulf : (⟨S50000x128, .f32⟩ : BufTy).Contents (Elt F) → (⟨S50000x128, .f32⟩ : BufTy).Contents (Elt F) → (⟨S50000x128, .f32⟩ : BufTy).Contents (Elt F)),
    StableHlo.binary main_v186 main_v200 main_v201 (addf : (⟨S50000x128, .f32⟩ : BufTy).Contents (Elt F) → (⟨S50000x128, .f32⟩ : BufTy).Contents (Elt F) → (⟨S50000x128, .f32⟩ : BufTy).Contents (Elt F)) ]

theorem sf_sub : (sf : List (HloOp τ sig (Elt F))).Forall fun op => op.bufs ⊆ tcRefs τ sig :=
  ⟨ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub ..⟩

theorem sf_fresh : (sf : List (HloOp τ sig (Elt F))).Forall fun op => op.fresh = ∅ := by
  simp only [List.Forall]; repeat' constructor

/-- Operations 286 to 303 of the line. -/
abbrev sg : List (HloOp τ sig (Elt F)) :=
  [ StableHlo.nullary main_c_36 (constantI S_ 32 0#32),
    StableHlo.unary main_c_36 main_v202 (broadcastInDim S800000 ![] bcast_S_S800000 : (⟨S_, .i32⟩ : BufTy).Contents (Elt F) → (⟨S800000, .i32⟩ : BufTy).Contents (Elt F)),
    StableHlo.binary main_v50 main_v202 main_v203 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v204 (broadcastInDim S800000 ![] bcast_S_S800000 : (⟨S_, .i32⟩ : BufTy).Contents (Elt F) → (⟨S800000, .i32⟩ : BufTy).Contents (Elt F)),
    StableHlo.binary main_v50 main_v204 main_v205 (addi : (⟨S800000, .i32⟩ : BufTy).Contents (Elt F) → (⟨S800000, .i32⟩ : BufTy).Contents (Elt F) → (⟨S800000, .i32⟩ : BufTy).Contents (Elt F)),
    StableHlo.ternary main_v203 main_v205 main_v50 main_v206 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v206 main_v207 (broadcastInDim S800000x1 ![0] bcast_S800000_S800000x1_0 : (⟨S800000, .i32⟩ : BufTy).Contents (Elt F) → (⟨S800000x1, .i32⟩ : BufTy).Contents (Elt F)),
    StableHlo.binary main_v196 main_v207 main_v208 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_38 (constant S_ .f32 0x00000000#32),
    StableHlo.unary main_cst_38 main_v209 (broadcastInDim S50000x128 ![] bcast_S_S50000x128 : (⟨S_, .f32⟩ : BufTy).Contents (Elt F) → (⟨S50000x128, .f32⟩ : BufTy).Contents (Elt F)),
    StableHlo.unary main_v52 main_v210 (broadcastInDim S800000x1 ![0] bcast_S800000_S800000x1_0 : (⟨S800000, .i32⟩ : BufTy).Contents (Elt F) → (⟨S800000x1, .i32⟩ : BufTy).Contents (Elt F)),
    StableHlo.ternary main_v209 main_v210 main_v208 main_v211 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v62 main_v212 ((extractStridedSlice S1 ![10] · slices_S11_S1_10) : (⟨S11, .f32⟩ : BufTy).Contents (Elt F) → (⟨S1, .f32⟩ : BufTy).Contents (Elt F)),
    StableHlo.reshape main_v212 main_v213 rfl shapeCasts_S1_S_,
    StableHlo.unary main_v213 main_v214 (broadcastInDim S50000x128 ![] bcast_S_S50000x128 : (⟨S_, .f32⟩ : BufTy).Contents (Elt F) → (⟨S50000x128, .f32⟩ : BufTy).Contents (Elt F)),
    StableHlo.binary main_v214 main_v211 main_v215 (mulf : (⟨S50000x128, .f32⟩ : BufTy).Contents (Elt F) → (⟨S50000x128, .f32⟩ : BufTy).Contents (Elt F) → (⟨S50000x128, .f32⟩ : BufTy).Contents (Elt F)),
    StableHlo.binary main_v201 main_v215 main_v216 (addf : (⟨S50000x128, .f32⟩ : BufTy).Contents (Elt F) → (⟨S50000x128, .f32⟩ : BufTy).Contents (Elt F) → (⟨S50000x128, .f32⟩ : BufTy).Contents (Elt F)) ]

theorem sg_sub : (sg : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub ..⟩

theorem sg_fresh : (sg : List (HloOp τ sig (Elt F))).Forall fun op => op.fresh = ∅ := by
  simp only [List.Forall]; repeat' constructor

/-- Operations 304 to 354 of the line. -/
abbrev sh : List (HloOp τ sig (Elt F)) :=
  [ StableHlo.binary main_v216 main_arg11 main_v217 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg12 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S50000x64 ![0, 1] bcast_S1x64_S50000x64_0_1 : (⟨S1x64, .f32⟩ : BufTy).Contents (Elt F) → (⟨S50000x64, .f32⟩ : BufTy).Contents (Elt F)),
    StableHlo.binary main_v217 main_v219 main_v220 (addf : (⟨S50000x64, .f32⟩ : BufTy).Contents (Elt F) → (⟨S50000x64, .f32⟩ : BufTy).Contents (Elt F) → (⟨S50000x64, .f32⟩ : BufTy).Contents (Elt F)),
    StableHlo.nullary main_cst_39 (constant S_ .f32 0x00000000#32),
    StableHlo.binary main_v220 main_cst_39 main_v221 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_40 (constant S_ .f32 0x47435000#32),
    StableHlo.unary main_cst_40 main_v222 (broadcastInDim S64 ![] bcast_S_S64 : (⟨S_, .f32⟩ : BufTy).Contents (Elt F) → (⟨S64, .f32⟩ : BufTy).Contents (Elt F)),
    StableHlo.binary main_v221 main_v222 main_v223 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call4.cst (constant S_ .f32 0x00000000#32),
    StableHlo.TRef.binary (.of main_v220 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v220 : StableHlo.TRef sig ⟨S50000x64, .f32⟩) main_call4.v4 main_call4.v5 subf,
    StableHlo.TRef.binary main_call4.v5 main_call4.v5 main_call4.v6 mulf,
    StableHlo.TRef.unary (.of main_c_41 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4_call0.v0 id,
    StableHlo.TRef.unary main_call4_call0.v0 main_call4_call0.v1 (broadcastInDim S64 ![] bcast_S_S64),
    StableHlo.TRef.ternary main_call4.v12 main_call4.v11 main_call4_call0.v1 main_call4_call0.v2 (fun p a b => select (broadcastInDim S64 ![] bcast_S_S64 p) a b),
    StableHlo.unary main_v223 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v226 main_v227 (subf : (⟨S50000x64, .f32⟩ : BufTy).Contents (Elt F) → (⟨S50000x64, .f32⟩ : BufTy).Contents (Elt F) → (⟨S50000x64, .f32⟩ : BufTy).Contents (Elt F)),
    StableHlo.unary main_arg13 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S50000x64 ![0, 1] bcast_S1x64_S50000x64_0_1 : (⟨S1x64, .f32⟩ : BufTy).Contents (Elt F) → (⟨S50000x64, .f32⟩ : BufTy).Contents (Elt F)),
    StableHlo.binary main_v229 main_v227 main_v230 (mulf : (⟨S50000x64, .f32⟩ : BufTy).Contents (Elt F) → (⟨S50000x64, .f32⟩ : BufTy).Contents (Elt F) → (⟨S50000x64, .f32⟩ : BufTy).Contents (Elt F)),
    StableHlo.nullary main_cst_42 (constant S_ .f32 0x3727C5AC#32),
    StableHlo.unary main_cst_42 main_v231 (broadcastInDim S64 ![] bcast_S_S64 : (⟨S_, .f32⟩ : BufTy).Contents (Elt F) → (⟨S64, .f32⟩ : BufTy).Contents (Elt F)),
    StableHlo.binary main_v224 main_v231 main_v232 (addf : (⟨S64, .f32⟩ : BufTy).Contents (Elt F) → (⟨S64, .f32⟩ : BufTy).Contents (Elt F) → (⟨S64, .f32⟩ : BufTy).Contents (Elt F)),
    StableHlo.unary main_v232 main_v233 (Host.rsqrt : (⟨S64, .f32⟩ : BufTy).Contents (Elt F) → (⟨S64, .f32⟩ : BufTy).Contents (Elt F)),
    StableHlo.unary main_v233 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S50000x64 ![0, 1] bcast_S1x64_S50000x64_0_1 : (⟨S1x64, .f32⟩ : BufTy).Contents (Elt F) → (⟨S50000x64, .f32⟩ : BufTy).Contents (Elt F)),
    StableHlo.binary main_v230 main_v235 main_v236 (mulf : (⟨S50000x64, .f32⟩ : BufTy).Contents (Elt F) → (⟨S50000x64, .f32⟩ : BufTy).Contents (Elt F) → (⟨S50000x64, .f32⟩ : BufTy).Contents (Elt F)),
    StableHlo.unary main_arg14 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S50000x64 ![0, 1] bcast_S1x64_S50000x64_0_1 : (⟨S1x64, .f32⟩ : BufTy).Contents (Elt F) → (⟨S50000x64, .f32⟩ : BufTy).Contents (Elt F)),
    StableHlo.binary main_v236 main_v238 main_v239 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v239 : StableHlo.TRef sig ⟨S50000x64, .f32⟩) main_call5.v0 main_call5.v1 maximumf ]

theorem sh_sub : (sh : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem sh_fresh : (sh : List (HloOp τ sig (Elt F))).Forall fun op => op.fresh = ∅ := by
  simp only [List.Forall]; repeat' constructor

/-- Operations 355 to 358 of the line. -/
abbrev si : List (HloOp τ sig (Elt F)) :=
  [ StableHlo.binary main_v240 main_arg15 main_v241 ((fun l r => Host.dotGeneral dot_S50000x64_S64x1000_S50000x1000_1_0_0_1_n_n none l r) : (⟨S50000x64, .f32⟩ : BufTy).Contents (Elt F) → (⟨S64x1000, .f32⟩ : BufTy).Contents (Elt F) → (⟨S50000x1000, .f32⟩ : BufTy).Contents (Elt F)),
    StableHlo.unary main_arg16 main_v242 (broadcastInDim S1x1000 ![1] bcast_S1000_S1x1000_1 : (⟨S1000, .f32⟩ : BufTy).Contents (Elt F) → (⟨S1x1000, .f32⟩ : BufTy).Contents (Elt F)),
    StableHlo.unary main_v242 main_v243 (broadcastInDim S50000x1000 ![0, 1] bcast_S1x1000_S50000x1000_0_1 : (⟨S1x1000, .f32⟩ : BufTy).Contents (Elt F) → (⟨S50000x1000, .f32⟩ : BufTy).Contents (Elt F)),
    StableHlo.binary main_v241 main_v243 main_v244 (addf : (⟨S50000x1000, .f32⟩ : BufTy).Contents (Elt F) → (⟨S50000x1000, .f32⟩ : BufTy).Contents (Elt F) → (⟨S50000x1000, .f32⟩ : BufTy).Contents (Elt F)) ]

theorem si_sub : (si : List (HloOp τ sig (Elt F))).Forall fun op => op.bufs ⊆ tcRefs τ sig :=
  ⟨binary_bufs_sub .., unary_bufs_sub .., unary_bufs_sub .., binary_bufs_sub ..⟩

theorem si_fresh : (si : List (HloOp τ sig (Elt F))).Forall fun op => op.fresh = ∅ := by
  simp only [List.Forall]; repeat' constructor

set_option maxRecDepth 65536 in
set_option maxHeartbeats 4000000 in
theorem part0_eq (d : Dev nD) : main_part0 (F := F) d = seq (sa ++ (sb ++ (sc))) := by
  simp only [sa, sb, sc, List.cons_append, List.nil_append, main_part0, fn_where.body, fn_var.body, fn_relu.body, fn_where_1.body, fn_var_0.body, fn_relu_2.body, seq, bind_assoc, pure_bind]
  try rfl

set_option maxRecDepth 65536 in
set_option maxHeartbeats 4000000 in
theorem part1_eq (d : Dev nD) : main_part1 (F := F) d = seq (sd) := by
  simp only [sd, List.cons_append, List.nil_append, main_part1, fn_where.body, fn_var.body, fn_relu.body, fn_where_1.body, fn_var_0.body, fn_relu_2.body, seq, bind_assoc, pure_bind]
  try rfl

set_option maxRecDepth 65536 in
set_option maxHeartbeats 4000000 in
theorem part2_eq (d : Dev nD) : main_part2 (F := F) d = seq (se) := by
  simp only [se, List.cons_append, List.nil_append, main_part2, fn_where.body, fn_var.body, fn_relu.body, fn_where_1.body, fn_var_0.body, fn_relu_2.body, seq, bind_assoc, pure_bind]
  try rfl

set_option maxRecDepth 65536 in
set_option maxHeartbeats 4000000 in
theorem part3_eq (d : Dev nD) : main_part3 (F := F) d = seq (sf) := by
  simp only [sf, List.cons_append, List.nil_append, main_part3, fn_where.body, fn_var.body, fn_relu.body, fn_where_1.body, fn_var_0.body, fn_relu_2.body, seq, bind_assoc, pure_bind]
  try rfl

set_option maxRecDepth 65536 in
set_option maxHeartbeats 4000000 in
theorem part4_eq (d : Dev nD) : main_part4 (F := F) d = seq (sg ++ (sh ++ (si))) := by
  simp only [sg, sh, si, List.cons_append, List.nil_append, main_part4, fn_where.body, fn_var.body, fn_relu.body, fn_where_1.body, fn_var_0.body, fn_relu_2.body, seq, bind_assoc, pure_bind]
  try rfl

/-- The whole line. -/
abbrev ops : List (HloOp τ sig (Elt F)) := sa ++ (sb ++ (sc ++ (sd ++ (se ++ (sf ++ (sg ++ (sh ++ (si))))))))

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem seq_append3 (a b c : List (HloOp τ sig (Elt F))) :
    (seq (a ++ (b ++ c)) : Prog (TpuEff nD τ sig (Elt F) (Pipeline.Sig Λ₀ (Fin 0) fun p => (pcfgs (F := F) p).Adm) .tc) PUnit) = seq a >>= fun _ => seq b >>= fun _ => seq c := by
  rw [seq_append, seq_append]

theorem main_eq (d : Dev nD) : main (F := F) d = seq ops := by
  have e : (seq (ops (F := F)) : Prog (TpuEff nD τ sig (Elt F) (Pipeline.Sig Λ₀ (Fin 0) fun p => (pcfgs (F := F) p).Adm) .tc) PUnit)
      = seq (sa ++ (sb ++ sc)) >>= fun _ => seq sd >>= fun _ => seq se >>= fun _ => seq sf >>= fun _ => seq (sg ++ (sh ++ si)) := by
    simp only [ops, seq_append, bind_assoc]
  rw [e, ← part0_eq d, ← part1_eq d, ← part2_eq d, ← part3_eq d, ← part4_eq d]
  simp only [main, bind_assoc]

theorem ops_sub : (ops : List (HloOp τ sig (Elt F))).Forall fun op => op.bufs ⊆ tcRefs τ sig :=
  forall_append sa_sub (forall_append sb_sub (forall_append sc_sub (forall_append sd_sub (forall_append se_sub (forall_append sf_sub (forall_append sg_sub (forall_append sh_sub (si_sub))))))))

theorem ops_fresh : (ops : List (HloOp τ sig (Elt F))).Forall fun op => op.fresh = ∅ :=
  forall_append sa_fresh (forall_append sb_fresh (forall_append sc_fresh (forall_append sd_fresh (forall_append se_fresh (forall_append sf_fresh (forall_append sg_fresh (forall_append sh_fresh (si_fresh))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference's @main terminates, and every final state has each buffer at the
    fold of the line's operations over its launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Line

end
-- ==== Proof.RefVal.lean ====
/-
  What the reference computes. Each piece of the line, read at the buffer the next piece takes, is the corresponding
  layer (Proof/RefFns.lean) of the buffers it reads; no piece writes an argument; so the result buffer ends at the
  whole network applied to the arguments' launch contents.
-/
import proofs.«123233_j6760278524490_1_alg».proof.Proof.RefLine
import proofs.«123233_j6760278524490_1_alg».proof.Proof.RefFns

noncomputable section

namespace Cert.ReferenceIdeal.Line

open Cert.ReferenceIdeal Idealize.ShloMosaic Idealize.ShloMosaic.TcCoe Idealize.SL.Sem Idealize.ShloMosaic.StableHlo

variable {F : FTy → Type} [FloatOps F] [Facts]
open Facts₀ Facts

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The seventeen argument buffers. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16]

theorem ne_of_args {r y : Ref sig .tc} (hr : r ∈ argRefs) (hy : y ∉ argRefs) : r ≠ y := fun e => hy (e ▸ hr)

set_option maxHeartbeats 4000000 in
/-- No operation of this piece writes an argument. -/
theorem keep_sa (V : Valuation τ sig (Elt F)) (r : Ref sig .tc) (hr : r ∈ argRefs) :
    after sa V (Proc.devRef .tc r) = V (Proc.devRef .tc r) :=
  after_of_forall_not_mem _ _ (List.forall_iff_forall_mem.mp (by
    simp only [sa, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sb (V : Valuation τ sig (Elt F)) (r : Ref sig .tc) (hr : r ∈ argRefs) :
    after sb V (Proc.devRef .tc r) = V (Proc.devRef .tc r) :=
  after_of_forall_not_mem _ _ (List.forall_iff_forall_mem.mp (by
    simp only [sb, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sc (V : Valuation τ sig (Elt F)) (r : Ref sig .tc) (hr : r ∈ argRefs) :
    after sc V (Proc.devRef .tc r) = V (Proc.devRef .tc r) :=
  after_of_forall_not_mem _ _ (List.forall_iff_forall_mem.mp (by
    simp only [sc, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sd (V : Valuation τ sig (Elt F)) (r : Ref sig .tc) (hr : r ∈ argRefs) :
    after sd V (Proc.devRef .tc r) = V (Proc.devRef .tc r) :=
  after_of_forall_not_mem _ _ (List.forall_iff_forall_mem.mp (by
    simp only [sd, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_se (V : Valuation τ sig (Elt F)) (r : Ref sig .tc) (hr : r ∈ argRefs) :
    after se V (Proc.devRef .tc r) = V (Proc.devRef .tc r) :=
  after_of_forall_not_mem _ _ (List.forall_iff_forall_mem.mp (by
    simp only [se, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sf (V : Valuation τ sig (Elt F)) (r : Ref sig .tc) (hr : r ∈ argRefs) :
    after sf V (Proc.devRef .tc r) = V (Proc.devRef .tc r) :=
  after_of_forall_not_mem _ _ (List.forall_iff_forall_mem.mp (by
    simp only [sf, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sg (V : Valuation τ sig (Elt F)) (r : Ref sig .tc) (hr : r ∈ argRefs) :
    after sg V (Proc.devRef .tc r) = V (Proc.devRef .tc r) :=
  after_of_forall_not_mem _ _ (List.forall_iff_forall_mem.mp (by
    simp only [sg, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_sh (V : Valuation τ sig (Elt F)) (r : Ref sig .tc) (hr : r ∈ argRefs) :
    after sh V (Proc.devRef .tc r) = V (Proc.devRef .tc r) :=
  after_of_forall_not_mem _ _ (List.forall_iff_forall_mem.mp (by
    simp only [sh, List.Forall, nullary_writes, unary_writes, binary_writes, ternary_writes, quaternary_writes, reshape_writes, Finset.mem_singleton]
    repeat' apply And.intro
    all_goals exact devRef_ne_of_ne (ne_of_args hr (by decide))))

set_option maxHeartbeats 4000000 in
/-- No operation of this piece writes an argument. -/
theorem keep_si (V : Valuation τ sig (Elt F)) (r : Ref sig .tc) (hr : r ∈ argRefs) :
    after si V (Proc.devRef .tc r) = V (Proc.devRef .tc r) :=
  after_of_forall_not_mem _ _ (List.forall_iff_forall_mem.mp (by
    simp only [si, List.Forall, nullary_writes, unary_writes, binary_writes, ternary_writes, quaternary_writes, reshape_writes, Finset.mem_singleton]
    repeat' apply And.intro
    all_goals exact devRef_ne_of_ne (ne_of_args hr (by decide))))

set_option maxRecDepth 65536 in
set_option maxHeartbeats 4000000 in
/-- The first piece: a dense layer, its columns' mean and variance, the normalisation with the rectifier. -/
theorem val_a (V : Valuation τ sig (Elt F)) :
    after sa V (Proc.devRef .tc main_v23)
      = Fns.norm128 (Fns.dense128 (V (Proc.devRef .tc main_arg0)) (V (Proc.devRef .tc main_arg2)) (V (Proc.devRef .tc main_arg3))) (Fns.mean128 (Fns.dense128 (V (Proc.devRef .tc main_arg0)) (V (Proc.devRef .tc main_arg2)) (V (Proc.devRef .tc main_arg3))))
          (Fns.var128 (Fns.dense128 (V (Proc.devRef .tc main_arg0)) (V (Proc.devRef .tc main_arg2)) (V (Proc.devRef .tc main_arg3))) (constantI S_ 32 0#32)) (V (Proc.devRef .tc main_arg4)) (V (Proc.devRef .tc main_arg5)) := by
  dsimp only [sa]
  after_results_simp
  rfl

set_option maxRecDepth 65536 in
set_option maxHeartbeats 4000000 in
/-- The second piece: the same on the first layer's output, plus that output. -/
theorem val_b (V : Valuation τ sig (Elt F)) :
    after sb V (Proc.devRef .tc main_v48)
      = addf (Fns.norm128 (Fns.dense128 (V (Proc.devRef .tc main_v23)) (V (Proc.devRef .tc main_arg6)) (V (Proc.devRef .tc main_arg7))) (Fns.mean128 (Fns.dense128 (V (Proc.devRef .tc main_v23)) (V (Proc.devRef .tc main_arg6)) (V (Proc.devRef .tc main_arg7))))
          (Fns.var128 (Fns.dense128 (V (Proc.devRef .tc main_v23)) (V (Proc.devRef .tc main_arg6)) (V (Proc.devRef .tc main_arg7))) (constantI S_ 32 0#32)) (V (Proc.devRef .tc main_arg8)) (V (Proc.devRef .tc main_arg9))) (V (Proc.devRef .tc main_v23)) := by
  dsimp only [sb]
  after_results_simp
  rfl

set_option maxRecDepth 65536 in
set_option maxHeartbeats 16000000 in
/-- The five pieces of the propagation. -/
theorem val_p (V : Valuation τ sig (Elt F)) :
    after sg (after sf (after se (after sd (after sc V)))) (Proc.devRef .tc main_v216)
      = Fns.propagate (V (Proc.devRef .tc main_v48)) (V (Proc.devRef .tc main_arg1)) (V (Proc.devRef .tc main_arg10)) := by
  dsimp only [sc, sd, se, sf, sg]
  after_results_simp
  rfl

set_option maxRecDepth 65536 in
set_option maxHeartbeats 4000000 in
/-- The third normalised dense layer. -/
theorem val_h (V : Valuation τ sig (Elt F)) :
    after sh V (Proc.devRef .tc main_v240)
      = Fns.norm64 (Fns.dense64 (V (Proc.devRef .tc main_v216)) (V (Proc.devRef .tc main_arg11)) (V (Proc.devRef .tc main_arg12))) (Fns.mean64 (Fns.dense64 (V (Proc.devRef .tc main_v216)) (V (Proc.devRef .tc main_arg11)) (V (Proc.devRef .tc main_arg12))))
          (Fns.var64 (Fns.dense64 (V (Proc.devRef .tc main_v216)) (V (Proc.devRef .tc main_arg11)) (V (Proc.devRef .tc main_arg12))) (constantI S_ 32 0#32)) (V (Proc.devRef .tc main_arg13)) (V (Proc.devRef .tc main_arg14)) := by
  dsimp only [sh]
  after_results_simp
  rfl

/-- The output layer. -/
theorem val_i (V : Valuation τ sig (Elt F)) :
    after si V (Proc.devRef .tc main_v244) = Fns.dense1000 (V (Proc.devRef .tc main_v240)) (V (Proc.devRef .tc main_arg15)) (V (Proc.devRef .tc main_arg16)) := by
  dsimp only [si]
  after_results_simp
  rfl

end Cert.ReferenceIdeal.Line

end
-- ==== Proof.RefFinal.lean ====
/-
  The reference's run, read: every weakly fair execution of the reference's @main terminates with the result buffer at
  the whole network of the arguments' launch contents, and the arguments unchanged.
-/
import proofs.«123233_j6760278524490_1_alg».proof.Proof.RefVal

noncomputable section

namespace Cert.ReferenceIdeal.Line

open Cert.ReferenceIdeal Idealize.ShloMosaic Idealize.ShloMosaic.TcCoe Idealize.SL.Sem Idealize.ShloMosaic.StableHlo

variable {F : FTy → Type} [FloatOps F] [Facts]
open Facts₀ Facts

/-- The line is its nine pieces one after the other. -/
theorem after_ops (V : Valuation τ sig (Elt F)) : after ops V = after si (after sh (after sg (after sf (after se (after sd (after sc (after sb (after sa V)))))))) := by
  simp only [ops, after_append]

/-- No operation of the line writes an argument. -/
theorem keep_all (V : Valuation τ sig (Elt F)) (r : Ref sig .tc) (hr : r ∈ argRefs) :
    after ops V (Proc.devRef .tc r) = V (Proc.devRef .tc r) := by
  rw [after_ops, keep_si _ r hr, keep_sh _ r hr, keep_sg _ r hr, keep_sf _ r hr, keep_se _ r hr, keep_sd _ r hr, keep_sc _ r hr, keep_sb _ r hr, keep_sa _ r hr]

set_option maxHeartbeats 4000000 in
/-- The result buffer after the line. -/
theorem result_eq (V : Valuation τ sig (Elt F)) :
    after ops V (Proc.devRef .tc main_v244)
      = Fns.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops, val_i, val_h, val_p, val_b, val_a]
  simp (disch := decide) only [keep_sa, keep_sb, keep_sc, keep_sd, keep_se, keep_sf, keep_sg, keep_sh, keep_si]
  rfl

/-- The reference's run with its result named. -/
theorem run (m' : (ℓ : Loc nD τ sig) → Buf (Elt F) ℓ) (ρ : Dev nD → PrngReg) :
    θ_run defs (onTc (τ := τ) (main (F := F))) ⟨m', fun _ => 0, ρ⟩ fun r => ∀ c : Dev nD,
      r.2.mem ((c.tc : Thread nD τ).loc main_v244) = Fns.network (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16) :=
  (θ_run defs _ _).mono (fun _ h c => ⟨(h c main_v244).trans (result_eq _),
      (h c main_arg0).trans (keep_all _ main_arg0 (by decide)),
      (h c main_arg1).trans (keep_all _ main_arg1 (by decide)),
      (h c main_arg2).trans (keep_all _ main_arg2 (by decide)),
      (h c main_arg3).trans (keep_all _ main_arg3 (by decide)),
      (h c main_arg4).trans (keep_all _ main_arg4 (by decide)),
      (h c main_arg5).trans (keep_all _ main_arg5 (by decide)),
      (h c main_arg6).trans (keep_all _ main_arg6 (by decide)),
      (h c main_arg7).trans (keep_all _ main_arg7 (by decide)),
      (h c main_arg8).trans (keep_all _ main_arg8 (by decide)),
      (h c main_arg9).trans (keep_all _ main_arg9 (by decide)),
      (h c main_arg10).trans (keep_all _ main_arg10 (by decide)),
      (h c main_arg11).trans (keep_all _ main_arg11 (by decide)),
      (h c main_arg12).trans (keep_all _ main_arg12 (by decide)),
      (h c main_arg13).trans (keep_all _ main_arg13 (by decide)),
      (h c main_arg14).trans (keep_all _ main_arg14 (by decide)),
      (h c main_arg15).trans (keep_all _ main_arg15 (by decide)),
      (h c main_arg16).trans (keep_all _ main_arg16 (by decide))⟩)
    (run_line m' ρ)

end Cert.ReferenceIdeal.Line

end
-- ==== Proof.lean ====
/-
  The certificate of a graph network — two normalised dense layers (the second with a skip connection), ten steps of
  propagation along the edges weighted by a softmax of eleven scores, a third normalised dense layer and an output layer —
  whose dense and normalisation layers run as seven launches over blocks of 1000 rows, against the same network written as
  whole-array operations.

  At the extended reals the two programs compute one function of the arguments. Each launch's output array is its layer of
  the launch's whole input arrays (a block of rows of a product is the product of the block of rows; a normalisation acts
  entry by entry; fifty blocks of 1000 rows tile the 50000 rows); between launches both programs run the same host
  operations (column means and variances, the propagation); and the kernel's way of making a row of a vector, a reshape
  repeated inside the launch, is the reference's double broadcast. No algebraic law beyond these identities is used, so the
  precondition is never opened. The frames of the two kernel programs are the generated frame certificates (the copies
  Proof/KernelFrameP.lean and Proof/KernelIdealFrameP.lean); the reference's frame is its run with the result dropped; the ideal
  pass rewrote nothing, so its conjunct is trivial.
-/
import proofs.«123233_j6760278524490_1_alg».proof.Defs
import proofs.«123233_j6760278524490_1_alg».proof.Proof.Gen.Kernel
import proofs.«123233_j6760278524490_1_alg».proof.Proof.Gen.KernelIdeal
import proofs.«123233_j6760278524490_1_alg».proof.Proof.Gen.ReferenceIdeal
import proofs.«123233_j6760278524490_1_alg».proof.Proof.Gen.Pre_finite_inputs
import proofs.«123233_j6760278524490_1_alg».proof.Proof.KernelFrameP
import proofs.«123233_j6760278524490_1_alg».proof.Proof.KernelIdealFrameP
import proofs.«123233_j6760278524490_1_alg».proof.Proof.KRun
import proofs.«123233_j6760278524490_1_alg».proof.Proof.KFinal
import proofs.«123233_j6760278524490_1_alg».proof.Proof.RefFinal
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Line.run (F := Ideal) m ρ)

/-- Both idealized programs end with the result at the network of the (agreeing) arguments. -/
theorem algebraic : Cert.algebraic_KernelIdeal_ReferenceIdeal := by
  intro m ρ m' ρ' _ hagree
  refine ⟨fun c => Cert.KernelIdeal.GenP.kout m c, ?_, ?_⟩
  · exact (θ_run Cert.KernelIdeal.defs _ _).mono
      (fun r h c => ⟨(h c).1.trans (Cert.KernelIdeal.GenP.kernel_value m ρ c), (h c).2⟩)
      (Cert.KernelIdeal.GenP.run_val m ρ)
  · refine (θ_run Cert.ReferenceIdeal.defs _ _).mono (fun r h c => ⟨(h c).1.trans ?_, (h c).2⟩)
      (Cert.ReferenceIdeal.Line.run (F := Ideal) m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]
    exact (Cert.KernelIdeal.GenP.network_eq m c).trans (Cert.KernelIdeal.GenP.kout_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
